-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel

variable [Facts]

def fn_part1 {F : FTy → Type} [FloatOps F] (main_arg0 : FVec F S64x256x32x32 .f32) (main_arg1 : FVec F S64x256x32x32 .f32) (main_v13 : IVec S_ 1) (main_v17 : IVec S_ 1) : IVec S_ 1 :=
  let main_v18 : IVec S_ 1 := andi main_v13 main_v17
  let main_cst_4 : FVec F S_ .f32 := constant S_ .f32 0x00000000#32
  let main_v19 : FVec F S64x256x32x32 .f32 := broadcastInDim S64x256x32x32 ![] bcast_S_S64x256x32x32 main_cst_4
  let main_v20 : IVec S64x256x32x32 1 := cmpf .oge main_arg0 main_v19
  let main_c_5 : IVec S_ 1 := constantI S_ 1 1#1
  let main_v21 : IVec S_ 1 := (fun x v => Host.reduce IntOp.andi x v reducesTo_S64x256x32x32_S_d0_1_2_3 h_S_) main_v20 main_c_5
  let main_v22 : IVec S_ 1 := andi main_v18 main_v21
  let main_cst_6 : FVec F S_ .f32 := constant S_ .f32 0x00000000#32
  let main_v23 : FVec F S64x256x32x32 .f32 := broadcastInDim S64x256x32x32 ![] bcast_S_S64x256x32x32 main_cst_6
  let main_v24 : IVec S64x256x32x32 1 := cmpf .oge main_arg1 main_v23
  let main_c_7 : IVec S_ 1 := constantI S_ 1 1#1
  let main_v25 : IVec S_ 1 := (fun x v => Host.reduce IntOp.andi x v reducesTo_S64x256x32x32_S_d0_1_2_3 h_S_) main_v24 main_c_7
  let main_v26 : IVec S_ 1 := andi main_v22 main_v25
  main_v26

def fn {F : FTy → Type} [FloatOps F] (main_arg0 : FVec F S64x256x32x32 .f32) (main_arg1 : FVec F S64x256x32x32 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  let main_v4 : FVec F S64x256x32x32 .f32 := Host.absf main_arg1
  let main_cst_0 : FVec F S_ .f32 := constant S_ .f32 0x7F800000#32
  let main_v5 : FVec F S64x256x32x32 .f32 := broadcastInDim S64x256x32x32 ![] bcast_S_S64x256x32x32 main_cst_0
  let main_v6 : IVec S64x256x32x32 1 := cmpf .olt main_v4 main_v5
  let main_c_1 : IVec S_ 1 := constantI S_ 1 1#1
  let main_v7 : IVec S_ 1 := (fun x v => Host.reduce IntOp.andi x v reducesTo_S64x256x32x32_S_d0_1_2_3 h_S_) main_v6 main_c_1
  let main_v8 : IVec S_ 1 := andi main_v3 main_v7
  let main_v9 : IVec S64x256x32x32 32 := fptosi 32 main_arg0
  let main_v10 : FVec F S64x256x32x32 .f32 := sitofp .f32 main_v9
  let main_v11 : IVec S64x256x32x32 1 := cmpf .oeq main_v10 main_arg0
  let main_c_2 : IVec S_ 1 := constantI S_ 1 1#1
  let main_v12 : IVec S_ 1 := (fun x v => Host.reduce IntOp.andi x v reducesTo_S64x256x32x32_S_d0_1_2_3 h_S_) main_v11 main_c_2
  let main_v13 : IVec S_ 1 := andi main_v8 main_v12
  let main_v14 : IVec S64x256x32x32 32 := fptosi 32 main_arg1
  let main_v15 : FVec F S64x256x32x32 .f32 := sitofp .f32 main_v14
  let main_v16 : IVec S64x256x32x32 1 := cmpf .oeq main_v15 main_arg1
  let main_c_3 : IVec S_ 1 := constantI S_ 1 1#1
  let main_v17 : IVec S_ 1 := (fun x v => Host.reduce IntOp.andi x v reducesTo_S64x256x32x32_S_d0_1_2_3 h_S_) main_v16 main_c_3
  fn_part1 (F := F) main_arg0 main_arg1 main_v13 main_v17
-- ==== Kernel.lean ====
abbrev S64x256x32x32 : Shape := ⟨4, ![64, 256, 32, 32]⟩
abbrev S64x262144 : Shape := ⟨2, ![64, 262144]⟩
abbrev S64x256 : Shape := ⟨2, ![64, 256]⟩
abbrev S16x16384 : Shape := ⟨2, ![16, 16384]⟩
abbrev S16x256 : Shape := ⟨2, ![16, 256]⟩
abbrev S1x1x128 : Shape := ⟨3, ![1, 1, 128]⟩
abbrev S16x512 : Shape := ⟨2, ![16, 512]⟩
abbrev S16x512x1 : Shape := ⟨3, ![16, 512, 1]⟩
abbrev S16x512x128 : Shape := ⟨3, ![16, 512, 128]⟩
abbrev S16x1x512 : Shape := ⟨3, ![16, 1, 512]⟩
abbrev S16x1x128 : Shape := ⟨3, ![16, 1, 128]⟩
abbrev S16x128 : Shape := ⟨2, ![16, 128]⟩
abbrev S_ : Shape := ⟨0, ![]⟩
abbrev S64 : Shape := ⟨1, ![64]⟩
abbrev S64x1 : Shape := ⟨2, ![64, 1]⟩

abbrev nBuf : Space → Nat
  | .hbm => 58
  | .vmem => 8
  | .smem => 0
  | _ => 0

abbrev bufTy : (tb : Table) → Fin (tcTables nBuf tb) → BufTy
  | .hbm, ⟨0, _⟩ => ⟨S64x256x32x32, .f32⟩
  | .hbm, ⟨1, _⟩ => ⟨S64x256x32x32, .f32⟩
  | .hbm, ⟨2, _⟩ => ⟨S64x262144, .f32⟩
  | .hbm, ⟨3, _⟩ => ⟨S64x256, .f32⟩
  | .hbm, ⟨4, _⟩ => ⟨S_, .f32⟩
  | .hbm, ⟨5, _⟩ => ⟨S64x256, .f32⟩
  | .hbm, ⟨6, _⟩ => ⟨S64x256, .f32⟩
  | .hbm, ⟨7, _⟩ => ⟨S64x256, .f32⟩
  | .hbm, ⟨8, _⟩ => ⟨S64x262144, .f32⟩
  | .hbm, ⟨9, _⟩ => ⟨S64x256, .f32⟩
  | .hbm, ⟨10, _⟩ => ⟨S_, .f32⟩
  | .hbm, ⟨11, _⟩ => ⟨S64x256, .f32⟩
  | .hbm, ⟨12, _⟩ => ⟨S64x256, .f32⟩
  | .hbm, ⟨13, _⟩ => ⟨S64x256, .f32⟩
  | .hbm, ⟨14, _⟩ => ⟨S_, .f32⟩
  | .hbm, ⟨15, _⟩ => ⟨S64x256, .f32⟩
  | .hbm, ⟨16, _⟩ => ⟨S64x256, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64x1, .f32⟩
  | .hbm, ⟨23, _⟩ => ⟨S64x256, .f32⟩
  | .hbm, ⟨24, _⟩ => ⟨S64x256, .f32⟩
  | .hbm, ⟨25, _⟩ => ⟨S64x256, .f32⟩
  | .hbm, ⟨26, _⟩ => ⟨S_, .f32⟩
  | .hbm, ⟨27, _⟩ => ⟨S64, .f32⟩
  | .hbm, ⟨28, _⟩ => ⟨S64x1, .f32⟩
  | .hbm, ⟨29, _⟩ => ⟨S64x1, .f32⟩
  | .hbm, ⟨30, _⟩ => ⟨S64x256, .f32⟩
  | .hbm, ⟨31, _⟩ => ⟨S64x256, .f32⟩
  | .hbm, ⟨32, _⟩ => ⟨S_, .f32⟩
  | .hbm, ⟨33, _⟩ => ⟨S64x256, .f32⟩
  | .hbm, ⟨34, _⟩ => ⟨S64x256, .f32⟩
  | .hbm, ⟨35, _⟩ => ⟨S_, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64x1, .f32⟩
  | .hbm, ⟨41, _⟩ => ⟨S64x256, .f32⟩
  | .hbm, ⟨42, _⟩ => ⟨S64x256, .f32⟩
  | .hbm, ⟨43, _⟩ => ⟨S64x256, .f32⟩
  | .hbm, ⟨44, _⟩ => ⟨S_, .f32⟩
  | .hbm, ⟨45, _⟩ => ⟨S64, .f32⟩
  | .hbm, ⟨46, _⟩ => ⟨S64x1, .f32⟩
  | .hbm, ⟨47, _⟩ => ⟨S64x256, .f32⟩
  | .hbm, ⟨48, _⟩ => ⟨S64x256, .f32⟩
  | .hbm, ⟨49, _⟩ => ⟨S64x256, .f32⟩
  | .hbm, ⟨50, _⟩ => ⟨S64x256, .f32⟩
  | .hbm, ⟨51, _⟩ => ⟨S64x256, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S16x16384, .f32⟩
  | .local _ .vmem, ⟨1, _⟩ => ⟨S16x16384, .f32⟩
  | .local _ .vmem, ⟨2, _⟩ => ⟨S16x256, .f32⟩
  | .local _ .vmem, ⟨3, _⟩ => ⟨S16x256, .f32⟩
  | .local _ .vmem, ⟨4, _⟩ => ⟨S16x16384, .f32⟩
  | .local _ .vmem, ⟨5, _⟩ => ⟨S16x16384, .f32⟩
  | .local _ .vmem, ⟨6, _⟩ => ⟨S16x256, .f32⟩
  | .local _ .vmem, ⟨7, _⟩ => ⟨S16x256, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_call0_cst_0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_cst_1 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_6 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_cst_8 : Ref sig .tc := ⟨.hbm, 56, rfl⟩
abbrev main_v31 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_1 : BitVec 32 := 0#32
  let c32_i32 : BitVec 32 := 32#32
  let v5 : BitVec 32 := Scalar.addi c0_i32_1 c32_i32
  let c1_i32 : BitVec 32 := 1#32
  ⟨c0_i32_1, v5, c1_i32⟩
def k0_mult1 (k0_t1 : Fin k0_t1_loop.trips) : BitVec 32 :=
  let c0_i32_1 : BitVec 32 := 0#32
  let c1_i32 : BitVec 32 := 1#32
  let arg4 : BitVec 32 := Scf.iv c0_i32_1 c1_i32 k0_t1
  let c512_i32 : BitVec 32 := 512#32
  let v6 : BitVec 32 := Scalar.muli arg4 c512_i32
  v6
def k0_off1 (k0_t1 : Fin k0_t1_loop.trips) : Fin 2 → Nat :=
  let c0 : Index := 0#32
  let c0_i32_1 : BitVec 32 := 0#32
  let c1_i32 : BitVec 32 := 1#32
  let arg4 : BitVec 32 := Scf.iv c0_i32_1 c1_i32 k0_t1
  let c512_i32 : BitVec 32 := 512#32
  let v6 : BitVec 32 := Scalar.muli arg4 c512_i32
  let v7 : BitVec 32 := v6
  let v8 : Index := Scalar.indexCast v7
  ![0, v8.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 16], ![false, false]⟩

@[reducible] def k1_t1_loop : Scf.Loop 32 :=
  let c0_i32_1 : BitVec 32 := 0#32
  let c32_i32 : BitVec 32 := 32#32
  let v5 : BitVec 32 := Scalar.addi c0_i32_1 c32_i32
  let c1_i32 : BitVec 32 := 1#32
  ⟨c0_i32_1, v5, c1_i32⟩
def k1_mult1 (k1_t1 : Fin k1_t1_loop.trips) : BitVec 32 :=
  let c0_i32_1 : BitVec 32 := 0#32
  let c1_i32 : BitVec 32 := 1#32
  let arg4 : BitVec 32 := Scf.iv c0_i32_1 c1_i32 k1_t1
  let c512_i32 : BitVec 32 := 512#32
  let v6 : BitVec 32 := Scalar.muli arg4 c512_i32
  v6
def k1_off1 (k1_t1 : Fin k1_t1_loop.trips) : Fin 2 → Nat :=
  let c0 : Index := 0#32
  let c0_i32_1 : BitVec 32 := 0#32
  let c1_i32 : BitVec 32 := 1#32
  let arg4 : BitVec 32 := Scf.iv c0_i32_1 c1_i32 k1_t1
  let c512_i32 : BitVec 32 := 512#32
  let v6 : BitVec 32 := Scalar.muli arg4 c512_i32
  let v7 : BitVec 32 := v6
  let v8 : Index := Scalar.indexCast v7
  ![0, v8.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S16x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

class Facts₀ : Prop where
  shapeCasts_S64x256x32x32_S64x262144 : S64x256x32x32.ShapeCasts S64x262144
  inb_S16x256_S16x256_0_0 : ∀ a, (![0, 0] : Fin 2 → Nat) a + S16x256.size a ≤ S16x256.size a
  h_S16x256 : 0 < S16x256.numel
  iota_S1x1x128_d2_w32 : S1x1x128.Iotas .tc 32 [2]
  h_S16x512 : 0 < S16x512.numel
  shapeCasts_S16x512_S16x512 : S16x512.ShapeCasts S16x512
  shapeCasts_S16x512_S16x512x1 : S16x512.ShapeCasts S16x512x1
  broadcasts_S16x512x1_S16x512x128 : S16x512x1.Broadcasts S16x512x128
  broadcasts_S1x1x128_S16x512x128 : S1x1x128.Broadcasts S16x512x128
  natLt_1_32 : 1 < 32
  bitsLt_bf16_f32 : FTy.bits .bf16 < FTy.bits .f32
  shapeCasts_S16x512_S16x1x512 : S16x512.ShapeCasts S16x1x512
  shapeCasts_S16x1x128_S16x128 : S16x1x128.ShapeCasts S16x128
  inb_S16x256_S16x128_0_0 : ∀ a, (![0, 0] : Fin 2 → Nat) a + S16x128.size a ≤ S16x256.size a
  h_S16x128 : 0 < S16x128.numel
  shapeCasts_S16x128_S16x128 : S16x128.ShapeCasts S16x128
  inb_S16x256_S16x128_0_128 : ∀ a, (![0, 128] : Fin 2 → Nat) a + S16x128.size a ≤ S16x256.size a
  bcast_S_S64x256 : S_.BroadcastsInDim S64x256 (![] : Fin 0 → Fin S64x256.rank)
  reducesTo_S64x256_S64_d1 : S64x256.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  reducesTo_S64x256_S_d0_1 : S64x256.ReducesTo [0, 1] S_
  dot_S16x1x512_S16x512x128_S16x1x128_2_1_1_2_0_0_wf : DotDims.WF S16x1x512 S16x512x128 S16x1x128 [2] [1] [1] [2] [0] [0]
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S16x512.size a ≤ S16x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16384.size a ≤ S64x262144.size a
  hwx0_0 : ∀ i : grid0.Coords, EltTy.bits .f32 = 32 ∨ (Rect.block (s := S64x262144) S16x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S64x256.size a
  hwx0_1 : ∀ i : grid0.Coords, EltTy.bits .f32 = 32 ∨ (Rect.block (s := S64x256) S16x256.size (cc0_transform_1 i) (hinb0_1 i)).WholeWords (EltTy.packing .f32)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S16x512.size a ≤ S16x16384.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x16384.size a ≤ S64x262144.size a
  hwx1_0 : ∀ i : grid1.Coords, EltTy.bits .f32 = 32 ∨ (Rect.block (s := S64x262144) S16x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x256.size a ≤ S64x256.size a
  hwx1_1 : ∀ i : grid1.Coords, EltTy.bits .f32 = 32 ∨ (Rect.block (s := S64x256) S16x256.size (cc1_transform_1 i) (hinb1_1 i)).WholeWords (EltTy.packing .f32)

variable [Facts₀]

def dot_S16x1x512_S16x512x128_S16x1x128_2_1_1_2_0_0 : DotDims S16x1x512 S16x512x128 S16x1x128 where
  lhsContracting := [2]
  rhsContracting := [1]
  lhsNonContracting := [1]
  rhsNonContracting := [2]
  lhsBatch := [0]
  rhsBatch := [0]
  wf := dot_S16x1x512_S16x512x128_S16x1x128_2_1_1_2_0_0_wf

abbrev win0_0 : Pipeline.Window sig grid0 :=
  Pipeline.Window.ofSpec (Memref.whole main_v0) S16x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v5) S16x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S16x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S64x256x32x32 : Shape := ⟨4, ![64, 256, 32, 32]⟩
abbrev S64x262144 : Shape := ⟨2, ![64, 262144]⟩
abbrev S_ : Shape := ⟨0, ![]⟩
abbrev S64x256 : Shape := ⟨2, ![64, 256]⟩
abbrev S64 : Shape := ⟨1, ![64]⟩
abbrev S64x1 : Shape := ⟨2, ![64, 1]⟩
abbrev S64x262144x1 : Shape := ⟨3, ![64, 262144, 1]⟩
abbrev S64x262144x2 : Shape := ⟨3, ![64, 262144, 2]⟩

abbrev nBuf : Space → Nat
  | .hbm => 108
  | .vmem => 0
  | .smem => 0
  | _ => 0

abbrev bufTy : (tb : Table) → Fin (tcTables nBuf tb) → BufTy
  | .hbm, ⟨0, _⟩ => ⟨S64x256x32x32, .f32⟩
  | .hbm, ⟨1, _⟩ => ⟨S64x256x32x32, .f32⟩
  | .hbm, ⟨2, _⟩ => ⟨S64x262144, .f32⟩
  | .hbm, ⟨3, _⟩ => ⟨S64x262144, .i32⟩
  | .hbm, ⟨4, _⟩ => ⟨S_, .f32⟩
  | .hbm, ⟨5, _⟩ => ⟨S64x256, .f32⟩
  | .hbm, ⟨6, _⟩ => ⟨S64, .i32⟩
  | .hbm, ⟨7, _⟩ => ⟨S64x1, .i32⟩
  | .hbm, ⟨8, _⟩ => ⟨S_, .i32⟩
  | .hbm, ⟨9, _⟩ => ⟨S64x1, .i32⟩
  | .hbm, ⟨10, _⟩ => ⟨S64x1, .i1⟩
  | .hbm, ⟨11, _⟩ => ⟨S_, .i32⟩
  | .hbm, ⟨12, _⟩ => ⟨S64x1, .i32⟩
  | .hbm, ⟨13, _⟩ => ⟨S64x1, .i32⟩
  | .hbm, ⟨14, _⟩ => ⟨S64x1, .i32⟩
  | .hbm, ⟨15, _⟩ => ⟨S_, .i32⟩
  | .hbm, ⟨16, _⟩ => ⟨S64x262144, .i32⟩
  | .hbm, ⟨17, _⟩ => ⟨S64x262144, .i1⟩
  | .hbm, ⟨18, _⟩ => ⟨S_, .i32⟩
  | .hbm, ⟨19, _⟩ => ⟨S64x262144, .i32⟩
  | .hbm, ⟨20, _⟩ => ⟨S64x262144, .i32⟩
  | .hbm, ⟨21, _⟩ => ⟨S64x262144, .i32⟩
  | .hbm, ⟨22, _⟩ => ⟨S64x262144, .i32⟩
  | .hbm, ⟨23, _⟩ => ⟨S64x262144x1, .i32⟩
  | .hbm, ⟨24, _⟩ => ⟨S64x262144x1, .i32⟩
  | .hbm, ⟨25, _⟩ => ⟨S64x262144x2, .i32⟩
  | .hbm, ⟨26, _⟩ => ⟨S_, .f32⟩
  | .hbm, ⟨27, _⟩ => ⟨S64x262144, .f32⟩
  | .hbm, ⟨28, _⟩ => ⟨S64x256, .f32⟩
  | .hbm, ⟨29, _⟩ => ⟨S_, .f32⟩
  | .hbm, ⟨30, _⟩ => ⟨S64x256, .f32⟩
  | .hbm, ⟨31, _⟩ => ⟨S64x256, .f32⟩
  | .hbm, ⟨32, _⟩ => ⟨S64x256, .f32⟩
  | .hbm, ⟨33, _⟩ => ⟨S64x262144, .f32⟩
  | .hbm, ⟨34, _⟩ => ⟨S64x262144, .i32⟩
  | .hbm, ⟨35, _⟩ => ⟨S_, .f32⟩
  | .hbm, ⟨36, _⟩ => ⟨S64x256, .f32⟩
  | .hbm, ⟨37, _⟩ => ⟨S64, .i32⟩
  | .hbm, ⟨38, _⟩ => ⟨S64x1, .i32⟩
  | .hbm, ⟨39, _⟩ => ⟨S_, .i32⟩
  | .hbm, ⟨40, _⟩ => ⟨S64x1, .i32⟩
  | .hbm, ⟨41, _⟩ => ⟨S64x1, .i1⟩
  | .hbm, ⟨42, _⟩ => ⟨S_, .i32⟩
  | .hbm, ⟨43, _⟩ => ⟨S64x1, .i32⟩
  | .hbm, ⟨44, _⟩ => ⟨S64x1, .i32⟩
  | .hbm, ⟨45, _⟩ => ⟨S64x1, .i32⟩
  | .hbm, ⟨46, _⟩ => ⟨S_, .i32⟩
  | .hbm, ⟨47, _⟩ => ⟨S64x262144, .i32⟩
  | .hbm, ⟨48, _⟩ => ⟨S64x262144, .i1⟩
  | .hbm, ⟨49, _⟩ => ⟨S_, .i32⟩
  | .hbm, ⟨50, _⟩ => ⟨S64x262144, .i32⟩
  | .hbm, ⟨51, _⟩ => ⟨S64x262144, .i32⟩
  | .hbm, ⟨52, _⟩ => ⟨S64x262144, .i32⟩
  | .hbm, ⟨53, _⟩ => ⟨S64x262144, .i32⟩
  | .hbm, ⟨54, _⟩ => ⟨S64x262144x1, .i32⟩
  | .hbm, ⟨55, _⟩ => ⟨S64x262144x1, .i32⟩
  | .hbm, ⟨56, _⟩ => ⟨S64x262144x2, .i32⟩
  | .hbm, ⟨57, _⟩ => ⟨S_, .f32⟩
  | .hbm, ⟨58, _⟩ => ⟨S64x262144, .f32⟩
  | .hbm, ⟨59, _⟩ => ⟨S64x256, .f32⟩
  | .hbm, ⟨60, _⟩ => ⟨S_, .f32⟩
  | .hbm, ⟨61, _⟩ => ⟨S64x256, .f32⟩
  | .hbm, ⟨62, _⟩ => ⟨S64x256, .f32⟩
  | .hbm, ⟨63, _⟩ => ⟨S64x256, .f32⟩
  | .hbm, ⟨64, _⟩ => ⟨S_, .f32⟩
  | .hbm, ⟨65, _⟩ => ⟨S64x256, .f32⟩
  | .hbm, ⟨66, _⟩ => ⟨S64x256, .f32⟩
  | .hbm, ⟨67, _⟩ => ⟨S_, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S64x1, .f32⟩
  | .hbm, ⟨73, _⟩ => ⟨S64x256, .f32⟩
  | .hbm, ⟨74, _⟩ => ⟨S64x256, .f32⟩
  | .hbm, ⟨75, _⟩ => ⟨S64x256, .f32⟩
  | .hbm, ⟨76, _⟩ => ⟨S_, .f32⟩
  | .hbm, ⟨77, _⟩ => ⟨S64, .f32⟩
  | .hbm, ⟨78, _⟩ => ⟨S64x1, .f32⟩
  | .hbm, ⟨79, _⟩ => ⟨S64x1, .f32⟩
  | .hbm, ⟨80, _⟩ => ⟨S64x256, .f32⟩
  | .hbm, ⟨81, _⟩ => ⟨S64x256, .f32⟩
  | .hbm, ⟨82, _⟩ => ⟨S_, .f32⟩
  | .hbm, ⟨83, _⟩ => ⟨S64x256, .f32⟩
  | .hbm, ⟨84, _⟩ => ⟨S64x256, .f32⟩
  | .hbm, ⟨85, _⟩ => ⟨S_, .f32⟩
  | .hbm, ⟨86, _⟩ => ⟨S64, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S64x1, .f32⟩
  | .hbm, ⟨91, _⟩ => ⟨S64x256, .f32⟩
  | .hbm, ⟨92, _⟩ => ⟨S64x256, .f32⟩
  | .hbm, ⟨93, _⟩ => ⟨S64x256, .f32⟩
  | .hbm, ⟨94, _⟩ => ⟨S_, .f32⟩
  | .hbm, ⟨95, _⟩ => ⟨S64, .f32⟩
  | .hbm, ⟨96, _⟩ => ⟨S64x1, .f32⟩
  | .hbm, ⟨97, _⟩ => ⟨S64x256, .f32⟩
  | .hbm, ⟨98, _⟩ => ⟨S64x256, .f32⟩
  | .hbm, ⟨99, _⟩ => ⟨S64x256, .f32⟩
  | .hbm, ⟨100, _⟩ => ⟨S64x256, .f32⟩
  | .hbm, ⟨101, _⟩ => ⟨S64x256, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S64x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_c_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_8 : Ref sig .tc := ⟨.hbm, 46, rfl⟩
abbrev main_v34 : Ref sig .tc := ⟨.hbm, 47, rfl⟩
abbrev main_v35 : Ref sig .tc := ⟨.hbm, 48, rfl⟩
abbrev main_c_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_v49 : Ref sig .tc := ⟨.hbm, 66, rfl⟩
abbrev main_call0_cst : Ref sig .tc := ⟨.hbm, 67, rfl⟩
abbrev main_call0_v0 : Ref sig .tc := ⟨.hbm, 68, rfl⟩
abbrev main_call0_cst_0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_cst_1 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_v50 : Ref sig .tc := ⟨.hbm, 81, rfl⟩
abbrev main_cst_13 : Ref sig .tc := ⟨.hbm, 82, rfl⟩
abbrev main_v51 : Ref sig .tc := ⟨.hbm, 83, rfl⟩
abbrev main_v52 : Ref sig .tc := ⟨.hbm, 84, rfl⟩
abbrev main_cst_14 : Ref sig .tc := ⟨.hbm, 85, rfl⟩
abbrev main_v53 : Ref sig .tc := ⟨.hbm, 86, rfl⟩
abbrev main_cst_15 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_16 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_17 : Ref sig .tc := ⟨.hbm, 102, rfl⟩
abbrev main_v67 : Ref sig .tc := ⟨.hbm, 103, rfl⟩
abbrev main_cst_18 : Ref sig .tc := ⟨.hbm, 104, rfl⟩
abbrev main_v68 : Ref sig .tc := ⟨.hbm, 105, rfl⟩
abbrev main_cst_19 : Ref sig .tc := ⟨.hbm, 106, rfl⟩
abbrev main_v69 : Ref sig .tc := ⟨.hbm, 107, rfl⟩

abbrev nD : Nat := 1
abbrev τ : Topo := Topo.v7x

variable {F : FTy → Type} [FloatOps F]

class Facts₀ : Prop where
  shapeCasts_S64x256x32x32_S64x262144 : S64x256x32x32.ShapeCasts S64x262144
  bcast_S_S64x256 : S_.BroadcastsInDim S64x256 (![] : Fin 0 → Fin S64x256.rank)
  bcast_S64_S64x1_0 : S64.BroadcastsInDim S64x1 (![0] : Fin 1 → Fin S64x1.rank)
  bcast_S_S64x1 : S_.BroadcastsInDim S64x1 (![] : Fin 0 → Fin S64x1.rank)
  bcast_S_S64x262144 : S_.BroadcastsInDim S64x262144 (![] : Fin 0 → Fin S64x262144.rank)
  bcast_S64x1_S64x262144_0_1 : S64x1.BroadcastsInDim S64x262144 (![0, 1] : Fin 2 → Fin S64x262144.rank)
  bcast_S64x262144_S64x262144x1_0_1 : S64x262144.BroadcastsInDim S64x262144x1 (![0, 1] : Fin 2 → Fin S64x262144x1.rank)
  concatenates_S64x262144x1_S64x262144x1_S64x262144x2_d2 : Shape.Concatenates [S64x262144x1, S64x262144x1] S64x262144x2 2
  reducesTo_S64x256_S64_d1 : S64x256.ReducesTo [1] S64
  h_S_ : 0 < S_.numel
  bcast_S_S64 : S_.BroadcastsInDim S64 (![] : Fin 0 → Fin S64.rank)
  bcast_S64x1_S64x256_0_1 : S64x1.BroadcastsInDim S64x256 (![0, 1] : Fin 2 → Fin S64x256.rank)
  reducesTo_S64x256_S_d0_1 : S64x256.ReducesTo [0, 1] S_
  scatter_S64x256_S64x262144x2_S64x262144_n_01_01_2_wf : ScatterDims.WF S64x256 S64x262144x2 S64x262144 [] [0, 1] [0, 1] 2

variable [Facts₀]

def scatter_S64x256_S64x262144x2_S64x262144_n_01_01_2 : ScatterDims S64x256 S64x262144x2 S64x262144 where
  updateWindowDims := []
  insertedWindowDims := [0, 1]
  scatterDimsToOperandDims := [0, 1]
  indexVectorDim := 2
  wf := scatter_S64x256_S64x262144x2_S64x262144_n_01_01_2_wf

class Facts : Prop extends Facts₀ where

variable [Facts]
-- ==== Proof.KernelRun.lean ====
/-
  The idealized kernel program's run, with the value of its result.

  @main reshapes each argument to 64 rows of 262144 entries, lets a region turn each into an array of 64 rows of
  256 bins (H0 from the first argument, H1 from the second), and then applies host operations to the two arrays
  only: log (H + 1e-8) of each, a division by 4, log_softmax along the rows of the first and softmax along the
  rows of the second, the sum over all entries of p · (log p − q), times 16, over 64. Those host operations are
  one function tail of the two arrays, written here from the program's own operations. The run theorem says: every
  weakly fair execution terminates with the result buffer at tail H0 H1, where H0 and H1 are what the two regions
  leave in their output arrays, and with the arguments as launched. Two further lemmas say what each region's
  input array holds when the region is entered: the corresponding argument, as launched, read as 64 rows of 262144.

  The buffer contents at the boundaries between the stretches of host operations and the regions are a fold from the
  launch memory; the result is read back through that fold one stretch at a time, each stretch first read from
  arbitrary contents at the few buffers the result depends on.
-/
import proofs.«150304_j60833916781214_2_alg».proof.Proof.Gen.KernelIdeal.Frame
import Idealize.ShloMosaic.PureOps.Ideal

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Cert.KernelIdeal.Facts]

local notation "𝕄" => MT nD τ sig Unit (Elt Ideal) ℕ (UR sig nD τ) ℕ

/-! ## The host operations after the two histograms, as functions -/

/-- log (h + 1e-8), entry by entry. -/
def logEps (h : FVec Ideal S64x256 .f32) : FVec Ideal S64x256 .f32 :=
  Host.log (F := Ideal) (addf (F := Ideal) h (broadcastInDim S64x256 ![] Facts₀.bcast_S_S64x256 (constant (F := Ideal) S_ .f32 0x322BCC77#32)))

/-- x / 4, entry by entry. -/
def quarter (x : FVec Ideal S64x256 .f32) : FVec Ideal S64x256 .f32 :=
  Host.divf (F := Ideal) x (broadcastInDim S64x256 ![] Facts₀.bcast_S_S64x256 (constant (F := Ideal) S_ .f32 0x40800000#32))

/-- x minus its row maximum (the maximum taken against −∞ once more). -/
def shifted (x : FVec Ideal S64x256 .f32) : FVec Ideal S64x256 .f32 :=
  subf (F := Ideal) x (broadcastInDim S64x256 ![0, 1] Facts₀.bcast_S64x1_S64x256_0_1 (broadcastInDim S64x1 ![0] Facts₀.bcast_S64_S64x1_0
    (maximumf (F := Ideal) (broadcastInDim S64 ![] Facts₀.bcast_S_S64 (constant (F := Ideal) S_ .f32 0xFF800000#32))
      (Host.reduce (FloatOps.maximumf (F := Ideal)) x (constant (F := Ideal) S_ .f32 0xFF800000#32) Facts₀.reducesTo_S64x256_S64_d1 Facts₀.h_S_))))

/-- The row sums of exp of the shifted rows, as a column. -/
def expSum (x : FVec Ideal S64x256 .f32) : FVec Ideal S64x1 .f32 :=
  broadcastInDim S64x1 ![0] Facts₀.bcast_S64_S64x1_0
    (Host.reduceAdd (F := Ideal) (Host.exp (F := Ideal) (shifted x)) (constant (F := Ideal) S_ .f32 0x00000000#32) Facts₀.reducesTo_S64x256_S64_d1 Facts₀.h_S_)

/-- log_softmax along the rows: the shifted row minus the log of its exp-sum. -/
def logSoftmax (x : FVec Ideal S64x256 .f32) : FVec Ideal S64x256 .f32 :=
  subf (F := Ideal) (shifted x) (broadcastInDim S64x256 ![0, 1] Facts₀.bcast_S64x1_S64x256_0_1 (Host.log (F := Ideal) (expSum x)))

/-- softmax along the rows: exp of the shifted row over its exp-sum. -/
def softmax (x : FVec Ideal S64x256 .f32) : FVec Ideal S64x256 .f32 :=
  Host.divf (F := Ideal) (Host.exp (F := Ideal) (shifted x)) (broadcastInDim S64x256 ![0, 1] Facts₀.bcast_S64x1_S64x256_0_1 (expSum x))

/-- Σ p · (log p − q) over all entries, times 16, over 64. -/
def klLoss (p q : FVec Ideal S64x256 .f32) : FVec Ideal S_ .f32 :=
  Host.divf (F := Ideal) (mulf (F := Ideal)
    (Host.reduceAdd (F := Ideal) (mulf (F := Ideal) p (subf (F := Ideal) (Host.log (F := Ideal) p) q)) (constant (F := Ideal) S_ .f32 0x00000000#32) Facts₀.reducesTo_S64x256_S_d0_1 Facts₀.h_S_)
    (constant (F := Ideal) S_ .f32 0x41800000#32)) (constant (F := Ideal) S_ .f32 0x42800000#32)

/-- The host operations after the two histograms (%cst … %31 of @main with %1 := hs and %6 := ht), as ONE function of them. -/
def tail (hs ht : FVec Ideal S64x256 .f32) : FVec Ideal S_ .f32 :=
  klLoss (softmax (quarter (logEps ht))) (logSoftmax (quarter (logEps hs)))

/-! ## Each stretch of host operations, read at the buffers the result depends on, from any contents W -/

section Stretches
variable (W : Valuation τ sig (Elt Ideal))

/-- Contents moved to a typed reference's buffer and back are unchanged. -/
theorem ofBuf_toBuf {T : BufTy} (x : StableHlo.TRef sig T) (v : T.Contents (Elt Ideal)) : x.ofBuf (x.toBuf v) = v := by
  unfold StableHlo.TRef.ofBuf StableHlo.TRef.toBuf
  simp only [cast_cast, cast_eq]

/-- %4 = log (%1 + 1e-8). -/
theorem s1_v4 : StableHlo.after (hostOps1 (F := Ideal)) W (Proc.devRef .tc main_v4) = logEps (W (Proc.devRef .tc main_v1)) := by
  dsimp only [hostOps1]
  after_results
  rfl

/-- %9 = log (%6 + 1e-8). -/
theorem s2_v9 : StableHlo.after (hostOps2 (F := Ideal)) W (Proc.devRef .tc main_v9) = logEps (W (Proc.devRef .tc main_v6)) := by
  dsimp only [hostOps2]
  after_results
  rfl

/-- %11 = %4 / 4. -/
theorem s2_v11 : StableHlo.after (hostOps2 (F := Ideal)) W (Proc.devRef .tc main_v11) = quarter (W (Proc.devRef .tc main_v4)) := by
  dsimp only [hostOps2]
  after_results
  rfl

/-- The call of log_softmax does not write %9. -/
theorem s21_v9 : StableHlo.after (hostOps2_1 (F := Ideal)) W (Proc.devRef .tc main_v9) = W (Proc.devRef .tc main_v9) := by
  dsimp only [hostOps2_1]
  after_results_simp

/-- %12 = log_softmax %11. -/
theorem s21_v12 : StableHlo.after (hostOps2_1 (F := Ideal)) W (Proc.devRef .tc main_v12) = logSoftmax (W (Proc.devRef .tc main_v11)) := by
  dsimp only [hostOps2_1]
  after_results_simp
  simp only [ofBuf_toBuf]
  rfl

/-- %31 from %9 and %12. -/
theorem s22_v31 : StableHlo.after (hostOps2_2 (F := Ideal)) W (Proc.devRef .tc main_v31)
    = klLoss (softmax (quarter (W (Proc.devRef .tc main_v9)))) (W (Proc.devRef .tc main_v12)) := by
  dsimp only [hostOps2_2]
  after_results_simp
  rfl

end Stretches

section Reshapes
variable (W : Valuation τ sig (Elt Ideal))

/-- %0 is the first argument read as 64 rows of 262144. -/
theorem s0_v0 : StableHlo.after (hostOps0 (F := Ideal)) W (Proc.devRef .tc main_v0)
    = shapeCast S64x262144 (W (Proc.devRef .tc main_arg0)) Facts₀.shapeCasts_S64x256x32x32_S64x262144 := by
  dsimp only [hostOps0]
  after_results
  rfl

/-- The first stretch does not write the second argument. -/
theorem s0_arg1 : StableHlo.after (hostOps0 (F := Ideal)) W (Proc.devRef .tc main_arg1) = W (Proc.devRef .tc main_arg1) := by
  dsimp only [hostOps0]
  after_results

/-- %5 is the second argument read as 64 rows of 262144. -/
theorem s1_v5 : StableHlo.after (hostOps1 (F := Ideal)) W (Proc.devRef .tc main_v5)
    = shapeCast S64x262144 (W (Proc.devRef .tc main_arg1)) Facts₀.shapeCasts_S64x256x32x32_S64x262144 := by
  dsimp only [hostOps1]
  after_results
  rfl

end Reshapes

/-! ## The run -/

variable (m : (ℓ : Loc nD τ sig) → Buf (Elt Ideal) ℓ) (ρ : Dev nD → PrngReg)

/-- The result buffer at the last boundary is the tail of what the two regions leave in their output arrays. -/
theorem W7_result (c : Dev nD) : W7 m ρ c (Proc.devRef .tc main_v31)
    = tail ((dat0 (V1 m ρ) c).arrAt 1 cfg0.N) ((dat1 (V3 m ρ) c).arrAt 1 cfg1.N) := by
  have h9 : W6 m ρ c (Proc.devRef .tc main_v9) = logEps ((dat1 (V3 m ρ) c).arrAt 1 cfg1.N) :=
    (s21_v9 (W5 m ρ c)).trans ((s2_v9 (W4 m ρ c)).trans (congrArg logEps (W4_arr m ρ c 1)))
  have h4 : W4 m ρ c (Proc.devRef .tc main_v4) = logEps ((dat0 (V1 m ρ) c).arrAt 1 cfg0.N) :=
    (W4_of_ne m ρ c main_v4 (by decide)).trans ((s1_v4 (W2 m ρ c)).trans (congrArg logEps (W2_arr m ρ c 1)))
  have h12 : W6 m ρ c (Proc.devRef .tc main_v12) = logSoftmax (quarter (logEps ((dat0 (V1 m ρ) c).arrAt 1 cfg0.N))) :=
    (s21_v12 (W5 m ρ c)).trans (congrArg logSoftmax ((s2_v11 (W4 m ρ c)).trans (congrArg quarter h4)))
  exact (s22_v31 (W6 m ρ c)).trans (congrArg₂ (fun a b => klLoss (softmax (quarter a)) b) h9 h12)

/-- Region 0's input array when it is entered: the first argument as launched, read as 64 rows of 262144. -/
theorem V1_in (c : Dev nD) : V1 m ρ c (Pipeline.arrRef spec0 0)
    = shapeCast S64x262144 (m ((c.tc : Thread nD τ).loc main_arg0)) Facts₀.shapeCasts_S64x256x32x32_S64x262144 :=
  s0_v0 (W0 m ρ c)

/-- Region 1's input array when it is entered: the second argument as launched, read as 64 rows of 262144
    (neither region 0 nor an earlier operation writes that argument). -/
theorem V3_in (c : Dev nD) : V3 m ρ c (Pipeline.arrRef spec1 0)
    = shapeCast S64x262144 (m ((c.tc : Thread nD τ).loc main_arg1)) Facts₀.shapeCasts_S64x256x32x32_S64x262144 :=
  (s1_v5 (W2 m ρ c)).trans (congrArg (fun x => shapeCast S64x262144 x Facts₀.shapeCasts_S64x256x32x32_S64x262144)
    ((W2_of_ne m ρ c main_arg1 (by decide)).trans (s0_arg1 (W0 m ρ c))))

-- the launch theorem's implicit arguments are found by unifying its conclusion with this statement, which takes
-- unfolding plain definitions inside types
set_option backward.isDefEq.respectTransparency.types false in
/-- Every weakly fair execution of @main terminates, the result buffer at the tail of what the two regions leave in
    their output arrays, the arguments as launched. -/
theorem run_value : θ_run (defs (F := Ideal)) (onTc (τ := τ) (main (F := Ideal))) ⟨m, fun _ => 0, ρ⟩ (fun r => ∀ c : Dev nD,
      r.2.mem ((c.tc : Thread nD τ).loc main_v31) = tail ((dat0 (V1 m ρ) c).arrAt 1 cfg0.N) ((dat1 (V3 m ρ) c).arrAt 1 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨(h c _ (mem_uc main_v31 (by decide))).trans (W7_result m ρ c),
       (h c _ (mem_uc main_arg0 (by decide))).trans (W7_main_arg0 m ρ c),
       (h c _ (mem_uc main_arg1 (by decide))).trans (W7_main_arg1 m ρ c)⟩)

end Cert.KernelIdeal.RunValue

end
-- ==== Proof.TripValue.lean ====
/-
  One trip of the kernel's inner loop, read as a function of values (region 0's kernel).

  The output block has 16 rows and 256 bins. A trip `k` reads columns `512 k … 512 k + 511` of the 16-row input block
  and adds, into the bins `0 … 127`, the counts of the entries below 128 by value, and into the bins `128 … 255` the
  counts of the entries from 128 on by value minus 128: two stores, one per half of the bins, each of what the half
  held before plus a batched product of an indicator row with a one-hot matrix. After the trip the block is therefore
  one function of the block before it and of the input's columns: `step`. Thirty-two trips compose (`acc`).
-/
import proofs.«150304_j60833916781214_2_alg».proof.Proof.Gen.KernelIdeal.Frame
import Idealize.ShloMosaic.Lib.Pipeline.Value

set_option maxRecDepth 16384

noncomputable section

namespace Cert.KernelIdeal.HistBody

open Cert.KernelIdeal Cert.KernelIdeal.Gen Idealize.ShloMosaic Idealize.ShloMosaic.TcCoe Idealize.SL.Sem

variable {F : FTy → Type} [FloatOps F]

/-- The bins `0 … 127` of the output block, all 16 rows. -/
abbrev rLo : Rect S16x256 := Rect.unit ![0, 0] S16x128.size inb_S16x256_S16x128_0_0
/-- The bins `128 … 255` of the output block, all 16 rows. -/
abbrev rHi : Rect S16x256 := Rect.unit ![0, 128] S16x128.size inb_S16x256_S16x128_0_128
/-- The input block's columns that trip `k` reads. -/
abbrev rChunk (k : Fin k0_t1_loop.trips) : Rect S16x16384 := Rect.unit (k0_off1 k) S16x512.size (k0_off1_inb k)

/-- Every bin lies in one of the two halves. -/
theorem cover2 (wHi : rHi.shape.Idx → Elt F .f32) (wLo : rLo.shape.Idx → Elt F .f32) (y : S16x256.Idx) :
    ∃ p ∈ ([⟨rHi, wHi⟩, ⟨rLo, wLo⟩] : List (View.Piece (Elt F) S16x256 .f32)), y ∈ p.1.set := by
  have h0 : (y 0 : Nat) < 16 := (y 0).isLt
  have h1 : (y 1 : Nat) < 256 := (y 1).isLt
  by_cases h : (y 1 : Nat) < 128
  · refine ⟨⟨rLo, wLo⟩, by simp, ?_⟩
    show y ∈ (Rect.unit (s := S16x256) ![0, 0] S16x128.size inb_S16x256_S16x128_0_0).set
    rw [Rect.mem_set_unit]
    intro a
    match a with
    | ⟨0, _⟩ => exact ⟨Nat.zero_le _, by show (y 0 : Nat) < 0 + 16; omega⟩
    | ⟨1, _⟩ => exact ⟨Nat.zero_le _, by show (y 1 : Nat) < 0 + 128; omega⟩
  · refine ⟨⟨rHi, wHi⟩, by simp, ?_⟩
    show y ∈ (Rect.unit (s := S16x256) ![0, 128] S16x128.size inb_S16x256_S16x128_0_128).set
    rw [Rect.mem_set_unit]
    intro a
    match a with
    | ⟨0, _⟩ => exact ⟨Nat.zero_le _, by show (y 0 : Nat) < 0 + 16; omega⟩
    | ⟨1, _⟩ => exact ⟨by show 128 ≤ (y 1 : Nat); omega, by show (y 1 : Nat) < 128 + 128; omega⟩

/-- The block after trip `k`, from the block `g` before it and the input block `x`: each half of the bins is what the
    half held plus the trip's counts (the two stores' payloads, each over its own half). -/
def step (x : Vec F S16x16384 .f32) (k : Fin k0_t1_loop.trips) (g : Vec F S16x256 .f32) : Vec F S16x256 .f32 :=
  View.canon [⟨rHi, k0_pay6 (View.ld x (rChunk k)) (View.ld g rHi)⟩, ⟨rLo, k0_pay5 (View.ld x (rChunk k)) (View.ld g rLo)⟩]

/-- The trip's two stores, over any contents `f` of the output's staging buffer, leave `step` of what `f` reads as. -/
theorem trip_read (𝒱 : Variants) (c : Dev nD) (bd : Option 𝒱.V) (i : grid0.Coords)
    (arg2 : Memref sig .tc .vmem S16x16384 .f32) (harg2 : arg2.IsWhole)
    (arg3 : Memref sig .tc .vmem S16x256 .f32) (harg3 : arg3.IsWhole)
    (x : Vec F S16x16384 .f32) (k : Fin k0_t1_loop.trips) (f : BufTy.Contents (Elt F) arg3.view.ty) :
    arg3.view.read (Elt F) (arg3.view.writes (Elt F) f (tripL_k0_t1 (F := F) 𝒱 c bd i arg2 harg2 arg3 harg3 (harg2.unread x) k f))
      = step x k (arg3.view.read (Elt F) f) := by
  unfold tripL_k0_t1 trip_k0_t1
  dsimp only
  rw [View.read_writes_eq_canon _ _ _ (cover2 _ _)]
  unfold step trip_k0_t1.sl.v40
  simp only [View.readAt_eq_ld, harg2.read_unread]

/-- The block after the first `k` trips, from the block `g` the loop starts from. -/
def acc (x : Vec F S16x16384 .f32) (g : Vec F S16x256 .f32) : ℕ → Vec F S16x256 .f32
  | 0 => g
  | k + 1 => if h : k < k0_t1_loop.trips then step x ⟨k, h⟩ (acc x g k) else acc x g k

theorem acc_succ (x : Vec F S16x16384 .f32) (g : Vec F S16x256 .f32) (k : Fin k0_t1_loop.trips) :
    acc x g (k.val + 1) = step x k (acc x g k.val) := by
  rw [acc]; exact dif_pos k.isLt

/-- The stores of the first `k` trips, over contents `G` of the staging buffer, leave `acc` of what `G` reads as:
    by induction over the trips, each trip opened through `trip_read`. -/
theorem pb_read (𝒱 : Variants) (c : Dev nD) (bd : Option 𝒱.V) (i : grid0.Coords)
    (arg2 : Memref sig .tc .vmem S16x16384 .f32) (harg2 : arg2.IsWhole)
    (arg3 : Memref sig .tc .vmem S16x256 .f32) (harg3 : arg3.IsWhole)
    (x : Vec F S16x16384 .f32) (G : BufTy.Contents (Elt F) arg3.view.ty) :
    ∀ k : ℕ, k ≤ k0_t1_loop.trips →
      arg3.view.read (Elt F) (arg3.view.writes (Elt F) G
          (pb_k0_t1 (F := F) 𝒱 c bd i arg2 harg2 arg3 harg3 (harg2.unread x) G k))
        = acc x (arg3.view.read (Elt F) G) k
  | 0, _ => rfl
  | k + 1, hk => by
    have e := pb_k0_t1_succ (F := F) 𝒱 c bd i arg2 harg2 arg3 harg3 (harg2.unread x) G ⟨k, hk⟩
    dsimp only at e
    rw [e, View.writes_append, trip_read, pb_read 𝒱 c bd i arg2 harg2 arg3 harg3 x G k (Nat.le_of_lt hk)]
    exact (acc_succ x _ ⟨k, hk⟩).symm

/-- A point that does not reset: the body leaves, in the output's staging buffer holding `xo`, the thirty-two trips'
    accumulation over `xo`. -/
theorem outB (c : Dev nD) (i : grid0.Coords) (arg2 : Memref sig .tc .vmem S16x16384 .f32) (harg2 : arg2.IsWhole)
    (arg3 : Memref sig .tc .vmem S16x256 .f32) (harg3 : arg3.IsWhole) (hc0 : ¬cond0_0 i)
    (x : Vec F S16x16384 .f32) (xo : Vec F S16x256 .f32) :
    out0_B_1 c i arg2 harg2 arg3 harg3 hc0 x xo = acc x xo k0_t1_loop.trips := by
  have hL : (kernelRun0_B (F := F) c i arg2 harg2 arg3 harg3 hc0 x xo).1
      = pb_k0_t1 (F := F) Variants.none c none i arg2 harg2 arg3 harg3 (harg2.unread x) (harg3.unread xo) k0_t1_loop.trips := by
    unfold kernelRun0_B; rfl
  unfold out0_B_1
  rw [View.read_writes_eq_canon _ _ _ (cover0_B_1 c i arg2 harg2 arg3 harg3 hc0 x xo),
    ← View.read_writes_eq_canon arg3.view (harg3.unread xo) _ (cover0_B_1 c i arg2 harg2 arg3 harg3 hc0 x xo),
    hL, pb_read Variants.none c none i arg2 harg2 arg3 harg3 x (harg3.unread xo) _ (Nat.le_refl _), harg3.read_unread]

theorem hz : (![0, 0] : Fin 2 → Nat) = fun _ => 0 := funext fun a => by fin_cases a <;> rfl

/-- The reset: one store of the zero block over the whole output block. -/
abbrev zeroFill : List (View.Piece (Elt F) S16x256 .f32) :=
  [⟨Rect.unit (s := S16x256) ![0, 0] S16x256.size inb_S16x256_S16x256_0_0, k0_pay1 (F := F)⟩]

/-- After the reset the block reads as the zero block, whatever it held. -/
theorem zero_read {sig' : RefSig} {κ : Kind} {sp : Space} (v : View sig' κ sp S16x256 .f32) (f : v.ty.Contents (Elt F)) :
    v.read (Elt F) (v.writes (Elt F) f (zeroFill (F := F))) = k0_pay1 (F := F) := by
  rw [View.read_writes_eq_canon _ _ _ (fun y => ⟨_, List.mem_singleton_self _, View.mem_set_unit_zero hz inb_S16x256_S16x256_0_0 y⟩),
    View.canon_unit_zero hz]

/-- A point that resets: the body leaves the thirty-two trips' accumulation over the zero block. -/
theorem outA (c : Dev nD) (i : grid0.Coords) (arg2 : Memref sig .tc .vmem S16x16384 .f32) (harg2 : arg2.IsWhole)
    (arg3 : Memref sig .tc .vmem S16x256 .f32) (harg3 : arg3.IsWhole) (hc0 : cond0_0 i)
    (x : Vec F S16x16384 .f32) :
    out0_A_1 c i arg2 harg2 arg3 harg3 hc0 x = acc x (k0_pay1 (F := F)) k0_t1_loop.trips := by
  have hL : (kernelRun0_A (F := F) c i arg2 harg2 arg3 harg3 hc0 x).1
      = pb_k0_t1 (F := F) Variants.none c none i arg2 harg2 arg3 harg3 (harg2.unread x)
          (arg3.view.writes (Elt F) arg3.view.junk (zeroFill (F := F))) k0_t1_loop.trips ++ zeroFill (F := F) := by
    unfold kernelRun0_A; rfl
  unfold out0_A_1
  rw [View.read_writes_eq_canon _ _ _ (cover0_A_1 c i arg2 harg2 arg3 harg3 hc0 x),
    ← View.read_writes_eq_canon arg3.view arg3.view.junk _ (cover0_A_1 c i arg2 harg2 arg3 harg3 hc0 x),
    hL, View.writes_append,
    pb_read Variants.none c none i arg2 harg2 arg3 harg3 x _ _ (Nat.le_refl _), zero_read]

end Cert.KernelIdeal.HistBody

end
-- ==== Proof.TripIdeal.lean ====
/-
  The two payloads of a trip, read at an index on the extended reals.

  For an entry `x` of the chunk, `hi x` is one when `x ≥ 128` and zero otherwise, and the one-hot row of `x` has a one
  at the lane `n` (0 ≤ n < 128) exactly when `x - 128 · hi x = n`. The first product weighs the one-hot rows by
  `1 - hi x` and sums over the 512 entries of a row: the number of entries equal to `n`. The second weighs them by
  `hi x`: the number of entries equal to `128 + n`.
-/
import proofs.«150304_j60833916781214_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.HistPay

open Cert.KernelIdeal Cert.KernelIdeal.Gen Idealize.ShloMosaic Idealize.ShloMosaic.ValueIdx

/-- The float word of `128.0` is the real 128. -/
theorem ofBits_128 : Ideal.ofBits .f32 0x43000000#32 = ((128 : ℝ) : EReal) := by
  simp [Ideal.ofBits, Ideal.ieee, -EReal.coe_mul]; norm_num

/-- The float word of `1.0` is one. -/
theorem ofBits_one : Ideal.ofBits .f32 0x3F800000#32 = 1 := by
  simp [Ideal.ofBits, Ideal.ieee, -EReal.coe_mul]; norm_num

/-- One when the entry is at least 128, zero otherwise. -/
def hi (x : EReal) : EReal := if ((128 : ℝ) : EReal) ≤ x then 1 else 0

/-- One when the entry, less 128 if it is at least 128, is the lane's number; zero otherwise. -/
def oneHot (x : EReal) (n : ℕ) : EReal := if x - ((128 : ℝ) : EReal) * hi x = ((n : ℝ) : EReal) then 1 else 0

/-- A bit widened to a word and read as a signed integer is one or zero. -/
theorem bit_val (p : Bool) : (((((BitVec.ofBool p).setWidth 32).toInt : ℤ) : ℝ) : EReal) = if p then 1 else 0 := by
  cases p <;> simp

theorem pay3_apply (v : Vec Ideal S16x512 .f32) (i : S16x512.Idx) : k0_pay3 (F := Ideal) v i = hi (v i) := by
  unfold k0_pay3 k0_pay2 hi
  simp only [select_apply, cmpf_apply, broadcast_apply, shapeCast_self, Ideal.cmpf_def, Ideal.cmp, Ideal.ofBits_def,
    ofBits_128, ofBits_one, Ideal.ofBits_zero_f32]
  by_cases h : ((128 : ℝ) : EReal) ≤ v i
  · simp [h, select_one]
  · simp [h, select_zero]

section Layout

variable {α : Type}

/-- A [16,512] array given a unit last axis and spread over 128 lanes reads, at row `b`, entry `q`, any lane, its own
    entry `(b, q)`. -/
theorem spread_lanes (u : S16x512.Idx → α) (b : Fin 16) (q : Fin 512) (n : Fin 128) :
    broadcastTo S16x512x128 (shapeCast S16x512x1 u shapeCasts_S16x512_S16x512x1) broadcasts_S16x512x1_S16x512x128 (ix3 b q n)
      = u (ix2 b q) := by
  rw [broadcastTo_apply _ _ _ (ix3 b q (0 : Fin 1)) (fun a => by
        match a with
        | ⟨0, _⟩ => rfl
        | ⟨1, _⟩ => rfl
        | ⟨2, _⟩ => rfl),
    shapeCast_apply _ _ _ (ix2 b q) (by rw [Shape.rowMajor_val_two, Shape.rowMajor_val_three]; simp)]

/-- A [1,1,128] row spread over 16 rows of 512 entries reads, at any row and entry, its own lane. -/
theorem spread_rows (w : S1x1x128.Idx → α) (b : Fin 16) (q : Fin 512) (n : Fin 128) :
    broadcastTo S16x512x128 w broadcasts_S1x1x128_S16x512x128 (ix3 b q n) = w (ix3 (0 : Fin 1) (0 : Fin 1) n) := by
  rw [broadcastTo_apply _ _ _ (ix3 (0 : Fin 1) (0 : Fin 1) n) (fun a => by
        match a with
        | ⟨0, _⟩ => rfl
        | ⟨1, _⟩ => rfl
        | ⟨2, _⟩ => rfl)]

/-- A [16,512] array given a unit middle axis reads, at `(b, 0, q)`, its entry `(b, q)`. -/
theorem middle_unit (u : S16x512.Idx → α) (b : Fin 16) (q : Fin 512) :
    shapeCast S16x1x512 u shapeCasts_S16x512_S16x1x512 (ix3 b (0 : Fin 1) q) = u (ix2 b q) := by
  rw [shapeCast_apply _ _ _ (ix2 b q) (by rw [Shape.rowMajor_val_two, Shape.rowMajor_val_three]; simp)]

/-- A [16,1,128] array with its unit axis dropped reads, at `(b, n)`, its entry `(b, 0, n)`. -/
theorem drop_middle (u : S16x1x128.Idx → α) (b : Fin 16) (n : Fin 128) :
    shapeCast S16x128 u shapeCasts_S16x1x128_S16x128 (ix2 b n) = u (ix3 b (0 : Fin 1) n) := by
  rw [shapeCast_apply _ _ _ (ix3 b (0 : Fin 1) n) (by rw [Shape.rowMajor_val_two, Shape.rowMajor_val_three]; simp)]

end Layout

/-- The lanes' numbers: lane `n` of the iota, converted, is the real `n`. -/
theorem lane_number (n : Fin 128) :
    (sitofp .f32 (iota .tc S1x1x128 32 [2] iota_S1x1x128_d2_w32) : FVec Ideal S1x1x128 .f32) (ix3 (0 : Fin 1) (0 : Fin 1) n)
      = ((n.val : ℝ) : EReal) := by
  rw [sitofp_apply, iota_single_apply]
  show ((((BitVec.ofNat 32 n.val).toInt : ℤ) : ℝ) : EReal) = _
  have h : (BitVec.ofNat 32 n.val).toInt = (n.val : ℤ) := by
    have hn := n.isLt
    have hm : n.val % 2 ^ 32 = n.val := Nat.mod_eq_of_lt (by omega)
    simp only [BitVec.toInt, BitVec.toNat_ofNat, hm]
    rw [if_pos (by omega)]
  rw [h]; norm_cast

/-- The one-hot matrix at row `b`, entry `q`, lane `n`. -/
theorem pay4_apply (v : Vec Ideal S16x512 .f32) (b : Fin 16) (q : Fin 512) (n : Fin 128) :
    k0_pay4 (F := Ideal) v (ix3 b q n) = oneHot (v (ix2 b q)) n.val := by
  unfold k0_pay4 oneHot
  simp only [truncf_apply, sitofp_apply, extui_apply, cmpf_apply]
  rw [spread_lanes, spread_rows, lane_number]
  simp only [subf_apply, mulf_apply, broadcast_apply, pay3_apply, k0_pay2, shapeCast_self, Ideal.cmpf_def, Ideal.cmp,
    Ideal.ofBits_def, ofBits_128]
  show (((((BitVec.ofBool (decide (_ = _))).setWidth 32).toInt : ℤ) : ℝ) : EReal) = _
  rw [bit_val]
  simp only [decide_eq_true_eq]

/-- The batched product into a zero accumulator, at row `b` and lane `n`: the sum over the 512 entries of the row. -/
theorem bmm_apply (lhs : FVec Ideal S16x1x512 .bf16) (rhs : FVec Ideal S16x512x128 .bf16) (b : Fin 16) (n : Fin 128) :
    matmul dot_S16x1x512_S16x512x128_S16x1x128_2_1_1_2_0_0 none lhs rhs (constant S16x1x128 .f32 0x00000000#32) (ix3 b (0 : Fin 1) n)
      = ∑ q : Fin 512, lhs (ix3 b (0 : Fin 1) q) * rhs (ix3 b q n) := by
  simp only [matmul]
  rw [Ideal.matmul_constant_zero_apply,
    ← Equiv.sum_comp (contrEquiv1 dot_S16x1x512_S16x512x128_S16x1x128_2_1_1_2_0_0 512 rfl rfl).symm]
  refine Finset.sum_congr rfl fun q _ => ?_
  congr 1
  · refine congrArg lhs (funext fun a => Fin.ext ?_)
    match a with
    | ⟨0, _⟩ => rfl
    | ⟨1, _⟩ => rfl
    | ⟨2, _⟩ =>
      exact (DotDims.lhsIdx_val_of_single _ rfl _ _).trans
        (contrEquiv1_symm_val dot_S16x1x512_S16x512x128_S16x1x128_2_1_1_2_0_0 512 rfl rfl q)
  · refine congrArg rhs (funext fun a => Fin.ext ?_)
    match a with
    | ⟨0, _⟩ => rfl
    | ⟨1, _⟩ =>
      exact (DotDims.rhsIdx_val_of_single _ rfl _ _).trans
        (contrEquiv1_symm_val dot_S16x1x512_S16x512x128_S16x1x128_2_1_1_2_0_0 512 rfl rfl q)
    | ⟨2, _⟩ => rfl

/-- The first store's payload at row `b`, lane `n`: what the half held plus the row's entries weighed by `1 - hi`. -/
theorem pay5_apply (v : Vec Ideal S16x512 .f32) (g : Vec Ideal S16x128 .f32) (b : Fin 16) (n : Fin 128) :
    k0_pay5 (F := Ideal) v g (ix2 b n)
      = g (ix2 b n) + ∑ q : Fin 512, (1 - hi (v (ix2 b q))) * oneHot (v (ix2 b q)) n.val := by
  unfold k0_pay5
  simp only [addf_apply, shapeCast_self]
  rw [drop_middle, bmm_apply]
  congr 1
  refine Finset.sum_congr rfl fun q _ => ?_
  rw [middle_unit, pay4_apply]
  simp only [truncf_apply, subf_apply, broadcast_apply, pay3_apply, Ideal.ofBits_def, ofBits_one]

/-- The second store's payload at row `b`, lane `n`: what the half held plus the row's entries weighed by `hi`. -/
theorem pay6_apply (v : Vec Ideal S16x512 .f32) (g : Vec Ideal S16x128 .f32) (b : Fin 16) (n : Fin 128) :
    k0_pay6 (F := Ideal) v g (ix2 b n)
      = g (ix2 b n) + ∑ q : Fin 512, hi (v (ix2 b q)) * oneHot (v (ix2 b q)) n.val := by
  unfold k0_pay6
  simp only [addf_apply, shapeCast_self]
  rw [drop_middle, bmm_apply]
  congr 1
  refine Finset.sum_congr rfl fun q _ => ?_
  rw [middle_unit, pay4_apply]
  simp only [truncf_apply, pay3_apply]

/-- One when the entry is the number `v`, zero otherwise. -/
def cnt (x : EReal) (v : ℕ) : EReal := if x = ((v : ℝ) : EReal) then 1 else 0

theorem one_sub_one : (1 : EReal) - 1 = 0 := by
  rw [← EReal.coe_one, ← EReal.coe_sub]; norm_num

/-- For a real entry and a lane `n < 128`: weighed by `1 - hi`, the one-hot row counts the entry when it IS `n`. -/
theorem lo_count (r : ℝ) (n : ℕ) (hn : n < 128) :
    (1 - hi (r : EReal)) * oneHot (r : EReal) n = cnt (r : EReal) n := by
  by_cases h : (128 : ℝ) ≤ r
  · have hh : hi (r : EReal) = 1 := if_pos (EReal.coe_le_coe_iff.mpr h)
    have hne : ¬ (r : EReal) = ((n : ℝ) : EReal) := by
      intro e
      have e' : r = (n : ℝ) := EReal.coe_eq_coe_iff.mp e
      have hn' : (n : ℝ) < 128 := by exact_mod_cast hn
      linarith
    rw [hh, one_sub_one, zero_mul]
    unfold cnt
    rw [if_neg hne]
  · have hh : hi (r : EReal) = 0 := if_neg (fun e => h (EReal.coe_le_coe_iff.mp e))
    unfold oneHot cnt
    rw [hh, sub_zero, one_mul, mul_zero, sub_zero]

/-- … and weighed by `hi`, it counts the entry when it is `128 + n`. -/
theorem hi_count (r : ℝ) (n : ℕ) (hn : n < 128) :
    hi (r : EReal) * oneHot (r : EReal) n = cnt (r : EReal) (128 + n) := by
  by_cases h : (128 : ℝ) ≤ r
  · have hh : hi (r : EReal) = 1 := if_pos (EReal.coe_le_coe_iff.mpr h)
    unfold oneHot cnt
    rw [hh, one_mul, mul_one]
    have e1 : (r : EReal) - ((128 : ℝ) : EReal) = ((r - 128 : ℝ) : EReal) := (EReal.coe_sub r 128).symm
    rw [e1]
    by_cases h2 : r - 128 = (n : ℝ)
    · have h3 : r = ((128 + n : ℕ) : ℝ) := by push_cast; linarith
      rw [if_pos (by rw [h2]), if_pos (by rw [h3])]
    · have h3 : ¬ r = ((128 + n : ℕ) : ℝ) := by
        push_cast; intro e; exact h2 (by linarith)
      rw [if_neg (fun e => h2 (EReal.coe_eq_coe_iff.mp e)), if_neg (fun e => h3 (EReal.coe_eq_coe_iff.mp e))]
  · have hh : hi (r : EReal) = 0 := if_neg (fun e => h (EReal.coe_le_coe_iff.mp e))
    have hne : ¬ (r : EReal) = (((128 + n : ℕ) : ℝ) : EReal) := by
      intro e
      have e' : r = ((128 + n : ℕ) : ℝ) := EReal.coe_eq_coe_iff.mp e
      push_cast at e'
      have hn0 : (0 : ℝ) ≤ (n : ℝ) := Nat.cast_nonneg n
      have hlt : r < 128 := not_le.mp h
      linarith
    rw [hh, zero_mul]
    unfold cnt
    rw [if_neg hne]

end Cert.KernelIdeal.HistPay

end
-- ==== Proof.LibSums.lean ====
/-
  General lemmas on finite sums, used to compare a sum accumulated tile by tile over zero-padded rows with the plain sum
  over the rows.

  * `coe_sum`: the inclusion of the reals in the extended reals commutes with finite sums.
  * `partialSum`: for a family indexed by `Fin (T * B)`, seen as `T` consecutive tiles of `B` entries, the sum of the
    entries of the first `t` tiles. It starts at `0`, grows by one tile's sum at each step, and ends at the full sum;
    so any accumulator obeying the same recurrence ends at the full sum (`acc_eq_sum`).
  * `sum_pad`: extending a family on `Fin n` by zeros to `Fin N` (`n ≤ N`) does not change its sum.
  Each statement is given for symbolic extents and again for the literal extents 62 * 16384 = 1015808 and
  1000000 ≤ 1015808.
-/
import Mathlib
import Idealize.ShloMosaic.PureOps.Ideal

noncomputable section

namespace Cert.LibSums

open BigOperators

/-! ### Real sums inside the extended reals -/

/-- The inclusion `ℝ → EReal` commutes with a finite sum. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The inclusion `ℝ → EReal` commutes with a sum over a whole finite type. -/
theorem coe_sum_univ {ι : Type*} [Fintype ι] (f : ι → ℝ) :
    ((∑ i, f i : ℝ) : EReal) = ∑ i, (f i : EReal) :=
  coe_sum Finset.univ f

/-! ### A sum accumulated tile by tile -/

section Tiles

variable {M : Type*} [AddCommMonoid M]

/-- Entry `i` of tile `t` lies inside `T` tiles of `B` entries. -/
theorem tile_idx_lt {T B t i : ℕ} (ht : t < T) (hi : i < B) : t * B + i < T * B := by
  have h1 : (t + 1) * B ≤ T * B := Nat.mul_le_mul_right B ht
  have h2 : (t + 1) * B = t * B + B := Nat.succ_mul t B
  omega

/-- The sum of the entries of the first `t` tiles of a family of `T` tiles of `B` entries: the entries whose position is
    below `t * B`. -/
def partialSum {T B : ℕ} (f : Fin (T * B) → M) (t : ℕ) : M :=
  ∑ p : Fin (T * B), if p.val < t * B then f p else 0

/-- No tile, no entry: the partial sum starts at zero. -/
theorem partialSum_zero {T B : ℕ} (f : Fin (T * B) → M) : partialSum f 0 = 0 := by
  unfold partialSum
  refine Finset.sum_eq_zero fun p _ => ?_
  rw [if_neg]
  omega

/-- All `T` tiles hold every entry: the last partial sum is the full sum. -/
theorem partialSum_top {T B : ℕ} (f : Fin (T * B) → M) : partialSum f T = ∑ p, f p := by
  unfold partialSum
  exact Finset.sum_congr rfl fun p _ => if_pos p.isLt

/-- One more tile adds that tile's sum: positions `t * B ≤ p < (t + 1) * B` are exactly `t * B + i` for `i < B`. -/
theorem partialSum_succ {T B : ℕ} (f : Fin (T * B) → M) {t : ℕ} (ht : t < T) :
    partialSum f (t + 1)
      = partialSum f t + ∑ i : Fin B, f ⟨t * B + i.val, tile_idx_lt ht i.isLt⟩ := by
  unfold partialSum
  have hB : (t + 1) * B = t * B + B := Nat.succ_mul t B
  have hsplit : ∀ p : Fin (T * B), (if p.val < (t + 1) * B then f p else 0)
      = (if p.val < t * B then f p else 0)
        + (if t * B ≤ p.val ∧ p.val < (t + 1) * B then f p else 0) := by
    intro p
    by_cases h1 : p.val < t * B
    · have h2 : p.val < (t + 1) * B := by omega
      have h3 : ¬ (t * B ≤ p.val ∧ p.val < (t + 1) * B) := by omega
      rw [if_pos h1, if_pos h2, if_neg h3, add_zero]
    · by_cases h2 : p.val < (t + 1) * B
      · have h3 : t * B ≤ p.val ∧ p.val < (t + 1) * B := ⟨by omega, h2⟩
        rw [if_neg h1, if_pos h2, if_pos h3, zero_add]
      · have h3 : ¬ (t * B ≤ p.val ∧ p.val < (t + 1) * B) := fun h => h2 h.2
        rw [if_neg h1, if_neg h2, if_neg h3, add_zero]
  rw [Finset.sum_congr rfl (fun p _ => hsplit p), Finset.sum_add_distrib]
  congr 1
  rw [← Finset.sum_filter]
  symm
  refine Finset.sum_bij (fun i _ => (⟨t * B + i.val, tile_idx_lt ht i.isLt⟩ : Fin (T * B))) ?_ ?_ ?_ ?_
  · intro i _
    have hi := i.isLt
    simp only [Finset.mem_filter, Finset.mem_univ, true_and]
    constructor <;> omega
  · intro i _ j _ h
    have hv : t * B + i.val = t * B + j.val := congrArg Fin.val h
    exact Fin.ext (by omega)
  · intro p hp
    simp only [Finset.mem_filter, Finset.mem_univ, true_and] at hp
    refine ⟨⟨p.val - t * B, by omega⟩, Finset.mem_univ _, ?_⟩
    apply Fin.ext
    show t * B + (p.val - t * B) = p.val
    omega
  · intro i _
    rfl

/-- An accumulator that starts at zero and gains one tile's sum at each of `T` steps is, after `t ≤ T` steps, the partial
    sum of the first `t` tiles. -/
theorem acc_eq_partialSum {T B : ℕ} (f : Fin (T * B) → M) (acc : ℕ → M) (h0 : acc 0 = 0)
    (hs : ∀ (t : ℕ) (ht : t < T), acc (t + 1) = acc t + ∑ i : Fin B, f ⟨t * B + i.val, tile_idx_lt ht i.isLt⟩) :
    ∀ t, t ≤ T → acc t = partialSum f t := by
  intro t
  induction t with
  | zero => intro _; rw [h0, partialSum_zero]
  | succ t ih =>
    intro ht
    have ht' : t < T := ht
    rw [hs t ht', partialSum_succ f ht', ih (Nat.le_of_lt ht')]

/-- … and after all `T` steps it is the full sum. -/
theorem acc_eq_sum {T B : ℕ} (f : Fin (T * B) → M) (acc : ℕ → M) (h0 : acc 0 = 0)
    (hs : ∀ (t : ℕ) (ht : t < T), acc (t + 1) = acc t + ∑ i : Fin B, f ⟨t * B + i.val, tile_idx_lt ht i.isLt⟩) :
    acc T = ∑ p, f p := by
  rw [acc_eq_partialSum f acc h0 hs T (Nat.le_refl T), partialSum_top]

/-! The same at 62 tiles of 16384 entries, 62 * 16384 = 1015808. -/

/-- Entry `i` of tile `t` lies below 1015808. -/
theorem tile_idx_lt' (t : Fin 62) (i : Fin 16384) : t.val * 16384 + i.val < 1015808 := by
  have ht := t.isLt
  have hi := i.isLt
  omega

/-- The sum of the first `t` tiles of 16384 entries of a family of 1015808 entries. -/
def partialSum62 (f : Fin 1015808 → M) (t : ℕ) : M :=
  ∑ p : Fin 1015808, if p.val < t * 16384 then f p else 0

theorem partialSum62_eq (f : Fin 1015808 → M) (t : ℕ) :
    partialSum62 f t = partialSum (T := 62) (B := 16384) f t := rfl

/-- It starts at zero. -/
theorem partialSum62_zero (f : Fin 1015808 → M) : partialSum62 f 0 = 0 :=
  partialSum_zero (T := 62) (B := 16384) f

/-- Tile `t` adds its 16384 entries. -/
theorem partialSum62_succ (f : Fin 1015808 → M) (t : Fin 62) :
    partialSum62 f (t.val + 1)
      = partialSum62 f t.val + ∑ i : Fin 16384, f ⟨t.val * 16384 + i.val, tile_idx_lt' t i⟩ :=
  partialSum_succ (T := 62) (B := 16384) f t.isLt

/-- After 62 tiles it is the full sum. -/
theorem partialSum62_top (f : Fin 1015808 → M) : partialSum62 f 62 = ∑ p, f p :=
  partialSum_top (T := 62) (B := 16384) f

/-- An accumulator over 62 grid points that starts at zero and gains tile `t`'s sum at point `t` ends at the full sum over
    the 1015808 entries. -/
theorem acc62_eq_sum (f : Fin 1015808 → M) (acc : ℕ → M) (h0 : acc 0 = 0)
    (hs : ∀ t : Fin 62, acc (t.val + 1)
      = acc t.val + ∑ i : Fin 16384, f ⟨t.val * 16384 + i.val, tile_idx_lt' t i⟩) :
    acc 62 = ∑ p, f p :=
  acc_eq_sum (T := 62) (B := 16384) f acc h0 (fun t ht => hs ⟨t, ht⟩)

end Tiles

/-! ### Zero padding -/

section Pad

variable {M : Type*} [AddCommMonoid M]

/-- A family on `Fin n` extended by zeros to `Fin N`, `n ≤ N`, has the same sum. -/
theorem sum_pad {n N : ℕ} (hnN : n ≤ N) (g : Fin n → M) :
    (∑ p : Fin N, (if h : p.val < n then g ⟨p.val, h⟩ else 0)) = ∑ r : Fin n, g r := by
  have h1 : (∑ p : Fin N, (if h : p.val < n then g ⟨p.val, h⟩ else 0))
      = ∑ k ∈ Finset.range N, (if h : k < n then g ⟨k, h⟩ else 0) :=
    Fin.sum_univ_eq_sum_range (fun k => if h : k < n then g ⟨k, h⟩ else 0) N
  have h2 : (∑ r : Fin n, g r) = ∑ k ∈ Finset.range n, (if h : k < n then g ⟨k, h⟩ else 0) := by
    rw [← Fin.sum_univ_eq_sum_range (fun k => if h : k < n then g ⟨k, h⟩ else 0) n]
    exact Finset.sum_congr rfl fun r _ => by rw [dif_pos r.isLt]
  rw [h1, h2]
  symm
  refine Finset.sum_subset (fun k hk => Finset.mem_range.2 (lt_of_lt_of_le (Finset.mem_range.1 hk) hnN)) fun k _ hk => ?_
  have hkn : ¬ k < n := fun hlt => hk (Finset.mem_range.2 hlt)
  exact dif_neg hkn

/-- The same for a family of a position alone, cut off at `n`. -/
theorem sum_pad_nat {n N : ℕ} (hnN : n ≤ N) (g : ℕ → M) :
    (∑ p : Fin N, (if p.val < n then g p.val else 0)) = ∑ r : Fin n, g r.val := by
  rw [← sum_pad hnN (fun r : Fin n => g r.val)]
  exact Finset.sum_congr rfl fun p _ => by
    by_cases h : p.val < n
    · rw [if_pos h, dif_pos h]
    · rw [if_neg h, dif_neg h]

/-- 1,000,000 rows padded by zeros to 1,015,808 have the same sum. -/
theorem sum_pad_rows (g : Fin 1000000 → M) :
    (∑ p : Fin 1015808, (if h : p.val < 1000000 then g ⟨p.val, h⟩ else 0)) = ∑ r : Fin 1000000, g r :=
  sum_pad (by norm_num) g

/-- The same for a table of rows and columns, at a fixed column. -/
theorem sum_pad_rows₂ {κ : Type*} (g : Fin 1000000 → κ → M) (c : κ) :
    (∑ p : Fin 1015808, (if h : p.val < 1000000 then g ⟨p.val, h⟩ c else 0)) = ∑ r : Fin 1000000, g r c :=
  sum_pad_rows (fun r => g r c)

end Pad

end Cert.LibSums

end
-- ==== Proof.BlockValue.lean ====
/-
  What one grid point adds to the output block, on the extended reals.

  For an input block `x` of 16 rows and 16384 columns whose entries are real numbers, a trip adds to bin `v` of row `b`
  the number of the trip's 512 columns whose entry is `v`; the thirty-two trips together add the number of all 16384
  columns whose entry is `v`. A point that resets starts from zero; any other point starts from what the point before
  left.
-/
import proofs.«150304_j60833916781214_2_alg».proof.Proof.TripValue
import proofs.«150304_j60833916781214_2_alg».proof.Proof.TripIdeal
import proofs.«150304_j60833916781214_2_alg».proof.Proof.LibSums

set_option maxRecDepth 16384

noncomputable section

namespace Cert.KernelIdeal.HistBlock

open Cert.KernelIdeal Cert.KernelIdeal.Gen Cert.KernelIdeal.HistBody Cert.KernelIdeal.HistPay
open Idealize.ShloMosaic Idealize.ShloMosaic.ValueIdx

theorem trips_eq : k0_t1_loop.trips = 32 := by decide

/-- Column `q` of trip `k`'s chunk is column `512 k + q` of the block. -/
theorem chunk_emb (k : Fin k0_t1_loop.trips) (b : Fin 16) (q : Fin 512) (h : k.val * 512 + q.val < 16384) :
    (rChunk k).emb (ix2 b q) = ix2 b (⟨k.val * 512 + q.val, h⟩ : Fin 16384) := by
  funext a
  apply Fin.ext
  rw [Rect.emb_apply]
  simp only [Rect.off_unit, Rect.stride_unit, Nat.one_mul, k0_off1_eq]
  match a with
  | ⟨0, _⟩ => show 0 + b.val = b.val; omega
  | ⟨1, _⟩ => show 512 * k.val + q.val = k.val * 512 + q.val; omega

/-- Lane `n` of the low half is bin `n`. -/
theorem lo_emb (b : Fin 16) (n : Fin 128) (h : n.val < 256) : rLo.emb (ix2 b n) = ix2 b (⟨n.val, h⟩ : Fin 256) := by
  funext a
  apply Fin.ext
  rw [Rect.emb_apply]
  simp only [Rect.off_unit, Rect.stride_unit, Nat.one_mul]
  match a with
  | ⟨0, _⟩ => show 0 + b.val = b.val; omega
  | ⟨1, _⟩ => show 0 + n.val = n.val; omega

/-- Lane `n` of the high half is bin `128 + n`. -/
theorem hi_emb (b : Fin 16) (n : Fin 128) (h : 128 + n.val < 256) : rHi.emb (ix2 b n) = ix2 b (⟨128 + n.val, h⟩ : Fin 256) := by
  funext a
  apply Fin.ext
  rw [Rect.emb_apply]
  simp only [Rect.off_unit, Rect.stride_unit, Nat.one_mul]
  match a with
  | ⟨0, _⟩ => show 0 + b.val = b.val; omega
  | ⟨1, _⟩ => show 128 + n.val = 128 + n.val; rfl

/-- A bin below 128 is not in the high half. -/
theorem not_mem_hi (b : Fin 16) (v : Fin 256) (hv : v.val < 128) : ix2 b v ∉ rHi.set := by
  intro h
  have h' : (ix2 b v : S16x256.Idx) ∈ (Rect.unit (s := S16x256) ![0, 128] S16x128.size inb_S16x256_S16x128_0_128).set := h
  rw [Rect.mem_set_unit] at h'
  have h1 := (h' (1 : Fin 2)).1
  have h2 : 128 ≤ v.val := h1
  omega

section TwoPieces

variable {F : FTy → Type} [FloatOps F]

/-- Two stores, the later over the high half and the earlier over the low half: a low bin reads the earlier one. -/
theorem canon2_lo (wHi : rHi.shape.Idx → Elt F .f32) (wLo : rLo.shape.Idx → Elt F .f32) (b : Fin 16) (n : Fin 128)
    (h : n.val < 256) :
    View.canon ([⟨rHi, wHi⟩, ⟨rLo, wLo⟩] : List (View.Piece (Elt F) S16x256 .f32)) (ix2 b (⟨n.val, h⟩ : Fin 256))
      = wLo (ix2 b n) := by
  rw [View.canon_cons_of_not_mem (⟨rHi, wHi⟩ : View.Piece (Elt F) S16x256 .f32) [⟨rLo, wLo⟩]
    (not_mem_hi b ⟨n.val, h⟩ n.isLt), ← lo_emb b n h]
  exact View.canon_cons_emb rLo wLo [] (ix2 b n)

/-- … and a high bin reads the later one. -/
theorem canon2_hi (wHi : rHi.shape.Idx → Elt F .f32) (wLo : rLo.shape.Idx → Elt F .f32) (b : Fin 16) (n : Fin 128)
    (h : 128 + n.val < 256) :
    View.canon ([⟨rHi, wHi⟩, ⟨rLo, wLo⟩] : List (View.Piece (Elt F) S16x256 .f32)) (ix2 b (⟨128 + n.val, h⟩ : Fin 256))
      = wHi (ix2 b n) := by
  rw [← hi_emb b n h]
  exact View.canon_cons_emb rHi wHi [⟨rLo, wLo⟩] (ix2 b n)

end TwoPieces

/-- One trip at a bin below 128. -/
theorem step_lo (x : Vec Ideal S16x16384 .f32) (hx : ∀ i, ∃ r : ℝ, x i = (r : EReal))
    (k : Fin k0_t1_loop.trips) (hk : k.val < 32) (g : Vec Ideal S16x256 .f32) (b : Fin 16) (n : Fin 128) (h : n.val < 256) :
    step x k g (ix2 b (⟨n.val, h⟩ : Fin 256))
      = g (ix2 b (⟨n.val, h⟩ : Fin 256)) + ∑ q : Fin 512, cnt (x (ix2 b (⟨k.val * 512 + q.val, by
          have := q.isLt; omega⟩ : Fin 16384))) n.val := by
  unfold step
  refine (canon2_lo (F := Ideal) (k0_pay6 (View.ld x (rChunk k)) (View.ld g rHi))
    (k0_pay5 (View.ld x (rChunk k)) (View.ld g rLo)) b n h).trans ?_
  rw [pay5_apply]
  refine congrArg₂ (· + ·) (congrArg g (lo_emb b n h)) (Finset.sum_congr rfl fun q _ => ?_)
  show (1 - hi (x ((rChunk k).emb (ix2 b q)))) * oneHot (x ((rChunk k).emb (ix2 b q))) n.val = _
  rw [chunk_emb k b q (by have := q.isLt; omega)]
  obtain ⟨r, hr⟩ := hx (ix2 b (⟨k.val * 512 + q.val, by have := q.isLt; omega⟩ : Fin 16384))
  rw [hr]
  exact lo_count r n.val n.isLt

/-- One trip at a bin from 128 on. -/
theorem step_hi (x : Vec Ideal S16x16384 .f32) (hx : ∀ i, ∃ r : ℝ, x i = (r : EReal))
    (k : Fin k0_t1_loop.trips) (hk : k.val < 32) (g : Vec Ideal S16x256 .f32) (b : Fin 16) (n : Fin 128) (h : 128 + n.val < 256) :
    step x k g (ix2 b (⟨128 + n.val, h⟩ : Fin 256))
      = g (ix2 b (⟨128 + n.val, h⟩ : Fin 256)) + ∑ q : Fin 512, cnt (x (ix2 b (⟨k.val * 512 + q.val, by
          have := q.isLt; omega⟩ : Fin 16384))) (128 + n.val) := by
  unfold step
  refine (canon2_hi (F := Ideal) (k0_pay6 (View.ld x (rChunk k)) (View.ld g rHi))
    (k0_pay5 (View.ld x (rChunk k)) (View.ld g rLo)) b n h).trans ?_
  rw [pay6_apply]
  refine congrArg₂ (· + ·) (congrArg g (hi_emb b n h)) (Finset.sum_congr rfl fun q _ => ?_)
  show hi (x ((rChunk k).emb (ix2 b q))) * oneHot (x ((rChunk k).emb (ix2 b q))) n.val = _
  rw [chunk_emb k b q (by have := q.isLt; omega)]
  obtain ⟨r, hr⟩ := hx (ix2 b (⟨k.val * 512 + q.val, by have := q.isLt; omega⟩ : Fin 16384))
  rw [hr]
  exact hi_count r n.val n.isLt

/-- One trip, at row `b` and bin `v`: what was there plus the number of the trip's columns whose entry is `v`. -/
theorem step_apply (x : Vec Ideal S16x16384 .f32) (hx : ∀ i, ∃ r : ℝ, x i = (r : EReal))
    (k : Fin k0_t1_loop.trips) (hk : k.val < 32) (g : Vec Ideal S16x256 .f32) (b : Fin 16) (v : Fin 256) :
    step x k g (ix2 b v)
      = g (ix2 b v) + ∑ q : Fin 512, cnt (x (ix2 b (⟨k.val * 512 + q.val, by
          have := q.isLt; omega⟩ : Fin 16384))) v.val := by
  by_cases hv : v.val < 128
  · exact step_lo x hx k hk g b ⟨v.val, hv⟩ v.isLt
  · have hn : v.val - 128 < 128 := by have := v.isLt; omega
    have hv' : 128 + (v.val - 128) < 256 := by have := v.isLt; omega
    have e2 : 128 + (v.val - 128) = v.val := by omega
    have ev : (⟨128 + (v.val - 128), hv'⟩ : Fin 256) = v := Fin.ext e2
    have key := step_hi x hx k hk g b ⟨v.val - 128, hn⟩ hv'
    rw [ev] at key
    rw [show (128 + (⟨v.val - 128, hn⟩ : Fin 128).val) = v.val from e2] at key
    exact key

/-- Whether the column at position `p` (among 32 tiles of 512 columns) of row `b` holds `v`, as one or zero. -/
def colCount (x : Vec Ideal S16x16384 .f32) (b : Fin 16) (v : ℕ) : Fin (32 * 512) → EReal :=
  fun p => cnt (x (ix2 b (⟨p.val, p.isLt⟩ : Fin 16384))) v

/-- After `k` trips: what the loop started from plus the count over the first `k` tiles of 512 columns. -/
theorem acc_apply (x : Vec Ideal S16x16384 .f32) (hx : ∀ i, ∃ r : ℝ, x i = (r : EReal))
    (g : Vec Ideal S16x256 .f32) (b : Fin 16) (v : Fin 256) :
    ∀ k : ℕ, k ≤ 32 →
      acc x g k (ix2 b v) = g (ix2 b v) + Cert.LibSums.partialSum (T := 32) (B := 512) (colCount x b v.val) k
  | 0, _ => by rw [Cert.LibSums.partialSum_zero, add_zero]; rfl
  | k + 1, hk => by
    have hk' : k < 32 := hk
    have hkt : k < k0_t1_loop.trips := by rw [trips_eq]; exact hk'
    rw [show acc x g (k + 1) = step x ⟨k, hkt⟩ (acc x g k) from acc_succ x g ⟨k, hkt⟩,
      step_apply x hx ⟨k, hkt⟩ hk' (acc x g k) b v, acc_apply x hx g b v k (Nat.le_of_lt hk),
      Cert.LibSums.partialSum_succ (colCount x b v.val) hk', add_assoc]
    rfl

/-- After all thirty-two trips: what the loop started from plus the count over all 16384 columns. -/
theorem acc_full (x : Vec Ideal S16x16384 .f32) (hx : ∀ i, ∃ r : ℝ, x i = (r : EReal))
    (g : Vec Ideal S16x256 .f32) (b : Fin 16) (v : Fin 256) :
    acc x g k0_t1_loop.trips (ix2 b v) = g (ix2 b v) + ∑ p : Fin (32 * 512), colCount x b v.val p := by
  rw [trips_eq, acc_apply x hx g b v 32 (Nat.le_refl _), Cert.LibSums.partialSum_top]

/-- The zero block is zero. -/
theorem zero_apply (i : S16x256.Idx) : k0_pay1 (F := Ideal) i = 0 := by
  unfold k0_pay1
  show Ideal.ofBits .f32 0x00000000#32 = 0
  exact Ideal.ofBits_zero_f32

end Cert.KernelIdeal.HistBlock

end
-- ==== Proof.Spec.lean ====
/-
  The histogram both programs compute, as one function of a matrix of extended reals, and the domain on which
  they agree.

  For a matrix `x` of 64 rows and 262144 columns, `hist x` at row `r` and bin `v` (0 ≤ v < 256) is the number
  of columns `l` with `x r l = v`, counted as a sum of ones on the extended reals. One program finds it by
  comparing each entry with each bin value; the other by converting each entry to an integer and adding a one at
  that position. The two agree when every entry is a natural number (`NatValued`): then "the entry equals v" and
  "the entry's integer part is v" say the same thing. They differ on a fractional entry (its integer part still
  names a bin, but it equals no bin value) and on a negative integer (a negative position is counted from the
  end of the row of bins).
-/
import Idealize.ShloMosaic.PureOps.Ideal
import Idealize.ShloMosaic.Lib.ValueIdx

noncomputable section

namespace Cert.Hist

open Idealize.ShloMosaic Idealize.ShloMosaic.ValueIdx

/-- A matrix of 64 rows of 262144 entries. -/
abbrev SX : Shape := ⟨2, ![64, 262144]⟩
/-- 64 rows of 256 bins. -/
abbrev SH : Shape := ⟨2, ![64, 256]⟩

/-- Row `r`, bin `v`: how many entries of row `r` equal the number `v`. -/
def hist (x : SX.Idx → EReal) : SH.Idx → EReal :=
  fun i => ∑ l : Fin 262144, if x (ix2 (i 0) l) = (((i 1).val : ℝ) : EReal) then (1 : EReal) else 0

/-- Every entry is a natural number below 2³¹. -/
def NatValued (x : SX.Idx → EReal) : Prop :=
  ∀ i, ∃ n : ℕ, n < 2 ^ 31 ∧ x i = (((n : ℕ) : ℝ) : EReal)

theorem hist_apply (x : SX.Idx → EReal) (r : Fin 64) (v : Fin 256) :
    hist x (ix2 r v) = ∑ l : Fin 262144, if x (ix2 r l) = ((v.val : ℝ) : EReal) then (1 : EReal) else 0 := rfl

end Cert.Hist

end
-- ==== Proof.GridValue.lean ====
/-
  Region 0's output array after its run: the histogram of its input array.

  The grid has 4 × 16 points; point `t` works on rows `16 (t / 16) … 16 (t / 16) + 15` and columns
  `16384 (t % 16) … 16384 (t % 16) + 16383` of the input, and on rows `16 (t / 16) …` of the output, all 256 bins. The
  first point of each row block resets the output block, each later one goes on from what the point before left, and the
  block is written back after the last. So after point `t` the staging block holds, at row `b` and bin `v`, the number of
  the first `16384 (t % 16 + 1)` columns of row `16 (t / 16) + b` whose entry is `v`; after the last point of the row
  block, the number of all 262144 columns: the histogram.
-/
import proofs.«150304_j60833916781214_2_alg».proof.Proof.BlockValue
import proofs.«150304_j60833916781214_2_alg».proof.Proof.Spec

set_option maxRecDepth 16384

noncomputable section

namespace Cert.KernelIdeal.HistGrid

open Cert.KernelIdeal Cert.KernelIdeal.Gen Cert.KernelIdeal.HistBody Cert.KernelIdeal.HistPay Cert.KernelIdeal.HistBlock
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem N_eq : cfg0.N = 64 := N_0

/-- The printed index maps, decided over the grid: the input window moves with both grid coordinates, the output
    window with the first only. -/
theorem idx_facts : ∀ t : Fin cfg0.N, win0_0.index t (0 : Fin 2) = t.val / 16 ∧ win0_0.index t (1 : Fin 2) = t.val % 16
    ∧ win0_1.index t (0 : Fin 2) = t.val / 16 ∧ win0_1.index t (1 : Fin 2) = 0 :=
  (by decide +kernel : ∀ t : Fin grid0.N, _)

/-- The region's input array. -/
abbrev X (c : Dev nD) : S64x262144.Idx → EReal := V c (Pipeline.arrRef spec0 0)

/-- Row `b` of the row block of point `n`. -/
def row (n : ℕ) (hn : n < 64) (b : Fin 16) : Fin 64 := ⟨16 * (n / 16) + b.val, by have := b.isLt; omega⟩

/-- The input block of point `t` at row `b`, column `l`: the input array at row `16 (t / 16) + b`, column
    `16384 (t % 16) + l`. -/
theorem iblk_apply (c : Dev nD) (t : Fin cfg0.N) (b : Fin 16) (l : Fin 16384) :
    (iblk0 V c 0 t : Vec Ideal S16x16384 .f32) (ix2 b l)
      = X V c (ix2 (row t.val (lt_of_lt_of_eq t.isLt N_eq) b)
          (⟨(t.val % 16) * 16384 + l.val, by have := l.isLt; have := Nat.mod_lt t.val (by decide : 16 > 0); omega⟩ : Fin 262144)) := by
  obtain ⟨e0, e1, -, -⟩ := idx_facts t
  unfold iblk0
  rw [View.read_apply]
  show V c (Pipeline.arrRef spec0 0) (((cfg0.win 0).blk t).view.emb (ix2 b l)) = V c (Pipeline.arrRef spec0 0) _
  refine congrArg (V c (Pipeline.arrRef spec0 0)) (funext fun a => Fin.ext ?_)
  match a with
  | ⟨0, _⟩ => show win0_0.index t (0 : Fin 2) * 16 + 1 * b.val = 16 * (t.val / 16) + b.val; rw [e0]; omega
  | ⟨1, _⟩ => show win0_0.index t (1 : Fin 2) * 16384 + 1 * l.val = (t.val % 16) * 16384 + l.val; rw [e1]; omega

/-- Whether the column at position `p` (among 16 tiles of 16384 columns) of row `r` holds `v`, as one or zero. -/
def rowCount (Xc : S64x262144.Idx → EReal) (r : Fin 64) (v : ℕ) : Fin (16 * 16384) → EReal :=
  fun p => cnt (Xc (ix2 r (⟨p.val, p.isLt⟩ : Fin 262144))) v

/-- One point's count over its block's 16384 columns is the count over that tile of the row's columns. -/
theorem block_sum (c : Dev nD) (t : Fin cfg0.N) (b : Fin 16) (v : ℕ) :
    ∑ p : Fin (32 * 512), colCount (iblk0 V c 0 t : Vec Ideal S16x16384 .f32) b v p
      = ∑ i : Fin 16384, rowCount (X V c) (row t.val (lt_of_lt_of_eq t.isLt N_eq) b) v
          ⟨(t.val % 16) * 16384 + i.val, Cert.LibSums.tile_idx_lt (Nat.mod_lt _ (by decide)) i.isLt⟩ := by
  have e : ∑ p : Fin (32 * 512), colCount (iblk0 V c 0 t : Vec Ideal S16x16384 .f32) b v p
      = ∑ i : Fin 16384, cnt ((iblk0 V c 0 t : Vec Ideal S16x16384 .f32) (ix2 b i)) v :=
    Fin.sum_congr' (fun i : Fin 16384 => cnt ((iblk0 V c 0 t : Vec Ideal S16x16384 .f32) (ix2 b i)) v)
      (by norm_num : 32 * 512 = 16384)
  rw [e]
  refine Finset.sum_congr rfl fun i _ => ?_
  rw [iblk_apply]
  rfl

/-- After point `n` the staging block holds, at row `b` and bin `v`, the count over the first `n % 16 + 1` tiles of
    16384 columns of row `16 (n / 16) + b`: by induction on the point, a reset starting the count afresh. -/
theorem outsAt_apply (c : Dev nD) (hX : ∀ i, ∃ r : ℝ, X V c i = (r : EReal)) :
    ∀ (n : ℕ) (hn : n < cfg0.N) (b : Fin 16) (v : Fin 256),
      outsAt0 V c n hn (ix2 b v)
        = Cert.LibSums.partialSum (T := 16) (B := 16384)
            (rowCount (X V c) (row n (lt_of_lt_of_eq hn N_eq) b) v.val) (n % 16 + 1) := by
  have hblk : ∀ (t : Fin cfg0.N) (i : S16x16384.Idx), ∃ r : ℝ, (iblk0 V c 0 t : Vec Ideal S16x16384 .f32) i = (r : EReal) :=
    fun t i => by unfold iblk0; rw [View.read_apply]; exact hX _
  intro n
  induction n with
  | zero =>
    intro hn b v
    rw [outsAt0_A V c ⟨0, hn⟩ rfl, outA, acc_full _ (hblk _) _ b v, zero_apply, zero_add, block_sum,
      show (0 % 16 + 1) = 0 + 1 from rfl, Cert.LibSums.partialSum_succ _ (by decide : 0 < 16),
      Cert.LibSums.partialSum_zero, zero_add]
    rfl
  | succ n ih =>
    intro hn b v
    have hn64 : n + 1 < 64 := lt_of_lt_of_eq hn N_eq
    by_cases h0 : (n + 1) % 16 = 0
    · rw [outsAt0_A V c ⟨n + 1, hn⟩ h0, outA, acc_full _ (hblk _) _ b v, zero_apply, zero_add, block_sum,
        show ((n + 1) % 16 + 1) = 0 + 1 from by rw [h0], Cert.LibSums.partialSum_succ _ (by decide : 0 < 16),
        Cert.LibSums.partialSum_zero, zero_add]
      refine Finset.sum_congr rfl fun i _ => congrArg _ (Fin.ext ?_)
      show ((n + 1) % 16) * 16384 + i.val = 0 * 16384 + i.val
      rw [h0]
    · rw [outsAt0_B V c ⟨n + 1, hn⟩ h0, outB, acc_full _ (hblk _) _ b v]
      show outsAt0 V c n _ (ix2 b v) + _ = _
      rw [ih (Nat.lt_of_succ_lt hn) b v, block_sum]
      have hr : row n (lt_of_lt_of_eq (Nat.lt_of_succ_lt hn) N_eq) b = row (n + 1) hn64 b :=
        Fin.ext (by show 16 * (n / 16) + b.val = 16 * ((n + 1) / 16) + b.val; omega)
      have hm : (n + 1) % 16 = n % 16 + 1 := by omega
      rw [hr, show ((n + 1) % 16 + 1) = (n % 16 + 1) + 1 from by omega,
        Cert.LibSums.partialSum_succ _ (by omega : n % 16 + 1 < 16)]
      refine congrArg₂ (· + ·) rfl (Finset.sum_congr rfl fun i _ => congrArg _ (Fin.ext ?_))
      show ((n + 1) % 16) * 16384 + i.val = (n % 16 + 1) * 16384 + i.val
      rw [hm]

/-- The count over all sixteen tiles of a row is the histogram's entry. -/
theorem rowCount_sum (Xc : S64x262144.Idx → EReal) (r : Fin 64) (v : Fin 256) :
    ∑ p : Fin (16 * 16384), rowCount Xc r v.val p = Cert.Hist.hist Xc (ix2 r v) := by
  rw [Cert.Hist.hist_apply]
  exact Fin.sum_congr' (fun l : Fin 262144 => if Xc (ix2 r l) = ((v.val : ℝ) : EReal) then (1 : EReal) else 0)
    (by norm_num : 16 * 16384 = 262144)

/-- What a point writes back, for ANY function `G` of the output array's index that the staging block agrees with,
    row by row and bin by bin: its block of `G`. -/
theorem flushed_of_pointwise (c : Dev nD) (t : Fin cfg0.N) (G : S64x256.Idx → EReal)
    (h : ∀ (b : Fin 16) (v : Fin 256),
      outsAt0 V c t.val t.isLt (ix2 b v) = G (ix2 (row t.val (lt_of_lt_of_eq t.isLt N_eq) b) v)) :
    (dat0 V c).flushed 1 t = ((cfg0.win 1).blk t).view.read (Elt Ideal) G := by
  obtain ⟨-, -, e2, e3⟩ := idx_facts t
  have key : (outsAt0 V c t.val t.isLt : S16x256.Idx → EReal)
      = fun y : S16x256.Idx => G (ix2 (row t.val (lt_of_lt_of_eq t.isLt N_eq) (y 0)) (y 1)) :=
    funext fun y => by
      exact (congrArg (outsAt0 V c t.val t.isLt : S16x256.Idx → EReal) (eq_ix2 (n0 := 16) (n1 := 256) y)).trans
        (h (y 0) (y 1))
  show (cfg0.win 1).cut (grid0.coords t) ((dat0 V c).after 1 t) = _
  rw [after0_1, key]
  refine funext fun j => ?_
  show G (ix2 (row t.val (lt_of_lt_of_eq t.isLt N_eq) (j 0)) (j 1)) = G (((cfg0.win 1).blk t).view.emb j)
  refine congrArg G (funext fun a => Fin.ext ?_)
  match a with
  | ⟨0, _⟩ =>
    show 16 * (t.val / 16) + (j 0).val = win0_1.index t (0 : Fin 2) * 16 + 1 * (j 0).val
    rw [e2]; omega
  | ⟨1, _⟩ =>
    show (j 1).val = win0_1.index t (1 : Fin 2) * 256 + 1 * (j 1).val
    rw [e3]; omega

/-- What a flushing point writes back is its block of the histogram of the input array. -/
theorem flushed_eq (c : Dev nD) (hX : ∀ i, ∃ r : ℝ, X V c i = (r : EReal)) (t : Fin cfg0.N)
    (hf : (cfg0.win 1).flush t = true) :
    (dat0 V c).flushed 1 t = ((cfg0.win 1).blk t).view.read (Elt Ideal) (Cert.Hist.hist (X V c)) := by
  have h15 : t.val % 16 = 15 := (flush0_1 t).mp hf
  refine flushed_of_pointwise V c t _ fun b v => ?_
  rw [outsAt_apply V c hX, h15, show (15 + 1 : ℕ) = 16 from rfl, Cert.LibSums.partialSum_top, rowCount_sum]

/-- An index of the output array is in point `t`'s block iff each coordinate is in the block's range. -/
theorem mem_blk (t : Fin cfg0.N) (i : S64x256.Idx) :
    i ∈ ((cfg0.win 1).blk t).view.set ↔ ∀ a : Fin 2, win0_1.index t a * S16x256.size a ≤ (i a).val
      ∧ (i a).val < win0_1.index t a * S16x256.size a + S16x256.size a := by
  show i ∈ ((View.whole main_v1).slice (win0_1.rect t)).set ↔ _
  rw [View.set_slice_whole, Rect.mem_set_unit]
  exact Iff.rfl

/-- Every index of the output array is in the block of the last point of its row block, which writes back. -/
theorem cover (i : S64x256.Idx) :
    ∃ t : Fin cfg0.N, (cfg0.win 1).flush t = true ∧ i ∈ ((cfg0.win 1).blk t).view.set := by
  have hi0 : (i 0).val < 64 := (i 0).isLt
  have hi1 : (i 1).val < 256 := (i 1).isLt
  have hlt : 16 * ((i 0).val / 16) + 15 < cfg0.N := by rw [N_eq]; omega
  refine ⟨⟨16 * ((i 0).val / 16) + 15, hlt⟩,
    (flush0_1 _).mpr (by show (16 * ((i 0).val / 16) + 15) % 16 = 15; omega), ?_⟩
  rw [mem_blk]
  obtain ⟨-, -, e2, e3⟩ := idx_facts ⟨16 * ((i 0).val / 16) + 15, hlt⟩
  have e2' : win0_1.index ⟨16 * ((i 0).val / 16) + 15, hlt⟩ (0 : Fin 2) = (i 0).val / 16 := by
    rw [e2]; show (16 * ((i 0).val / 16) + 15) / 16 = (i 0).val / 16; omega
  intro a
  match a with
  | ⟨0, _⟩ =>
    show win0_1.index ⟨16 * ((i 0).val / 16) + 15, hlt⟩ (0 : Fin 2) * 16 ≤ (i 0).val
      ∧ (i 0).val < win0_1.index ⟨16 * ((i 0).val / 16) + 15, hlt⟩ (0 : Fin 2) * 16 + 16
    rw [e2']; omega
  | ⟨1, _⟩ =>
    show win0_1.index ⟨16 * ((i 0).val / 16) + 15, hlt⟩ (1 : Fin 2) * 256 ≤ (i 1).val
      ∧ (i 1).val < win0_1.index ⟨16 * ((i 0).val / 16) + 15, hlt⟩ (1 : Fin 2) * 256 + 256
    rw [e3]; omega

/-- THE REGION'S RESULT: its output array ends holding the histogram of its input array. -/
theorem final (c : Dev nD) (hX : ∀ i, ∃ r : ℝ, X V c i = (r : EReal)) :
    (dat0 V c).arrAt 1 cfg0.N = Cert.Hist.hist (X V c) :=
  (dat0 V c).arrAt_eq_of_cover 1 (Cert.Hist.hist (X V c)) (flushed_eq V c hX) cover

end Cert.KernelIdeal.HistGrid

end
-- ==== Proof.TripValue1.lean ====
/-
  One trip of the kernel's inner loop, read as a function of values (region 1's kernel).

  The output block has 16 rows and 256 bins. A trip `k` reads columns `512 k … 512 k + 511` of the 16-row input block
  and adds, into the bins `0 … 127`, the counts of the entries below 128 by value, and into the bins `128 … 255` the
  counts of the entries from 128 on by value minus 128: two stores, one per half of the bins, each of what the half
  held before plus a batched product of an indicator row with a one-hot matrix. After the trip the block is therefore
  one function of the block before it and of the input's columns: `step`. Thirty-two trips compose (`acc`).
-/
import proofs.«150304_j60833916781214_2_alg».proof.Proof.Gen.KernelIdeal.Frame
import Idealize.ShloMosaic.Lib.Pipeline.Value

set_option maxRecDepth 16384

noncomputable section

namespace Cert.KernelIdeal.HistBody1

open Cert.KernelIdeal Cert.KernelIdeal.Gen Idealize.ShloMosaic Idealize.ShloMosaic.TcCoe Idealize.SL.Sem

variable {F : FTy → Type} [FloatOps F]

/-- The bins `0 … 127` of the output block, all 16 rows. -/
abbrev rLo : Rect S16x256 := Rect.unit ![0, 0] S16x128.size inb_S16x256_S16x128_0_0
/-- The bins `128 … 255` of the output block, all 16 rows. -/
abbrev rHi : Rect S16x256 := Rect.unit ![0, 128] S16x128.size inb_S16x256_S16x128_0_128
/-- The input block's columns that trip `k` reads. -/
abbrev rChunk (k : Fin k1_t1_loop.trips) : Rect S16x16384 := Rect.unit (k1_off1 k) S16x512.size (k1_off1_inb k)

/-- Every bin lies in one of the two halves. -/
theorem cover2 (wHi : rHi.shape.Idx → Elt F .f32) (wLo : rLo.shape.Idx → Elt F .f32) (y : S16x256.Idx) :
    ∃ p ∈ ([⟨rHi, wHi⟩, ⟨rLo, wLo⟩] : List (View.Piece (Elt F) S16x256 .f32)), y ∈ p.1.set := by
  have h0 : (y 0 : Nat) < 16 := (y 0).isLt
  have h1 : (y 1 : Nat) < 256 := (y 1).isLt
  by_cases h : (y 1 : Nat) < 128
  · refine ⟨⟨rLo, wLo⟩, by simp, ?_⟩
    show y ∈ (Rect.unit (s := S16x256) ![0, 0] S16x128.size inb_S16x256_S16x128_0_0).set
    rw [Rect.mem_set_unit]
    intro a
    match a with
    | ⟨0, _⟩ => exact ⟨Nat.zero_le _, by show (y 0 : Nat) < 0 + 16; omega⟩
    | ⟨1, _⟩ => exact ⟨Nat.zero_le _, by show (y 1 : Nat) < 0 + 128; omega⟩
  · refine ⟨⟨rHi, wHi⟩, by simp, ?_⟩
    show y ∈ (Rect.unit (s := S16x256) ![0, 128] S16x128.size inb_S16x256_S16x128_0_128).set
    rw [Rect.mem_set_unit]
    intro a
    match a with
    | ⟨0, _⟩ => exact ⟨Nat.zero_le _, by show (y 0 : Nat) < 0 + 16; omega⟩
    | ⟨1, _⟩ => exact ⟨by show 128 ≤ (y 1 : Nat); omega, by show (y 1 : Nat) < 128 + 128; omega⟩

/-- The block after trip `k`, from the block `g` before it and the input block `x`: each half of the bins is what the
    half held plus the trip's counts (the two stores' payloads, each over its own half). -/
def step (x : Vec F S16x16384 .f32) (k : Fin k1_t1_loop.trips) (g : Vec F S16x256 .f32) : Vec F S16x256 .f32 :=
  View.canon [⟨rHi, k1_pay6 (View.ld x (rChunk k)) (View.ld g rHi)⟩, ⟨rLo, k1_pay5 (View.ld x (rChunk k)) (View.ld g rLo)⟩]

/-- The trip's two stores, over any contents `f` of the output's staging buffer, leave `step` of what `f` reads as. -/
theorem trip_read (𝒱 : Variants) (c : Dev nD) (bd : Option 𝒱.V) (i : grid1.Coords)
    (arg2 : Memref sig .tc .vmem S16x16384 .f32) (harg2 : arg2.IsWhole)
    (arg3 : Memref sig .tc .vmem S16x256 .f32) (harg3 : arg3.IsWhole)
    (x : Vec F S16x16384 .f32) (k : Fin k1_t1_loop.trips) (f : BufTy.Contents (Elt F) arg3.view.ty) :
    arg3.view.read (Elt F) (arg3.view.writes (Elt F) f (tripL_k1_t1 (F := F) 𝒱 c bd i arg2 harg2 arg3 harg3 (harg2.unread x) k f))
      = step x k (arg3.view.read (Elt F) f) := by
  unfold tripL_k1_t1 trip_k1_t1
  dsimp only
  rw [View.read_writes_eq_canon _ _ _ (cover2 _ _)]
  unfold step trip_k1_t1.sl.v40
  simp only [View.readAt_eq_ld, harg2.read_unread]

/-- The block after the first `k` trips, from the block `g` the loop starts from. -/
def acc (x : Vec F S16x16384 .f32) (g : Vec F S16x256 .f32) : ℕ → Vec F S16x256 .f32
  | 0 => g
  | k + 1 => if h : k < k1_t1_loop.trips then step x ⟨k, h⟩ (acc x g k) else acc x g k

theorem acc_succ (x : Vec F S16x16384 .f32) (g : Vec F S16x256 .f32) (k : Fin k1_t1_loop.trips) :
    acc x g (k.val + 1) = step x k (acc x g k.val) := by
  rw [acc]; exact dif_pos k.isLt

/-- The stores of the first `k` trips, over contents `G` of the staging buffer, leave `acc` of what `G` reads as:
    by induction over the trips, each trip opened through `trip_read`. -/
theorem pb_read (𝒱 : Variants) (c : Dev nD) (bd : Option 𝒱.V) (i : grid1.Coords)
    (arg2 : Memref sig .tc .vmem S16x16384 .f32) (harg2 : arg2.IsWhole)
    (arg3 : Memref sig .tc .vmem S16x256 .f32) (harg3 : arg3.IsWhole)
    (x : Vec F S16x16384 .f32) (G : BufTy.Contents (Elt F) arg3.view.ty) :
    ∀ k : ℕ, k ≤ k1_t1_loop.trips →
      arg3.view.read (Elt F) (arg3.view.writes (Elt F) G
          (pb_k1_t1 (F := F) 𝒱 c bd i arg2 harg2 arg3 harg3 (harg2.unread x) G k))
        = acc x (arg3.view.read (Elt F) G) k
  | 0, _ => rfl
  | k + 1, hk => by
    have e := pb_k1_t1_succ (F := F) 𝒱 c bd i arg2 harg2 arg3 harg3 (harg2.unread x) G ⟨k, hk⟩
    dsimp only at e
    rw [e, View.writes_append, trip_read, pb_read 𝒱 c bd i arg2 harg2 arg3 harg3 x G k (Nat.le_of_lt hk)]
    exact (acc_succ x _ ⟨k, hk⟩).symm

/-- A point that does not reset: the body leaves, in the output's staging buffer holding `xo`, the thirty-two trips'
    accumulation over `xo`. -/
theorem outB (c : Dev nD) (i : grid1.Coords) (arg2 : Memref sig .tc .vmem S16x16384 .f32) (harg2 : arg2.IsWhole)
    (arg3 : Memref sig .tc .vmem S16x256 .f32) (harg3 : arg3.IsWhole) (hc0 : ¬cond1_0 i)
    (x : Vec F S16x16384 .f32) (xo : Vec F S16x256 .f32) :
    out1_B_1 c i arg2 harg2 arg3 harg3 hc0 x xo = acc x xo k1_t1_loop.trips := by
  have hL : (kernelRun1_B (F := F) c i arg2 harg2 arg3 harg3 hc0 x xo).1
      = pb_k1_t1 (F := F) Variants.none c none i arg2 harg2 arg3 harg3 (harg2.unread x) (harg3.unread xo) k1_t1_loop.trips := by
    unfold kernelRun1_B; rfl
  unfold out1_B_1
  rw [View.read_writes_eq_canon _ _ _ (cover1_B_1 c i arg2 harg2 arg3 harg3 hc0 x xo),
    ← View.read_writes_eq_canon arg3.view (harg3.unread xo) _ (cover1_B_1 c i arg2 harg2 arg3 harg3 hc0 x xo),
    hL, pb_read Variants.none c none i arg2 harg2 arg3 harg3 x (harg3.unread xo) _ (Nat.le_refl _), harg3.read_unread]

theorem hz : (![0, 0] : Fin 2 → Nat) = fun _ => 0 := funext fun a => by fin_cases a <;> rfl

/-- The reset: one store of the zero block over the whole output block. -/
abbrev zeroFill : List (View.Piece (Elt F) S16x256 .f32) :=
  [⟨Rect.unit (s := S16x256) ![0, 0] S16x256.size inb_S16x256_S16x256_0_0, k1_pay1 (F := F)⟩]

/-- After the reset the block reads as the zero block, whatever it held. -/
theorem zero_read {sig' : RefSig} {κ : Kind} {sp : Space} (v : View sig' κ sp S16x256 .f32) (f : v.ty.Contents (Elt F)) :
    v.read (Elt F) (v.writes (Elt F) f (zeroFill (F := F))) = k1_pay1 (F := F) := by
  rw [View.read_writes_eq_canon _ _ _ (fun y => ⟨_, List.mem_singleton_self _, View.mem_set_unit_zero hz inb_S16x256_S16x256_0_0 y⟩),
    View.canon_unit_zero hz]

/-- A point that resets: the body leaves the thirty-two trips' accumulation over the zero block. -/
theorem outA (c : Dev nD) (i : grid1.Coords) (arg2 : Memref sig .tc .vmem S16x16384 .f32) (harg2 : arg2.IsWhole)
    (arg3 : Memref sig .tc .vmem S16x256 .f32) (harg3 : arg3.IsWhole) (hc0 : cond1_0 i)
    (x : Vec F S16x16384 .f32) :
    out1_A_1 c i arg2 harg2 arg3 harg3 hc0 x = acc x (k1_pay1 (F := F)) k1_t1_loop.trips := by
  have hL : (kernelRun1_A (F := F) c i arg2 harg2 arg3 harg3 hc0 x).1
      = pb_k1_t1 (F := F) Variants.none c none i arg2 harg2 arg3 harg3 (harg2.unread x)
          (arg3.view.writes (Elt F) arg3.view.junk (zeroFill (F := F))) k1_t1_loop.trips ++ zeroFill (F := F) := by
    unfold kernelRun1_A; rfl
  unfold out1_A_1
  rw [View.read_writes_eq_canon _ _ _ (cover1_A_1 c i arg2 harg2 arg3 harg3 hc0 x),
    ← View.read_writes_eq_canon arg3.view arg3.view.junk _ (cover1_A_1 c i arg2 harg2 arg3 harg3 hc0 x),
    hL, View.writes_append,
    pb_read Variants.none c none i arg2 harg2 arg3 harg3 x _ _ (Nat.le_refl _), zero_read]

end Cert.KernelIdeal.HistBody1

end
-- ==== Proof.TripIdeal1.lean ====
/-
  The two payloads of a trip, read at an index on the extended reals.

  For an entry `x` of the chunk, `hi x` is one when `x ≥ 128` and zero otherwise, and the one-hot row of `x` has a one
  at the lane `n` (0 ≤ n < 128) exactly when `x - 128 · hi x = n`. The first product weighs the one-hot rows by
  `1 - hi x` and sums over the 512 entries of a row: the number of entries equal to `n`. The second weighs them by
  `hi x`: the number of entries equal to `128 + n`.
-/
import proofs.«150304_j60833916781214_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.HistPay1

open Cert.KernelIdeal Cert.KernelIdeal.Gen Idealize.ShloMosaic Idealize.ShloMosaic.ValueIdx

/-- The float word of `128.0` is the real 128. -/
theorem ofBits_128 : Ideal.ofBits .f32 0x43000000#32 = ((128 : ℝ) : EReal) := by
  simp [Ideal.ofBits, Ideal.ieee, -EReal.coe_mul]; norm_num

/-- The float word of `1.0` is one. -/
theorem ofBits_one : Ideal.ofBits .f32 0x3F800000#32 = 1 := by
  simp [Ideal.ofBits, Ideal.ieee, -EReal.coe_mul]; norm_num

/-- One when the entry is at least 128, zero otherwise. -/
def hi (x : EReal) : EReal := if ((128 : ℝ) : EReal) ≤ x then 1 else 0

/-- One when the entry, less 128 if it is at least 128, is the lane's number; zero otherwise. -/
def oneHot (x : EReal) (n : ℕ) : EReal := if x - ((128 : ℝ) : EReal) * hi x = ((n : ℝ) : EReal) then 1 else 0

/-- A bit widened to a word and read as a signed integer is one or zero. -/
theorem bit_val (p : Bool) : (((((BitVec.ofBool p).setWidth 32).toInt : ℤ) : ℝ) : EReal) = if p then 1 else 0 := by
  cases p <;> simp

theorem pay3_apply (v : Vec Ideal S16x512 .f32) (i : S16x512.Idx) : k1_pay3 (F := Ideal) v i = hi (v i) := by
  unfold k1_pay3 k1_pay2 hi
  simp only [select_apply, cmpf_apply, broadcast_apply, shapeCast_self, Ideal.cmpf_def, Ideal.cmp, Ideal.ofBits_def,
    ofBits_128, ofBits_one, Ideal.ofBits_zero_f32]
  by_cases h : ((128 : ℝ) : EReal) ≤ v i
  · simp [h, select_one]
  · simp [h, select_zero]

section Layout

variable {α : Type}

/-- A [16,512] array given a unit last axis and spread over 128 lanes reads, at row `b`, entry `q`, any lane, its own
    entry `(b, q)`. -/
theorem spread_lanes (u : S16x512.Idx → α) (b : Fin 16) (q : Fin 512) (n : Fin 128) :
    broadcastTo S16x512x128 (shapeCast S16x512x1 u shapeCasts_S16x512_S16x512x1) broadcasts_S16x512x1_S16x512x128 (ix3 b q n)
      = u (ix2 b q) := by
  rw [broadcastTo_apply _ _ _ (ix3 b q (0 : Fin 1)) (fun a => by
        match a with
        | ⟨0, _⟩ => rfl
        | ⟨1, _⟩ => rfl
        | ⟨2, _⟩ => rfl),
    shapeCast_apply _ _ _ (ix2 b q) (by rw [Shape.rowMajor_val_two, Shape.rowMajor_val_three]; simp)]

/-- A [1,1,128] row spread over 16 rows of 512 entries reads, at any row and entry, its own lane. -/
theorem spread_rows (w : S1x1x128.Idx → α) (b : Fin 16) (q : Fin 512) (n : Fin 128) :
    broadcastTo S16x512x128 w broadcasts_S1x1x128_S16x512x128 (ix3 b q n) = w (ix3 (0 : Fin 1) (0 : Fin 1) n) := by
  rw [broadcastTo_apply _ _ _ (ix3 (0 : Fin 1) (0 : Fin 1) n) (fun a => by
        match a with
        | ⟨0, _⟩ => rfl
        | ⟨1, _⟩ => rfl
        | ⟨2, _⟩ => rfl)]

/-- A [16,512] array given a unit middle axis reads, at `(b, 0, q)`, its entry `(b, q)`. -/
theorem middle_unit (u : S16x512.Idx → α) (b : Fin 16) (q : Fin 512) :
    shapeCast S16x1x512 u shapeCasts_S16x512_S16x1x512 (ix3 b (0 : Fin 1) q) = u (ix2 b q) := by
  rw [shapeCast_apply _ _ _ (ix2 b q) (by rw [Shape.rowMajor_val_two, Shape.rowMajor_val_three]; simp)]

/-- A [16,1,128] array with its unit axis dropped reads, at `(b, n)`, its entry `(b, 0, n)`. -/
theorem drop_middle (u : S16x1x128.Idx → α) (b : Fin 16) (n : Fin 128) :
    shapeCast S16x128 u shapeCasts_S16x1x128_S16x128 (ix2 b n) = u (ix3 b (0 : Fin 1) n) := by
  rw [shapeCast_apply _ _ _ (ix3 b (0 : Fin 1) n) (by rw [Shape.rowMajor_val_two, Shape.rowMajor_val_three]; simp)]

end Layout

/-- The lanes' numbers: lane `n` of the iota, converted, is the real `n`. -/
theorem lane_number (n : Fin 128) :
    (sitofp .f32 (iota .tc S1x1x128 32 [2] iota_S1x1x128_d2_w32) : FVec Ideal S1x1x128 .f32) (ix3 (0 : Fin 1) (0 : Fin 1) n)
      = ((n.val : ℝ) : EReal) := by
  rw [sitofp_apply, iota_single_apply]
  show ((((BitVec.ofNat 32 n.val).toInt : ℤ) : ℝ) : EReal) = _
  have h : (BitVec.ofNat 32 n.val).toInt = (n.val : ℤ) := by
    have hn := n.isLt
    have hm : n.val % 2 ^ 32 = n.val := Nat.mod_eq_of_lt (by omega)
    simp only [BitVec.toInt, BitVec.toNat_ofNat, hm]
    rw [if_pos (by omega)]
  rw [h]; norm_cast

/-- The one-hot matrix at row `b`, entry `q`, lane `n`. -/
theorem pay4_apply (v : Vec Ideal S16x512 .f32) (b : Fin 16) (q : Fin 512) (n : Fin 128) :
    k1_pay4 (F := Ideal) v (ix3 b q n) = oneHot (v (ix2 b q)) n.val := by
  unfold k1_pay4 oneHot
  simp only [truncf_apply, sitofp_apply, extui_apply, cmpf_apply]
  rw [spread_lanes, spread_rows, lane_number]
  simp only [subf_apply, mulf_apply, broadcast_apply, pay3_apply, k1_pay2, shapeCast_self, Ideal.cmpf_def, Ideal.cmp,
    Ideal.ofBits_def, ofBits_128]
  show (((((BitVec.ofBool (decide (_ = _))).setWidth 32).toInt : ℤ) : ℝ) : EReal) = _
  rw [bit_val]
  simp only [decide_eq_true_eq]

/-- The batched product into a zero accumulator, at row `b` and lane `n`: the sum over the 512 entries of the row. -/
theorem bmm_apply (lhs : FVec Ideal S16x1x512 .bf16) (rhs : FVec Ideal S16x512x128 .bf16) (b : Fin 16) (n : Fin 128) :
    matmul dot_S16x1x512_S16x512x128_S16x1x128_2_1_1_2_0_0 none lhs rhs (constant S16x1x128 .f32 0x00000000#32) (ix3 b (0 : Fin 1) n)
      = ∑ q : Fin 512, lhs (ix3 b (0 : Fin 1) q) * rhs (ix3 b q n) := by
  simp only [matmul]
  rw [Ideal.matmul_constant_zero_apply,
    ← Equiv.sum_comp (contrEquiv1 dot_S16x1x512_S16x512x128_S16x1x128_2_1_1_2_0_0 512 rfl rfl).symm]
  refine Finset.sum_congr rfl fun q _ => ?_
  congr 1
  · refine congrArg lhs (funext fun a => Fin.ext ?_)
    match a with
    | ⟨0, _⟩ => rfl
    | ⟨1, _⟩ => rfl
    | ⟨2, _⟩ =>
      exact (DotDims.lhsIdx_val_of_single _ rfl _ _).trans
        (contrEquiv1_symm_val dot_S16x1x512_S16x512x128_S16x1x128_2_1_1_2_0_0 512 rfl rfl q)
  · refine congrArg rhs (funext fun a => Fin.ext ?_)
    match a with
    | ⟨0, _⟩ => rfl
    | ⟨1, _⟩ =>
      exact (DotDims.rhsIdx_val_of_single _ rfl _ _).trans
        (contrEquiv1_symm_val dot_S16x1x512_S16x512x128_S16x1x128_2_1_1_2_0_0 512 rfl rfl q)
    | ⟨2, _⟩ => rfl

/-- The first store's payload at row `b`, lane `n`: what the half held plus the row's entries weighed by `1 - hi`. -/
theorem pay5_apply (v : Vec Ideal S16x512 .f32) (g : Vec Ideal S16x128 .f32) (b : Fin 16) (n : Fin 128) :
    k1_pay5 (F := Ideal) v g (ix2 b n)
      = g (ix2 b n) + ∑ q : Fin 512, (1 - hi (v (ix2 b q))) * oneHot (v (ix2 b q)) n.val := by
  unfold k1_pay5
  simp only [addf_apply, shapeCast_self]
  rw [drop_middle, bmm_apply]
  congr 1
  refine Finset.sum_congr rfl fun q _ => ?_
  rw [middle_unit, pay4_apply]
  simp only [truncf_apply, subf_apply, broadcast_apply, pay3_apply, Ideal.ofBits_def, ofBits_one]

/-- The second store's payload at row `b`, lane `n`: what the half held plus the row's entries weighed by `hi`. -/
theorem pay6_apply (v : Vec Ideal S16x512 .f32) (g : Vec Ideal S16x128 .f32) (b : Fin 16) (n : Fin 128) :
    k1_pay6 (F := Ideal) v g (ix2 b n)
      = g (ix2 b n) + ∑ q : Fin 512, hi (v (ix2 b q)) * oneHot (v (ix2 b q)) n.val := by
  unfold k1_pay6
  simp only [addf_apply, shapeCast_self]
  rw [drop_middle, bmm_apply]
  congr 1
  refine Finset.sum_congr rfl fun q _ => ?_
  rw [middle_unit, pay4_apply]
  simp only [truncf_apply, pay3_apply]

/-- One when the entry is the number `v`, zero otherwise. -/
def cnt (x : EReal) (v : ℕ) : EReal := if x = ((v : ℝ) : EReal) then 1 else 0

theorem one_sub_one : (1 : EReal) - 1 = 0 := by
  rw [← EReal.coe_one, ← EReal.coe_sub]; norm_num

/-- For a real entry and a lane `n < 128`: weighed by `1 - hi`, the one-hot row counts the entry when it IS `n`. -/
theorem lo_count (r : ℝ) (n : ℕ) (hn : n < 128) :
    (1 - hi (r : EReal)) * oneHot (r : EReal) n = cnt (r : EReal) n := by
  by_cases h : (128 : ℝ) ≤ r
  · have hh : hi (r : EReal) = 1 := if_pos (EReal.coe_le_coe_iff.mpr h)
    have hne : ¬ (r : EReal) = ((n : ℝ) : EReal) := by
      intro e
      have e' : r = (n : ℝ) := EReal.coe_eq_coe_iff.mp e
      have hn' : (n : ℝ) < 128 := by exact_mod_cast hn
      linarith
    rw [hh, one_sub_one, zero_mul]
    unfold cnt
    rw [if_neg hne]
  · have hh : hi (r : EReal) = 0 := if_neg (fun e => h (EReal.coe_le_coe_iff.mp e))
    unfold oneHot cnt
    rw [hh, sub_zero, one_mul, mul_zero, sub_zero]

/-- … and weighed by `hi`, it counts the entry when it is `128 + n`. -/
theorem hi_count (r : ℝ) (n : ℕ) (hn : n < 128) :
    hi (r : EReal) * oneHot (r : EReal) n = cnt (r : EReal) (128 + n) := by
  by_cases h : (128 : ℝ) ≤ r
  · have hh : hi (r : EReal) = 1 := if_pos (EReal.coe_le_coe_iff.mpr h)
    unfold oneHot cnt
    rw [hh, one_mul, mul_one]
    have e1 : (r : EReal) - ((128 : ℝ) : EReal) = ((r - 128 : ℝ) : EReal) := (EReal.coe_sub r 128).symm
    rw [e1]
    by_cases h2 : r - 128 = (n : ℝ)
    · have h3 : r = ((128 + n : ℕ) : ℝ) := by push_cast; linarith
      rw [if_pos (by rw [h2]), if_pos (by rw [h3])]
    · have h3 : ¬ r = ((128 + n : ℕ) : ℝ) := by
        push_cast; intro e; exact h2 (by linarith)
      rw [if_neg (fun e => h2 (EReal.coe_eq_coe_iff.mp e)), if_neg (fun e => h3 (EReal.coe_eq_coe_iff.mp e))]
  · have hh : hi (r : EReal) = 0 := if_neg (fun e => h (EReal.coe_le_coe_iff.mp e))
    have hne : ¬ (r : EReal) = (((128 + n : ℕ) : ℝ) : EReal) := by
      intro e
      have e' : r = ((128 + n : ℕ) : ℝ) := EReal.coe_eq_coe_iff.mp e
      push_cast at e'
      have hn0 : (0 : ℝ) ≤ (n : ℝ) := Nat.cast_nonneg n
      have hlt : r < 128 := not_le.mp h
      linarith
    rw [hh, zero_mul]
    unfold cnt
    rw [if_neg hne]

end Cert.KernelIdeal.HistPay1

end
-- ==== Proof.BlockValue1.lean ====
/-
  What one grid point adds to the output block, on the extended reals.

  For an input block `x` of 16 rows and 16384 columns whose entries are real numbers, a trip adds to bin `v` of row `b`
  the number of the trip's 512 columns whose entry is `v`; the thirty-two trips together add the number of all 16384
  columns whose entry is `v`. A point that resets starts from zero; any other point starts from what the point before
  left.
-/
import proofs.«150304_j60833916781214_2_alg».proof.Proof.TripValue1
import proofs.«150304_j60833916781214_2_alg».proof.Proof.TripIdeal1
import proofs.«150304_j60833916781214_2_alg».proof.Proof.LibSums

set_option maxRecDepth 16384

noncomputable section

namespace Cert.KernelIdeal.HistBlock1

open Cert.KernelIdeal Cert.KernelIdeal.Gen Cert.KernelIdeal.HistBody1 Cert.KernelIdeal.HistPay1
open Idealize.ShloMosaic Idealize.ShloMosaic.ValueIdx

theorem trips_eq : k1_t1_loop.trips = 32 := by decide

/-- Column `q` of trip `k`'s chunk is column `512 k + q` of the block. -/
theorem chunk_emb (k : Fin k1_t1_loop.trips) (b : Fin 16) (q : Fin 512) (h : k.val * 512 + q.val < 16384) :
    (rChunk k).emb (ix2 b q) = ix2 b (⟨k.val * 512 + q.val, h⟩ : Fin 16384) := by
  funext a
  apply Fin.ext
  rw [Rect.emb_apply]
  simp only [Rect.off_unit, Rect.stride_unit, Nat.one_mul, k1_off1_eq]
  match a with
  | ⟨0, _⟩ => show 0 + b.val = b.val; omega
  | ⟨1, _⟩ => show 512 * k.val + q.val = k.val * 512 + q.val; omega

/-- Lane `n` of the low half is bin `n`. -/
theorem lo_emb (b : Fin 16) (n : Fin 128) (h : n.val < 256) : rLo.emb (ix2 b n) = ix2 b (⟨n.val, h⟩ : Fin 256) := by
  funext a
  apply Fin.ext
  rw [Rect.emb_apply]
  simp only [Rect.off_unit, Rect.stride_unit, Nat.one_mul]
  match a with
  | ⟨0, _⟩ => show 0 + b.val = b.val; omega
  | ⟨1, _⟩ => show 0 + n.val = n.val; omega

/-- Lane `n` of the high half is bin `128 + n`. -/
theorem hi_emb (b : Fin 16) (n : Fin 128) (h : 128 + n.val < 256) : rHi.emb (ix2 b n) = ix2 b (⟨128 + n.val, h⟩ : Fin 256) := by
  funext a
  apply Fin.ext
  rw [Rect.emb_apply]
  simp only [Rect.off_unit, Rect.stride_unit, Nat.one_mul]
  match a with
  | ⟨0, _⟩ => show 0 + b.val = b.val; omega
  | ⟨1, _⟩ => show 128 + n.val = 128 + n.val; rfl

/-- A bin below 128 is not in the high half. -/
theorem not_mem_hi (b : Fin 16) (v : Fin 256) (hv : v.val < 128) : ix2 b v ∉ rHi.set := by
  intro h
  have h' : (ix2 b v : S16x256.Idx) ∈ (Rect.unit (s := S16x256) ![0, 128] S16x128.size inb_S16x256_S16x128_0_128).set := h
  rw [Rect.mem_set_unit] at h'
  have h1 := (h' (1 : Fin 2)).1
  have h2 : 128 ≤ v.val := h1
  omega

section TwoPieces

variable {F : FTy → Type} [FloatOps F]

/-- Two stores, the later over the high half and the earlier over the low half: a low bin reads the earlier one. -/
theorem canon2_lo (wHi : rHi.shape.Idx → Elt F .f32) (wLo : rLo.shape.Idx → Elt F .f32) (b : Fin 16) (n : Fin 128)
    (h : n.val < 256) :
    View.canon ([⟨rHi, wHi⟩, ⟨rLo, wLo⟩] : List (View.Piece (Elt F) S16x256 .f32)) (ix2 b (⟨n.val, h⟩ : Fin 256))
      = wLo (ix2 b n) := by
  rw [View.canon_cons_of_not_mem (⟨rHi, wHi⟩ : View.Piece (Elt F) S16x256 .f32) [⟨rLo, wLo⟩]
    (not_mem_hi b ⟨n.val, h⟩ n.isLt), ← lo_emb b n h]
  exact View.canon_cons_emb rLo wLo [] (ix2 b n)

/-- … and a high bin reads the later one. -/
theorem canon2_hi (wHi : rHi.shape.Idx → Elt F .f32) (wLo : rLo.shape.Idx → Elt F .f32) (b : Fin 16) (n : Fin 128)
    (h : 128 + n.val < 256) :
    View.canon ([⟨rHi, wHi⟩, ⟨rLo, wLo⟩] : List (View.Piece (Elt F) S16x256 .f32)) (ix2 b (⟨128 + n.val, h⟩ : Fin 256))
      = wHi (ix2 b n) := by
  rw [← hi_emb b n h]
  exact View.canon_cons_emb rHi wHi [⟨rLo, wLo⟩] (ix2 b n)

end TwoPieces

/-- One trip at a bin below 128. -/
theorem step_lo (x : Vec Ideal S16x16384 .f32) (hx : ∀ i, ∃ r : ℝ, x i = (r : EReal))
    (k : Fin k1_t1_loop.trips) (hk : k.val < 32) (g : Vec Ideal S16x256 .f32) (b : Fin 16) (n : Fin 128) (h : n.val < 256) :
    step x k g (ix2 b (⟨n.val, h⟩ : Fin 256))
      = g (ix2 b (⟨n.val, h⟩ : Fin 256)) + ∑ q : Fin 512, cnt (x (ix2 b (⟨k.val * 512 + q.val, by
          have := q.isLt; omega⟩ : Fin 16384))) n.val := by
  unfold step
  refine (canon2_lo (F := Ideal) (k1_pay6 (View.ld x (rChunk k)) (View.ld g rHi))
    (k1_pay5 (View.ld x (rChunk k)) (View.ld g rLo)) b n h).trans ?_
  rw [pay5_apply]
  refine congrArg₂ (· + ·) (congrArg g (lo_emb b n h)) (Finset.sum_congr rfl fun q _ => ?_)
  show (1 - hi (x ((rChunk k).emb (ix2 b q)))) * oneHot (x ((rChunk k).emb (ix2 b q))) n.val = _
  rw [chunk_emb k b q (by have := q.isLt; omega)]
  obtain ⟨r, hr⟩ := hx (ix2 b (⟨k.val * 512 + q.val, by have := q.isLt; omega⟩ : Fin 16384))
  rw [hr]
  exact lo_count r n.val n.isLt

/-- One trip at a bin from 128 on. -/
theorem step_hi (x : Vec Ideal S16x16384 .f32) (hx : ∀ i, ∃ r : ℝ, x i = (r : EReal))
    (k : Fin k1_t1_loop.trips) (hk : k.val < 32) (g : Vec Ideal S16x256 .f32) (b : Fin 16) (n : Fin 128) (h : 128 + n.val < 256) :
    step x k g (ix2 b (⟨128 + n.val, h⟩ : Fin 256))
      = g (ix2 b (⟨128 + n.val, h⟩ : Fin 256)) + ∑ q : Fin 512, cnt (x (ix2 b (⟨k.val * 512 + q.val, by
          have := q.isLt; omega⟩ : Fin 16384))) (128 + n.val) := by
  unfold step
  refine (canon2_hi (F := Ideal) (k1_pay6 (View.ld x (rChunk k)) (View.ld g rHi))
    (k1_pay5 (View.ld x (rChunk k)) (View.ld g rLo)) b n h).trans ?_
  rw [pay6_apply]
  refine congrArg₂ (· + ·) (congrArg g (hi_emb b n h)) (Finset.sum_congr rfl fun q _ => ?_)
  show hi (x ((rChunk k).emb (ix2 b q))) * oneHot (x ((rChunk k).emb (ix2 b q))) n.val = _
  rw [chunk_emb k b q (by have := q.isLt; omega)]
  obtain ⟨r, hr⟩ := hx (ix2 b (⟨k.val * 512 + q.val, by have := q.isLt; omega⟩ : Fin 16384))
  rw [hr]
  exact hi_count r n.val n.isLt

/-- One trip, at row `b` and bin `v`: what was there plus the number of the trip's columns whose entry is `v`. -/
theorem step_apply (x : Vec Ideal S16x16384 .f32) (hx : ∀ i, ∃ r : ℝ, x i = (r : EReal))
    (k : Fin k1_t1_loop.trips) (hk : k.val < 32) (g : Vec Ideal S16x256 .f32) (b : Fin 16) (v : Fin 256) :
    step x k g (ix2 b v)
      = g (ix2 b v) + ∑ q : Fin 512, cnt (x (ix2 b (⟨k.val * 512 + q.val, by
          have := q.isLt; omega⟩ : Fin 16384))) v.val := by
  by_cases hv : v.val < 128
  · exact step_lo x hx k hk g b ⟨v.val, hv⟩ v.isLt
  · have hn : v.val - 128 < 128 := by have := v.isLt; omega
    have hv' : 128 + (v.val - 128) < 256 := by have := v.isLt; omega
    have e2 : 128 + (v.val - 128) = v.val := by omega
    have ev : (⟨128 + (v.val - 128), hv'⟩ : Fin 256) = v := Fin.ext e2
    have key := step_hi x hx k hk g b ⟨v.val - 128, hn⟩ hv'
    rw [ev] at key
    rw [show (128 + (⟨v.val - 128, hn⟩ : Fin 128).val) = v.val from e2] at key
    exact key

/-- Whether the column at position `p` (among 32 tiles of 512 columns) of row `b` holds `v`, as one or zero. -/
def colCount (x : Vec Ideal S16x16384 .f32) (b : Fin 16) (v : ℕ) : Fin (32 * 512) → EReal :=
  fun p => cnt (x (ix2 b (⟨p.val, p.isLt⟩ : Fin 16384))) v

/-- After `k` trips: what the loop started from plus the count over the first `k` tiles of 512 columns. -/
theorem acc_apply (x : Vec Ideal S16x16384 .f32) (hx : ∀ i, ∃ r : ℝ, x i = (r : EReal))
    (g : Vec Ideal S16x256 .f32) (b : Fin 16) (v : Fin 256) :
    ∀ k : ℕ, k ≤ 32 →
      acc x g k (ix2 b v) = g (ix2 b v) + Cert.LibSums.partialSum (T := 32) (B := 512) (colCount x b v.val) k
  | 0, _ => by rw [Cert.LibSums.partialSum_zero, add_zero]; rfl
  | k + 1, hk => by
    have hk' : k < 32 := hk
    have hkt : k < k1_t1_loop.trips := by rw [trips_eq]; exact hk'
    rw [show acc x g (k + 1) = step x ⟨k, hkt⟩ (acc x g k) from acc_succ x g ⟨k, hkt⟩,
      step_apply x hx ⟨k, hkt⟩ hk' (acc x g k) b v, acc_apply x hx g b v k (Nat.le_of_lt hk),
      Cert.LibSums.partialSum_succ (colCount x b v.val) hk', add_assoc]
    rfl

/-- After all thirty-two trips: what the loop started from plus the count over all 16384 columns. -/
theorem acc_full (x : Vec Ideal S16x16384 .f32) (hx : ∀ i, ∃ r : ℝ, x i = (r : EReal))
    (g : Vec Ideal S16x256 .f32) (b : Fin 16) (v : Fin 256) :
    acc x g k1_t1_loop.trips (ix2 b v) = g (ix2 b v) + ∑ p : Fin (32 * 512), colCount x b v.val p := by
  rw [trips_eq, acc_apply x hx g b v 32 (Nat.le_refl _), Cert.LibSums.partialSum_top]

/-- The zero block is zero. -/
theorem zero_apply (i : S16x256.Idx) : k1_pay1 (F := Ideal) i = 0 := by
  unfold k1_pay1
  show Ideal.ofBits .f32 0x00000000#32 = 0
  exact Ideal.ofBits_zero_f32

end Cert.KernelIdeal.HistBlock1

end
-- ==== Proof.GridValue1.lean ====
/-
  Region 1's output array after its run: the histogram of its input array.

  The grid has 4 × 16 points; point `t` works on rows `16 (t / 16) … 16 (t / 16) + 15` and columns
  `16384 (t % 16) … 16384 (t % 16) + 16383` of the input, and on rows `16 (t / 16) …` of the output, all 256 bins. The
  first point of each row block resets the output block, each later one goes on from what the point before left, and the
  block is written back after the last. So after point `t` the staging block holds, at row `b` and bin `v`, the number of
  the first `16384 (t % 16 + 1)` columns of row `16 (t / 16) + b` whose entry is `v`; after the last point of the row
  block, the number of all 262144 columns: the histogram.
-/
import proofs.«150304_j60833916781214_2_alg».proof.Proof.BlockValue1
import proofs.«150304_j60833916781214_2_alg».proof.Proof.Spec

set_option maxRecDepth 16384

noncomputable section

namespace Cert.KernelIdeal.HistGrid1

open Cert.KernelIdeal Cert.KernelIdeal.Gen Cert.KernelIdeal.HistBody1 Cert.KernelIdeal.HistPay1 Cert.KernelIdeal.HistBlock1
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem N_eq : cfg1.N = 64 := N_1

/-- The printed index maps, decided over the grid: the input window moves with both grid coordinates, the output
    window with the first only. -/
theorem idx_facts : ∀ t : Fin cfg1.N, win1_0.index t (0 : Fin 2) = t.val / 16 ∧ win1_0.index t (1 : Fin 2) = t.val % 16
    ∧ win1_1.index t (0 : Fin 2) = t.val / 16 ∧ win1_1.index t (1 : Fin 2) = 0 :=
  (by decide +kernel : ∀ t : Fin grid1.N, _)

/-- The region's input array. -/
abbrev X (c : Dev nD) : S64x262144.Idx → EReal := V c (Pipeline.arrRef spec1 0)

/-- Row `b` of the row block of point `n`. -/
def row (n : ℕ) (hn : n < 64) (b : Fin 16) : Fin 64 := ⟨16 * (n / 16) + b.val, by have := b.isLt; omega⟩

/-- The input block of point `t` at row `b`, column `l`: the input array at row `16 (t / 16) + b`, column
    `16384 (t % 16) + l`. -/
theorem iblk_apply (c : Dev nD) (t : Fin cfg1.N) (b : Fin 16) (l : Fin 16384) :
    (iblk1 V c 0 t : Vec Ideal S16x16384 .f32) (ix2 b l)
      = X V c (ix2 (row t.val (lt_of_lt_of_eq t.isLt N_eq) b)
          (⟨(t.val % 16) * 16384 + l.val, by have := l.isLt; have := Nat.mod_lt t.val (by decide : 16 > 0); omega⟩ : Fin 262144)) := by
  obtain ⟨e0, e1, -, -⟩ := idx_facts t
  unfold iblk1
  rw [View.read_apply]
  show V c (Pipeline.arrRef spec1 0) (((cfg1.win 0).blk t).view.emb (ix2 b l)) = V c (Pipeline.arrRef spec1 0) _
  refine congrArg (V c (Pipeline.arrRef spec1 0)) (funext fun a => Fin.ext ?_)
  match a with
  | ⟨0, _⟩ => show win1_0.index t (0 : Fin 2) * 16 + 1 * b.val = 16 * (t.val / 16) + b.val; rw [e0]; omega
  | ⟨1, _⟩ => show win1_0.index t (1 : Fin 2) * 16384 + 1 * l.val = (t.val % 16) * 16384 + l.val; rw [e1]; omega

/-- Whether the column at position `p` (among 16 tiles of 16384 columns) of row `r` holds `v`, as one or zero. -/
def rowCount (Xc : S64x262144.Idx → EReal) (r : Fin 64) (v : ℕ) : Fin (16 * 16384) → EReal :=
  fun p => cnt (Xc (ix2 r (⟨p.val, p.isLt⟩ : Fin 262144))) v

/-- One point's count over its block's 16384 columns is the count over that tile of the row's columns. -/
theorem block_sum (c : Dev nD) (t : Fin cfg1.N) (b : Fin 16) (v : ℕ) :
    ∑ p : Fin (32 * 512), colCount (iblk1 V c 0 t : Vec Ideal S16x16384 .f32) b v p
      = ∑ i : Fin 16384, rowCount (X V c) (row t.val (lt_of_lt_of_eq t.isLt N_eq) b) v
          ⟨(t.val % 16) * 16384 + i.val, Cert.LibSums.tile_idx_lt (Nat.mod_lt _ (by decide)) i.isLt⟩ := by
  have e : ∑ p : Fin (32 * 512), colCount (iblk1 V c 0 t : Vec Ideal S16x16384 .f32) b v p
      = ∑ i : Fin 16384, cnt ((iblk1 V c 0 t : Vec Ideal S16x16384 .f32) (ix2 b i)) v :=
    Fin.sum_congr' (fun i : Fin 16384 => cnt ((iblk1 V c 0 t : Vec Ideal S16x16384 .f32) (ix2 b i)) v)
      (by norm_num : 32 * 512 = 16384)
  rw [e]
  refine Finset.sum_congr rfl fun i _ => ?_
  rw [iblk_apply]
  rfl

/-- After point `n` the staging block holds, at row `b` and bin `v`, the count over the first `n % 16 + 1` tiles of
    16384 columns of row `16 (n / 16) + b`: by induction on the point, a reset starting the count afresh. -/
theorem outsAt_apply (c : Dev nD) (hX : ∀ i, ∃ r : ℝ, X V c i = (r : EReal)) :
    ∀ (n : ℕ) (hn : n < cfg1.N) (b : Fin 16) (v : Fin 256),
      outsAt1 V c n hn (ix2 b v)
        = Cert.LibSums.partialSum (T := 16) (B := 16384)
            (rowCount (X V c) (row n (lt_of_lt_of_eq hn N_eq) b) v.val) (n % 16 + 1) := by
  have hblk : ∀ (t : Fin cfg1.N) (i : S16x16384.Idx), ∃ r : ℝ, (iblk1 V c 0 t : Vec Ideal S16x16384 .f32) i = (r : EReal) :=
    fun t i => by unfold iblk1; rw [View.read_apply]; exact hX _
  intro n
  induction n with
  | zero =>
    intro hn b v
    rw [outsAt1_A V c ⟨0, hn⟩ rfl, outA, acc_full _ (hblk _) _ b v, zero_apply, zero_add, block_sum,
      show (0 % 16 + 1) = 0 + 1 from rfl, Cert.LibSums.partialSum_succ _ (by decide : 0 < 16),
      Cert.LibSums.partialSum_zero, zero_add]
    rfl
  | succ n ih =>
    intro hn b v
    have hn64 : n + 1 < 64 := lt_of_lt_of_eq hn N_eq
    by_cases h0 : (n + 1) % 16 = 0
    · rw [outsAt1_A V c ⟨n + 1, hn⟩ h0, outA, acc_full _ (hblk _) _ b v, zero_apply, zero_add, block_sum,
        show ((n + 1) % 16 + 1) = 0 + 1 from by rw [h0], Cert.LibSums.partialSum_succ _ (by decide : 0 < 16),
        Cert.LibSums.partialSum_zero, zero_add]
      refine Finset.sum_congr rfl fun i _ => congrArg _ (Fin.ext ?_)
      show ((n + 1) % 16) * 16384 + i.val = 0 * 16384 + i.val
      rw [h0]
    · rw [outsAt1_B V c ⟨n + 1, hn⟩ h0, outB, acc_full _ (hblk _) _ b v]
      show outsAt1 V c n _ (ix2 b v) + _ = _
      rw [ih (Nat.lt_of_succ_lt hn) b v, block_sum]
      have hr : row n (lt_of_lt_of_eq (Nat.lt_of_succ_lt hn) N_eq) b = row (n + 1) hn64 b :=
        Fin.ext (by show 16 * (n / 16) + b.val = 16 * ((n + 1) / 16) + b.val; omega)
      have hm : (n + 1) % 16 = n % 16 + 1 := by omega
      rw [hr, show ((n + 1) % 16 + 1) = (n % 16 + 1) + 1 from by omega,
        Cert.LibSums.partialSum_succ _ (by omega : n % 16 + 1 < 16)]
      refine congrArg₂ (· + ·) rfl (Finset.sum_congr rfl fun i _ => congrArg _ (Fin.ext ?_))
      show ((n + 1) % 16) * 16384 + i.val = (n % 16 + 1) * 16384 + i.val
      rw [hm]

/-- The count over all sixteen tiles of a row is the histogram's entry. -/
theorem rowCount_sum (Xc : S64x262144.Idx → EReal) (r : Fin 64) (v : Fin 256) :
    ∑ p : Fin (16 * 16384), rowCount Xc r v.val p = Cert.Hist.hist Xc (ix2 r v) := by
  rw [Cert.Hist.hist_apply]
  exact Fin.sum_congr' (fun l : Fin 262144 => if Xc (ix2 r l) = ((v.val : ℝ) : EReal) then (1 : EReal) else 0)
    (by norm_num : 16 * 16384 = 262144)

/-- What a point writes back, for ANY function `G` of the output array's index that the staging block agrees with,
    row by row and bin by bin: its block of `G`. -/
theorem flushed_of_pointwise (c : Dev nD) (t : Fin cfg1.N) (G : S64x256.Idx → EReal)
    (h : ∀ (b : Fin 16) (v : Fin 256),
      outsAt1 V c t.val t.isLt (ix2 b v) = G (ix2 (row t.val (lt_of_lt_of_eq t.isLt N_eq) b) v)) :
    (dat1 V c).flushed 1 t = ((cfg1.win 1).blk t).view.read (Elt Ideal) G := by
  obtain ⟨-, -, e2, e3⟩ := idx_facts t
  have key : (outsAt1 V c t.val t.isLt : S16x256.Idx → EReal)
      = fun y : S16x256.Idx => G (ix2 (row t.val (lt_of_lt_of_eq t.isLt N_eq) (y 0)) (y 1)) :=
    funext fun y => by
      exact (congrArg (outsAt1 V c t.val t.isLt : S16x256.Idx → EReal) (eq_ix2 (n0 := 16) (n1 := 256) y)).trans
        (h (y 0) (y 1))
  show (cfg1.win 1).cut (grid1.coords t) ((dat1 V c).after 1 t) = _
  rw [after1_1, key]
  refine funext fun j => ?_
  show G (ix2 (row t.val (lt_of_lt_of_eq t.isLt N_eq) (j 0)) (j 1)) = G (((cfg1.win 1).blk t).view.emb j)
  refine congrArg G (funext fun a => Fin.ext ?_)
  match a with
  | ⟨0, _⟩ =>
    show 16 * (t.val / 16) + (j 0).val = win1_1.index t (0 : Fin 2) * 16 + 1 * (j 0).val
    rw [e2]; omega
  | ⟨1, _⟩ =>
    show (j 1).val = win1_1.index t (1 : Fin 2) * 256 + 1 * (j 1).val
    rw [e3]; omega

/-- What a flushing point writes back is its block of the histogram of the input array. -/
theorem flushed_eq (c : Dev nD) (hX : ∀ i, ∃ r : ℝ, X V c i = (r : EReal)) (t : Fin cfg1.N)
    (hf : (cfg1.win 1).flush t = true) :
    (dat1 V c).flushed 1 t = ((cfg1.win 1).blk t).view.read (Elt Ideal) (Cert.Hist.hist (X V c)) := by
  have h15 : t.val % 16 = 15 := (flush1_1 t).mp hf
  refine flushed_of_pointwise V c t _ fun b v => ?_
  rw [outsAt_apply V c hX, h15, show (15 + 1 : ℕ) = 16 from rfl, Cert.LibSums.partialSum_top, rowCount_sum]

/-- An index of the output array is in point `t`'s block iff each coordinate is in the block's range. -/
theorem mem_blk (t : Fin cfg1.N) (i : S64x256.Idx) :
    i ∈ ((cfg1.win 1).blk t).view.set ↔ ∀ a : Fin 2, win1_1.index t a * S16x256.size a ≤ (i a).val
      ∧ (i a).val < win1_1.index t a * S16x256.size a + S16x256.size a := by
  show i ∈ ((View.whole main_v6).slice (win1_1.rect t)).set ↔ _
  rw [View.set_slice_whole, Rect.mem_set_unit]
  exact Iff.rfl

/-- Every index of the output array is in the block of the last point of its row block, which writes back. -/
theorem cover (i : S64x256.Idx) :
    ∃ t : Fin cfg1.N, (cfg1.win 1).flush t = true ∧ i ∈ ((cfg1.win 1).blk t).view.set := by
  have hi0 : (i 0).val < 64 := (i 0).isLt
  have hi1 : (i 1).val < 256 := (i 1).isLt
  have hlt : 16 * ((i 0).val / 16) + 15 < cfg1.N := by rw [N_eq]; omega
  refine ⟨⟨16 * ((i 0).val / 16) + 15, hlt⟩,
    (flush1_1 _).mpr (by show (16 * ((i 0).val / 16) + 15) % 16 = 15; omega), ?_⟩
  rw [mem_blk]
  obtain ⟨-, -, e2, e3⟩ := idx_facts ⟨16 * ((i 0).val / 16) + 15, hlt⟩
  have e2' : win1_1.index ⟨16 * ((i 0).val / 16) + 15, hlt⟩ (0 : Fin 2) = (i 0).val / 16 := by
    rw [e2]; show (16 * ((i 0).val / 16) + 15) / 16 = (i 0).val / 16; omega
  intro a
  match a with
  | ⟨0, _⟩ =>
    show win1_1.index ⟨16 * ((i 0).val / 16) + 15, hlt⟩ (0 : Fin 2) * 16 ≤ (i 0).val
      ∧ (i 0).val < win1_1.index ⟨16 * ((i 0).val / 16) + 15, hlt⟩ (0 : Fin 2) * 16 + 16
    rw [e2']; omega
  | ⟨1, _⟩ =>
    show win1_1.index ⟨16 * ((i 0).val / 16) + 15, hlt⟩ (1 : Fin 2) * 256 ≤ (i 1).val
      ∧ (i 1).val < win1_1.index ⟨16 * ((i 0).val / 16) + 15, hlt⟩ (1 : Fin 2) * 256 + 256
    rw [e3]; omega

/-- THE REGION'S RESULT: its output array ends holding the histogram of its input array. -/
theorem final (c : Dev nD) (hX : ∀ i, ∃ r : ℝ, X V c i = (r : EReal)) :
    (dat1 V c).arrAt 1 cfg1.N = Cert.Hist.hist (X V c) :=
  (dat1 V c).arrAt_eq_of_cover 1 (Cert.Hist.hist (X V c)) (flushed_eq V c hX) cover

end Cert.KernelIdeal.HistGrid1

end
-- ==== Proof.KernelValue.lean ====
/-
  The idealized kernel program's result, as a function of its two arguments.

  Its run ends with the result buffer at the host tail of the two regions' output arrays; each region's output array
  is the histogram of its input array; and each input array is the corresponding argument reshaped to 64 rows. The
  regions' statement needs the entries to be real numbers, which the precondition gives (they are natural numbers).
-/
import proofs.«150304_j60833916781214_2_alg».proof.Proof.KernelRun
import proofs.«150304_j60833916781214_2_alg».proof.Proof.GridValue
import proofs.«150304_j60833916781214_2_alg».proof.Proof.GridValue1

set_option maxRecDepth 16384

noncomputable section

namespace Cert.KernelIdeal.HistRun

open Cert.KernelIdeal Cert.KernelIdeal.Gen Idealize.ShloMosaic Idealize.ShloMosaic.TcCoe Idealize.SL.Sem

variable [Cert.KernelIdeal.Facts]

/-- An argument reshaped to 64 rows of 262144 columns. -/
abbrev rows (a : FVec Ideal S64x256x32x32 .f32) : FVec Ideal S64x262144 .f32 :=
  shapeCast S64x262144 a Facts₀.shapeCasts_S64x256x32x32_S64x262144

/-- The reshape keeps every entry, so it keeps "every entry is a real number". -/
theorem rows_real (a : FVec Ideal S64x256x32x32 .f32) (h : ∀ i, ∃ n : ℕ, n < 2 ^ 31 ∧ a i = (((n : ℕ) : ℝ) : EReal))
    (i : S64x262144.Idx) : ∃ r : ℝ, rows a i = (r : EReal) := by
  unfold rows shapeCast
  obtain ⟨n, -, hn⟩ := h (Shape.reshapeEquiv _ i)
  exact ⟨(n : ℝ), hn⟩

/-- THE KERNEL PROGRAM'S RUN, READ: under "every entry of both arguments is a natural number", the result is the host
    tail of the histograms of the two reshaped arguments. -/
theorem run_hist (m : (ℓ : Loc nD τ sig) → Buf (Elt Ideal) ℓ) (ρ : Dev nD → PrngReg)
    (h0 : ∀ c : Dev nD, ∀ i, ∃ n : ℕ, n < 2 ^ 31 ∧ m ((c.tc : Thread nD τ).loc main_arg0) i = (((n : ℕ) : ℝ) : EReal))
    (h1 : ∀ c : Dev nD, ∀ i, ∃ n : ℕ, n < 2 ^ 31 ∧ m ((c.tc : Thread nD τ).loc main_arg1) i = (((n : ℕ) : ℝ) : EReal)) :
    θ_run (defs (F := Ideal)) (onTc (τ := τ) (main (F := Ideal))) ⟨m, fun _ => 0, ρ⟩ (fun r => ∀ c : Dev nD,
      r.2.mem ((c.tc : Thread nD τ).loc main_v31)
        = Cert.KernelIdeal.RunValue.tail (Cert.Hist.hist (rows (m ((c.tc : Thread nD τ).loc main_arg0))))
            (Cert.Hist.hist (rows (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run (defs (F := Ideal)) _ _).mono (fun r h c => ⟨(h c).1.trans ?_, (h c).2⟩)
    (Cert.KernelIdeal.RunValue.run_value m ρ)
  have e0 : Cert.KernelIdeal.HistGrid.X (V1 m ρ) c = rows (m ((c.tc : Thread nD τ).loc main_arg0)) :=
    Cert.KernelIdeal.RunValue.V1_in m ρ c
  have e1 : Cert.KernelIdeal.HistGrid1.X (V3 m ρ) c = rows (m ((c.tc : Thread nD τ).loc main_arg1)) :=
    Cert.KernelIdeal.RunValue.V3_in m ρ c
  rw [Cert.KernelIdeal.HistGrid.final (V1 m ρ) c (fun i => by rw [e0]; exact rows_real _ (h0 c) i),
    Cert.KernelIdeal.HistGrid1.final (V3 m ρ) c (fun i => by rw [e1]; exact rows_real _ (h1 c) i), e0, e1]

end Cert.KernelIdeal.HistRun

end
-- ==== Proof.LibNatCast.lean ====
/-
  Natural numbers and the float-to-integer conversion on the extended reals.

  The conversion of an extended real to a signed 32-bit word truncates toward zero and clamps to
  [-2³¹, 2³¹ - 1]. A natural number below 2³¹ is its own truncation and lies inside the clamp, so it
  converts to the word with that value. Conversely, a number that is not negative and that equals the
  signed value of its own conversion is such a natural number: the signed value of a 32-bit word is an
  integer below 2³¹, and it is not negative because the number is not.
-/
import Idealize.ShloMosaic.PureOps.Ideal
import Mathlib

namespace Cert.LibNatCast

open Idealize.ShloMosaic

/-- Truncating a natural number below 2³¹ toward zero and clamping it to the signed 32-bit range
    returns the number: its floor is itself, and it lies between the two ends of the clamp. -/
theorem toIntClamped_natCast (n : ℕ) (hn : n < 2 ^ 31) :
    Ideal.toIntClamped (-((2 ^ (32 - 1) : ℕ) : ℤ)) (((2 ^ (32 - 1) : ℕ) : ℤ) - 1) (((n : ℕ) : ℝ) : EReal)
      = (n : ℤ) := by
  rw [Ideal.toIntClamped_coe]
  have h0 : (0 : ℝ) ≤ ((n : ℕ) : ℝ) := Nat.cast_nonneg n
  rw [if_pos h0, Int.floor_natCast]
  have hn' : (n : ℤ) < 2 ^ 31 := by exact_mod_cast hn
  have hnn : (0 : ℤ) ≤ (n : ℤ) := Int.natCast_nonneg n
  have e : (((2 ^ (32 - 1) : ℕ)) : ℤ) = 2 ^ 31 := by norm_num
  rw [e, min_eq_right (by omega), max_eq_right (by omega)]

/-- A natural number below 2³¹ converts to the signed 32-bit word with that value. -/
theorem fptosi_natCast (n : ℕ) (hn : n < 2 ^ 31) :
    Ideal.fptosi 32 (((n : ℕ) : ℝ) : EReal) = BitVec.ofNat 32 n := by
  unfold Ideal.fptosi
  rw [toIntClamped_natCast n hn, BitVec.ofInt_natCast]

/-- The signed value of a 32-bit word lies below 2³¹. -/
theorem toInt_lt_two_pow_31 (w : BitVec 32) : w.toInt < 2 ^ 31 := by
  have := BitVec.toInt_lt (x := w)
  omega

/-- A number that is not negative and that equals the signed value of its own conversion to a signed
    32-bit word is a natural number below 2³¹: the signed value is an integer below 2³¹, it is not
    negative because the number is not, and so it is the cast of its own natural part. -/
theorem nat_of_sitofp_fptosi (x : EReal)
    (hfix : ((((Ideal.fptosi 32 x).toInt : ℤ) : ℝ) : EReal) = x) (h0 : (0 : EReal) ≤ x) :
    ∃ n : ℕ, n < 2 ^ 31 ∧ x = (((n : ℕ) : ℝ) : EReal) := by
  generalize Ideal.fptosi 32 x = w at hfix
  have hlt : w.toInt < 2 ^ 31 := toInt_lt_two_pow_31 w
  have hnn : (0 : ℤ) ≤ w.toInt := by
    rw [← hfix] at h0
    have h0' : (0 : ℝ) ≤ ((w.toInt : ℤ) : ℝ) := by exact_mod_cast h0
    exact_mod_cast h0'
  refine ⟨w.toInt.toNat, by omega, ?_⟩
  rw [← hfix]
  have e : ((w.toInt.toNat : ℕ) : ℤ) = w.toInt := Int.toNat_of_nonneg hnn
  have e' : (((w.toInt.toNat : ℕ) : ℝ)) = ((w.toInt : ℤ) : ℝ) := by
    rw [← e]; push_cast; rw [e]
  rw [e']

end Cert.LibNatCast
-- ==== Proof.PreNat.lean ====
/-
  The precondition read back: when the printed predicate is all ones, every entry of each input is a
  natural number below 2³¹.

  The predicate is a conjunction of six statements "for every entry …", three per input: the entry's
  absolute value is below +∞; the entry, converted to a signed 32-bit integer and back, is unchanged; the
  entry is at least 0. A conjunction of one-bit words is 1 exactly when each word is 1, and an "and" over
  all entries is 1 only when the compared word is 1 at every entry. So at each entry x the second statement
  gives x = (the signed value of x's conversion) and the third gives 0 ≤ x. The signed value of a 32-bit
  word is an integer below 2³¹; being equal to x it is not negative; hence x is the natural number that is
  the word's value. The first statement (finiteness) is not needed: a number equal to an integer is finite.
-/
import proofs.«150304_j60833916781214_2_alg».proof.Pre_finite_inputs
import proofs.«150304_j60833916781214_2_alg».proof.Proof.Spec
import proofs.«150304_j60833916781214_2_alg».proof.Proof.LibNatCast
import Idealize.ShloMosaic.Lib.ReduceAll
import Idealize.ShloMosaic.Lib.ValueIdx
import Idealize.ShloMosaic.PureOps.Ideal.Laws

namespace Cert.Hist.PreNat

open Idealize.ShloMosaic Idealize.ShloMosaic.ValueIdx

/-- The shape of a scalar has exactly one index (the empty tuple of coordinates). -/
instance : Subsingleton Cert.Pre_finite_inputs.S_.Idx := ⟨fun a b => funext fun d => d.elim0⟩

/-- The "equal" comparison of two extended reals is the word 1 exactly when they are equal. -/
theorem cmp_oeq_eq_one (x y : EReal) : Ideal.cmp .oeq x y = 1#1 ↔ x = y := by
  unfold Ideal.cmp
  by_cases h : x = y <;> simp [h]

/-- The "greater or equal" comparison of two extended reals is the word 1 exactly when the second is at
    most the first. -/
theorem cmp_oge_eq_one (x y : EReal) : Ideal.cmp .oge x y = 1#1 ↔ y ≤ x := by
  unfold Ideal.cmp
  by_cases h : y ≤ x <;> simp [h]

/-- One entry: if converting it to a signed 32-bit integer and back compares equal to it, and it compares
    at least the constant 0.0, then it is a natural number below 2³¹. -/
theorem elem_nat (x : EReal)
    (h2 : Ideal.cmp .oeq ((((Ideal.fptosi 32 x).toInt : ℤ) : ℝ) : EReal) x = 1#1)
    (h3 : Ideal.cmp .oge x (Ideal.ofBits .f32 0x00000000#32) = 1#1) :
    ∃ n : ℕ, n < 2 ^ 31 ∧ x = (((n : ℕ) : ℝ) : EReal) := by
  have hfix := (cmp_oeq_eq_one _ _).1 h2
  have h0 := (cmp_oge_eq_one _ _).1 h3
  rw [Ideal.ofBits_zero_f32] at h0
  exact Cert.LibNatCast.nat_of_sitofp_fptosi x hfix h0

/-- All six conjuncts of the predicate hold at every entry; the second and third of each input make the
    entry a natural number below 2³¹. -/
theorem nat_of_pre [Cert.Pre_finite_inputs.Facts]
    (a0 a1 : FVec Ideal Cert.Pre_finite_inputs.S64x256x32x32 .f32)
    (h : Cert.Pre_finite_inputs.fn (F := Ideal) a0 a1 = (fun _ => 1#1)) :
    (∀ i, ∃ n : ℕ, n < 2 ^ 31 ∧ a0 i = (((n : ℕ) : ℝ) : EReal))
    ∧ (∀ i, ∃ n : ℕ, n < 2 ^ 31 ∧ a1 i = (((n : ℕ) : ℝ) : EReal)) := by
  -- the predicate at its one index, as the nested conjunction of the six "for all" words
  have h0 := congrFun h ValueIdx.ix0
  dsimp only [Cert.Pre_finite_inputs.fn, Cert.Pre_finite_inputs.fn_part1] at h0
  obtain ⟨h22, h25⟩ := IntOp.andi_eq_one.1 h0
  obtain ⟨h18, h21⟩ := IntOp.andi_eq_one.1 h22
  obtain ⟨h13, h17⟩ := IntOp.andi_eq_one.1 h18
  obtain ⟨h8, h12⟩ := IntOp.andi_eq_one.1 h13
  clear h0 h22 h18 h13 h8
  -- each "for all" word is 1, so the compared word is 1 at every entry
  have e12 := fun i => Host.reduce_andi_all _ _ _ _ _ h12 i
  have e17 := fun i => Host.reduce_andi_all _ _ _ _ _ h17 i
  have e21 := fun i => Host.reduce_andi_all _ _ _ _ _ h21 i
  have e25 := fun i => Host.reduce_andi_all _ _ _ _ _ h25 i
  exact ⟨fun i => elem_nat (a0 i) (e12 i) (e21 i), fun i => elem_nat (a1 i) (e17 i) (e25 i)⟩

end Cert.Hist.PreNat
-- ==== Proof.RefTail.lean ====
import proofs.«150304_j60833916781214_2_alg».proof.Proof.RefReadP

/-!
  The host arithmetic that follows the two histograms, as one function of them.

  For a matrix `h` of 64 rows of 256 counts, `logits h = log (h + ε) / 4`. With `zs = logits hs` and
  `zt = logits ht`, the result is `(∑ softmax zt * (log (softmax zt) - logSoftmax zs)) * 16 / 64`: a
  Kullback–Leibler sum between the two rows of bin weights, summed over all rows and bins. Both the
  soft-max and the log-soft-max subtract the row maximum first and divide by (or subtract the logarithm of)
  the row sum of exponentials.
-/

noncomputable section

namespace Cert.ReferenceIdeal.RefHist

open Cert.ReferenceIdeal Cert.ReferenceIdeal.Gen Cert.ReferenceIdeal.ReadP Idealize.ShloMosaic Idealize.ShloMosaic.TcCoe Idealize.SL.Sem Idealize.ShloMosaic.StableHlo

/-- `log (h + ε) / 4`, entry by entry (ε is the float nearest 1e-8). -/
def logits (h : (⟨S64x256, .f32⟩ : BufTy).Contents (Elt Ideal)) : (⟨S64x256, .f32⟩ : BufTy).Contents (Elt Ideal) :=
  Host.divf (F := Ideal) (φ := .f32) (Host.log (F := Ideal) (φ := .f32) (addf (F := Ideal) (φ := .f32) h (broadcastInDim S64x256 ![] bcast_S_S64x256 (constant (F := Ideal) S_ .f32 0x322BCC77#32))))
    (broadcastInDim S64x256 ![] bcast_S_S64x256 (constant (F := Ideal) S_ .f32 0x40800000#32))

/-- The maximum of each row (folded from -∞, then once more against -∞). -/
def rowMax (z : (⟨S64x256, .f32⟩ : BufTy).Contents (Elt Ideal)) : (⟨S64, .f32⟩ : BufTy).Contents (Elt Ideal) :=
  maximumf (F := Ideal) (φ := .f32) (broadcastInDim S64 ![] bcast_S_S64 (constant (F := Ideal) S_ .f32 0xFF800000#32))
    (Host.reduce (FloatOps.maximumf (F := Ideal) (φ := .f32)) z (constant (F := Ideal) S_ .f32 0xFF800000#32) reducesTo_S64x256_S64_d1 h_S_)

/-- A value per row, repeated along the row. -/
def alongRow (y : (⟨S64, .f32⟩ : BufTy).Contents (Elt Ideal)) : (⟨S64x256, .f32⟩ : BufTy).Contents (Elt Ideal) :=
  broadcastInDim S64x256 ![0, 1] bcast_S64x1_S64x256_0_1 (broadcastInDim S64x1 ![0] bcast_S64_S64x1_0 y)

/-- Each entry minus its row's maximum. -/
def shifted (z : (⟨S64x256, .f32⟩ : BufTy).Contents (Elt Ideal)) : (⟨S64x256, .f32⟩ : BufTy).Contents (Elt Ideal) :=
  subf (F := Ideal) (φ := .f32) z (alongRow (rowMax z))

/-- The sum over each row of the exponentials of the shifted entries. -/
def expSum (z : (⟨S64x256, .f32⟩ : BufTy).Contents (Elt Ideal)) : (⟨S64, .f32⟩ : BufTy).Contents (Elt Ideal) :=
  Host.reduceAdd (F := Ideal) (φ := .f32) (Host.exp (F := Ideal) (φ := .f32) (shifted z)) (constant (F := Ideal) S_ .f32 0x00000000#32) reducesTo_S64x256_S64_d1 h_S_

/-- `shifted z - log (expSum z)`, the logarithm taken on the column of row sums. -/
def logSoftmax (z : (⟨S64x256, .f32⟩ : BufTy).Contents (Elt Ideal)) : (⟨S64x256, .f32⟩ : BufTy).Contents (Elt Ideal) :=
  subf (F := Ideal) (φ := .f32) (shifted z)
    (broadcastInDim S64x256 ![0, 1] bcast_S64x1_S64x256_0_1 (Host.log (F := Ideal) (φ := .f32) (broadcastInDim S64x1 ![0] bcast_S64_S64x1_0 (expSum z))))

/-- `exp (shifted z) / expSum z`. -/
def softmax (z : (⟨S64x256, .f32⟩ : BufTy).Contents (Elt Ideal)) : (⟨S64x256, .f32⟩ : BufTy).Contents (Elt Ideal) :=
  Host.divf (F := Ideal) (φ := .f32) (Host.exp (F := Ideal) (φ := .f32) (shifted z)) (alongRow (expSum z))

/-- The host operations after the two histograms, as one function of them:
    `(∑ softmax zt * (log (softmax zt) - logSoftmax zs)) * 16 / 64` with `zs = logits hs`, `zt = logits ht`. -/
def tail (hs ht : (⟨S64x256, .f32⟩ : BufTy).Contents (Elt Ideal)) : (⟨S_, .f32⟩ : BufTy).Contents (Elt Ideal) :=
  Host.divf (F := Ideal) (φ := .f32)
    (mulf (F := Ideal) (φ := .f32)
      (Host.reduceAdd (F := Ideal) (φ := .f32)
        (mulf (F := Ideal) (φ := .f32) (softmax (logits ht)) (subf (F := Ideal) (φ := .f32) (Host.log (F := Ideal) (φ := .f32) (softmax (logits ht))) (logSoftmax (logits hs))))
        (constant (F := Ideal) S_ .f32 0x00000000#32) reducesTo_S64x256_S_d0_1 h_S_)
      (constant (F := Ideal) S_ .f32 0x41800000#32))
    (constant (F := Ideal) S_ .f32 0x42800000#32)

/-! Each operation's value, read through the functions above. Every step unfolds one definition on each side. -/

theorem v49_eq (x0 : (⟨S64x256x32x32, .f32⟩ : BufTy).Contents (Elt Ideal)) :
    val_main_v49 (F := Ideal) x0 = logits (val_main_v20 (F := Ideal) x0) := rfl

theorem v52_eq (x1 : (⟨S64x256x32x32, .f32⟩ : BufTy).Contents (Elt Ideal)) :
    val_main_v52 (F := Ideal) x1 = logits (val_main_v44 (F := Ideal) x1) := rfl

theorem call0_v5_eq (x0 : (⟨S64x256x32x32, .f32⟩ : BufTy).Contents (Elt Ideal)) :
    val_main_call0_v5 (F := Ideal) x0 = shifted (val_main_v49 (F := Ideal) x0) := rfl

theorem v58_eq (x1 : (⟨S64x256x32x32, .f32⟩ : BufTy).Contents (Elt Ideal)) :
    val_main_v58 (F := Ideal) x1 = shifted (val_main_v52 (F := Ideal) x1) := rfl

theorem v50_eq (x0 : (⟨S64x256x32x32, .f32⟩ : BufTy).Contents (Elt Ideal)) :
    val_main_v50 (F := Ideal) x0 = logSoftmax (val_main_v49 (F := Ideal) x0) := rfl

theorem v63_eq (x1 : (⟨S64x256x32x32, .f32⟩ : BufTy).Contents (Elt Ideal)) :
    val_main_v63 (F := Ideal) x1 = softmax (val_main_v52 (F := Ideal) x1) := rfl

theorem v69_eq_tail (x0 x1 : (⟨S64x256x32x32, .f32⟩ : BufTy).Contents (Elt Ideal)) :
    val_main_v69 (F := Ideal) x0 x1 = tail (val_main_v20 (F := Ideal) x0) (val_main_v44 (F := Ideal) x1) := by
  unfold val_main_v69 val_main_v68 val_main_v67 val_main_v66 val_main_v65 val_main_v64
  rw [v63_eq, v50_eq, v52_eq, v49_eq]
  rfl

end Cert.ReferenceIdeal.RefHist

end
-- ==== Proof.RefHist.lean ====
import proofs.«150304_j60833916781214_2_alg».proof.Proof.RefTail
import proofs.«150304_j60833916781214_2_alg».proof.Proof.Spec
import proofs.«150304_j60833916781214_2_alg».proof.Proof.LibNatCast
import Idealize.ShloMosaic.Lib.Affine

/-!
  The reference program's two scatter-adds are the histogram, on inputs whose entries are natural numbers.

  Per input, the reference converts every entry of the reshaped matrix to a signed 32-bit word, pairs it with its
  row number into an index vector `[row, column]`, and adds a one into a 64 × 256 matrix of zeros at that
  position (a position outside the matrix is dropped). When every entry is a natural number `n < 2³¹`, the
  conversion is the word of `n`, the pair is `(r, n)`, and the ones that reach position `(r, v)` are exactly
  those of the columns `l` of row `r` with entry `v`: the histogram of the specification.
-/

noncomputable section

namespace Cert.ReferenceIdeal.RefHist

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-- The scatter's dimension numbers: an update at `(r, l)` reads the index vector `idx[r, l, ·]` of two
    components and lands at operand position `(idx[r, l, 0], idx[r, l, 1])`; there is no window. -/
abbrev D : ScatterDims S64x256 S64x262144x2 S64x262144 := scatter_S64x256_S64x262144x2_S64x262144_n_01_01_2

theorem siIdx_eq (r : Fin 64) (l : Fin 262144) (c : Fin 2) :
    D.siIdx (ix2 r l) ⟨c.val, c.isLt⟩ = ix3 r l c := by
  funext b; refine Fin.ext ?_
  match b with
  | ⟨0, _⟩ => rfl
  | ⟨1, _⟩ => rfl
  | ⟨2, _⟩ => rfl

theorem sKept_eq : D.sKept = [] := rfl

theorem window_eq (j : S64x262144.Idx) (a : Fin 2) : D.window j a = 0 := by
  unfold ScatterDims.window
  rw [dif_neg (by rw [sKept_eq]; exact List.not_mem_nil)]

theorem mem_zero : (0 : Fin S64x256.rank) ∈ D.scatterDimsToOperandDims := List.mem_cons_self
theorem mem_one : (1 : Fin S64x256.rank) ∈ D.scatterDimsToOperandDims := List.mem_cons_of_mem _ List.mem_cons_self

theorem start_zero (r : Fin 64) (l : Fin 262144) (idx : IVec S64x262144x2 32) :
    D.start (ix2 r l) idx 0 = (idx (ix3 r l (0 : Fin 2))).toInt := by
  unfold ScatterDims.start
  rw [dif_pos mem_zero]
  exact congrArg (fun k => (idx k).toInt) (siIdx_eq r l 0)

theorem start_one (r : Fin 64) (l : Fin 262144) (idx : IVec S64x262144x2 32) :
    D.start (ix2 r l) idx 1 = (idx (ix3 r l (1 : Fin 2))).toInt := by
  unfold ScatterDims.start
  rw [dif_pos mem_one]
  exact congrArg (fun k => (idx k).toInt) (siIdx_eq r l 1)

/-- The update at `(r, l)` lands at `(r', v)` exactly when its two index components, read signed, are `r'` and `v`. -/
theorem resultIdx?_eq_some_iff (r : Fin 64) (l : Fin 262144) (idx : IVec S64x262144x2 32) (r' : Fin 64) (v : Fin 256) :
    D.resultIdx? (ix2 r l) idx = some (ix2 r' v) ↔
      (idx (ix3 r l (0 : Fin 2))).toInt = (r'.val : Int) ∧ (idx (ix3 r l (1 : Fin 2))).toInt = (v.val : Int) := by
  have hi0 : r'.val < 64 := r'.isLt
  have hi1 : v.val < 256 := v.isLt
  have hs0 : S64x256.size 0 = 64 := rfl
  have hs1 : S64x256.size 1 = 256 := rfl
  constructor
  · intro h
    unfold ScatterDims.resultIdx? at h
    by_cases hb : ∀ a, 0 ≤ D.start (ix2 r l) idx a + D.window (ix2 r l) a ∧ D.start (ix2 r l) idx a + D.window (ix2 r l) a < S64x256.size a
    · rw [dif_pos hb] at h
      have hi := Option.some.inj h
      have h0 := hb 0
      have h1 := hb 1
      have e0 : (D.start (ix2 r l) idx 0 + D.window (ix2 r l) 0).toNat = r'.val := congrArg (fun f : S64x256.Idx => (f 0).val) hi
      have e1 : (D.start (ix2 r l) idx 1 + D.window (ix2 r l) 1).toNat = v.val := congrArg (fun f : S64x256.Idx => (f 1).val) hi
      rw [start_zero, window_eq] at e0 h0
      rw [start_one, window_eq] at e1 h1
      constructor <;> omega
    · rw [dif_neg hb] at h
      exact absurd h (by simp)
  · rintro ⟨e0, e1⟩
    unfold ScatterDims.resultIdx?
    have hb : ∀ a, 0 ≤ D.start (ix2 r l) idx a + D.window (ix2 r l) a ∧ D.start (ix2 r l) idx a + D.window (ix2 r l) a < S64x256.size a := by
      intro a
      match a with
      | ⟨0, _⟩ =>
        show 0 ≤ D.start (ix2 r l) idx 0 + D.window (ix2 r l) 0 ∧ D.start (ix2 r l) idx 0 + D.window (ix2 r l) 0 < S64x256.size 0
        rw [start_zero, window_eq, hs0]; omega
      | ⟨1, _⟩ =>
        show 0 ≤ D.start (ix2 r l) idx 1 + D.window (ix2 r l) 1 ∧ D.start (ix2 r l) idx 1 + D.window (ix2 r l) 1 < S64x256.size 1
        rw [start_one, window_eq, hs1]; omega
    rw [dif_pos hb]
    congr 1
    funext a
    refine Fin.ext ?_
    match a with
    | ⟨0, _⟩ =>
      show (D.start (ix2 r l) idx 0 + D.window (ix2 r l) 0).toNat = r'.val
      rw [start_zero, window_eq]; omega
    | ⟨1, _⟩ =>
      show (D.start (ix2 r l) idx 1 + D.window (ix2 r l) 1).toNat = v.val
      rw [start_one, window_eq]; omega

/-! ### The index vectors

  Both inputs go through the same operations. `colWord y` is the column word of the update: the converted
  entry `y`, with 256 added when it is negative as a signed word. `idxVec y` joins the row word (the row
  number, with 64 added when negative, which never happens) and the column word into the index vector
  `[row, col]`. -/

/-- The column word: the converted entry, plus 256 when it is negative as a signed word. -/
def colWord (y : IVec S64x262144 32) : IVec S64x262144 32 :=
  select (cmpi .slt y (val_main_v10 (F := Ideal))) (addi y (val_main_v12 (F := Ideal))) y

/-- The index vectors `[row word, column word]`, one per entry. -/
def idxVec (y : IVec S64x262144 32) : IVec S64x262144x2 32 :=
  concatenate S64x262144x2 2
    [⟨S64x262144x1, val_main_v16 (F := Ideal)⟩,
     ⟨S64x262144x1, broadcastInDim S64x262144x1 ![0, 1] bcast_S64x262144_S64x262144x1_0_1 (colWord y)⟩]
    concatenates_S64x262144x1_S64x262144x1_S64x262144x2_d2

theorem v18_eq (x0 : (⟨S64x256x32x32, .f32⟩ : BufTy).Contents (Elt Ideal)) :
    val_main_v18 (F := Ideal) x0 = idxVec (val_main_v1 (F := Ideal) x0) := rfl

theorem v42_eq (x1 : (⟨S64x256x32x32, .f32⟩ : BufTy).Contents (Elt Ideal)) :
    val_main_v42 (F := Ideal) x1 = idxVec (val_main_v25 (F := Ideal) x1) := rfl

/-- A natural number below 2³¹, as a 32-bit word, reads back signed as itself. -/
theorem toInt_ofNat_small (n : ℕ) (hn : n < 2 ^ 31) : (BitVec.ofNat 32 n).toInt = (n : Int) := by
  rw [BitVec.toInt_eq_toNat_cond]
  simp only [BitVec.toNat_ofNat]
  have e : n % 2 ^ 32 = n := Nat.mod_eq_of_lt (by omega)
  rw [e]
  split <;> omega

/-- Such a word is not negative: the signed comparison with zero is false. -/
theorem slt_zero_ofNat_small (n : ℕ) (hn : n < 2 ^ 31) : IntOp.cmpi .slt (BitVec.ofNat 32 n) 0#32 = 0#1 := by
  apply eq_zero_of_ne_one
  intro h
  rw [IntOp.cmpi_slt, toInt_ofNat_small n hn] at h
  simp at h
  omega

/-- The row word of every update in row `r` is `r`: the row number is not negative, so 64 is not added. -/
theorem rowWord_apply (r : Fin 64) (l : Fin 262144) :
    val_main_v16 (F := Ideal) (ix3 r l (0 : Fin 1)) = BitVec.ofNat 32 r.val := by
  rw [val_main_v16_apply, val_main_v15_apply, val_main_v9_apply, val_main_v6_apply, val_main_v4_apply,
    val_main_v3_apply, val_main_v5_apply, val_main_c_apply]
  show Scalar.select (IntOp.cmpi .slt (BitVec.ofNat 32 r.val) 0#32) _ (BitVec.ofNat 32 r.val) = _
  rw [slt_zero_ofNat_small r.val (by have := r.isLt; omega), select_zero]

/-- The column word of an entry whose conversion is the word of a natural number below 2³¹ is that word. -/
theorem colWord_apply (y : IVec S64x262144 32) (r : Fin 64) (l : Fin 262144) (n : ℕ) (hn : n < 2 ^ 31)
    (hy : y (ix2 r l) = BitVec.ofNat 32 n) : colWord y (ix2 r l) = BitVec.ofNat 32 n := by
  unfold colWord
  rw [select_apply]
  show Scalar.select (IntOp.cmpi .slt (y (ix2 r l)) (val_main_v10 (F := Ideal) (ix2 r l))) _ (y (ix2 r l)) = _
  rw [val_main_v10_apply, val_main_c_1_apply, hy, slt_zero_ofNat_small n hn, select_zero]

theorem idxVec_row (y : IVec S64x262144 32) (r : Fin 64) (l : Fin 262144) :
    idxVec y (ix3 r l (0 : Fin 2)) = BitVec.ofNat 32 r.val := by
  unfold idxVec
  rw [concatenate_pair_apply_left (t := S64x262144x2) (s₁ := S64x262144x1) (s₂ := S64x262144x1) (2 : Fin 3)
    (val_main_v16 (F := Ideal)) (broadcastInDim S64x262144x1 ![0, 1] bcast_S64x262144_S64x262144x1_0_1 (colWord y))
    concatenates_S64x262144x1_S64x262144x1_S64x262144x2_d2
    (ix3 r l (0 : Fin 2)) rfl (ix3 r l (0 : Fin 1)) (fun b => by match b with | ⟨0, _⟩ => rfl | ⟨1, _⟩ => rfl | ⟨2, _⟩ => rfl)]
  exact rowWord_apply r l

theorem idxVec_col (y : IVec S64x262144 32) (r : Fin 64) (l : Fin 262144) :
    idxVec y (ix3 r l (1 : Fin 2)) = colWord y (ix2 r l) := by
  unfold idxVec
  rw [concatenate_pair_apply_right (t := S64x262144x2) (s₁ := S64x262144x1) (s₂ := S64x262144x1) (2 : Fin 3)
    (val_main_v16 (F := Ideal)) (broadcastInDim S64x262144x1 ![0, 1] bcast_S64x262144_S64x262144x1_0_1 (colWord y))
    concatenates_S64x262144x1_S64x262144x1_S64x262144x2_d2
    (ix3 r l (1 : Fin 2)) rfl rfl (ix3 r l (0 : Fin 1))
    (fun b hb => by match b with | ⟨0, _⟩ => rfl | ⟨1, _⟩ => rfl | ⟨2, _⟩ => exact absurd rfl hb) rfl]
  exact broadcastInDim_apply _ bcast_S64x262144_S64x262144x1_0_1 (colWord y) (ix3 r l (0 : Fin 1)) (ix2 r l)
    (fun a => match a with
      | ⟨0, _⟩ => by show r.val = if (64 : Nat) = 1 then 0 else r.val; rw [if_neg (by decide)]
      | ⟨1, _⟩ => by show l.val = if (262144 : Nat) = 1 then 0 else l.val; rw [if_neg (by decide)])

/-- The float 1.0. -/
theorem ofBits_one_f32 : Ideal.ofBits .f32 0x3F800000#32 = 1 := by
  simp [Ideal.ofBits, Ideal.ieee, -EReal.coe_mul]; norm_num

/-- The accumulating scatter at an index: the operand there plus the updates that land there. -/
theorem hostScatterAdd_apply {s si su : Shape} (d : ScatterDims s si su) {w : Nat} (x : s.Idx → EReal) (idx : IVec si w)
    (upd : su.Idx → EReal) (i : s.Idx) :
    Ideal.hostScatterAdd d x idx upd i
      = x i + ∑ j ∈ Finset.univ.filter (fun j => d.resultIdx? j idx = some i), upd j := rfl

/-- The host's accumulating scatter, on the extended reals, is that sum. -/
theorem scatterAdd_eq {s si su : Shape} {φ : FTy} {w : Nat} (d : ScatterDims s si su) (x : FVec Ideal s φ) (idx : IVec si w)
    (upd : FVec Ideal su φ) :
    Host.scatterAdd (F := Ideal) (φ := φ) d x idx upd = Ideal.hostScatterAdd d x idx upd := rfl

/-- Counting by scatter. Into an operand that is 0 at `(r, v)`, add a one for every position `(r', l)` at the
    index vector `(r', n r' l)`, the `n r' l` natural numbers below 2³¹. The result at `(r, v)` is the number
    of columns `l` of row `r` with `n r l = v`: the update at `(r', l)` lands at `(r, v)` exactly when its two
    words, read signed, are `r` and `v`, that is when `r' = r` and `n r' l = v`; an `n r' l ≥ 256` lands
    outside and is dropped. -/
theorem scatter_count (x : S64x256.Idx → EReal) (idx : IVec S64x262144x2 32) (upd : S64x262144.Idx → EReal)
    (n : Fin 64 → Fin 262144 → ℕ) (hn : ∀ r l, n r l < 2 ^ 31)
    (hrow : ∀ r l, idx (ix3 r l (0 : Fin 2)) = BitVec.ofNat 32 r.val)
    (hcol : ∀ r l, idx (ix3 r l (1 : Fin 2)) = BitVec.ofNat 32 (n r l))
    (hupd : ∀ j, upd j = 1) (r : Fin 64) (v : Fin 256) (hx : x (ix2 r v) = 0) :
    Ideal.hostScatterAdd D x idx upd (ix2 r v) = ∑ l : Fin 262144, if n r l = v.val then (1 : EReal) else 0 := by
  rw [hostScatterAdd_apply, hx, zero_add, Finset.sum_filter, sum_idx2, Finset.sum_eq_single r]
  · refine Finset.sum_congr rfl fun l _ => ?_
    by_cases hv : n r l = v.val
    · have hP : D.resultIdx? (ix2 r l) idx = some (ix2 r v) :=
        (resultIdx?_eq_some_iff r l idx r v).mpr
          ⟨by rw [hrow, toInt_ofNat_small _ (by have := r.isLt; omega)],
           by rw [hcol, toInt_ofNat_small _ (hn r l), hv]⟩
      rw [if_pos hP, if_pos hv, hupd]
    · have hP : ¬ D.resultIdx? (ix2 r l) idx = some (ix2 r v) := fun hP => hv (by
        have h2 := ((resultIdx?_eq_some_iff r l idx r v).mp hP).2
        rw [hcol, toInt_ofNat_small _ (hn r l)] at h2
        exact_mod_cast h2)
      rw [if_neg hP, if_neg hv]
  · intro r' _ hne
    refine Finset.sum_eq_zero fun l _ => ?_
    have hP : ¬ D.resultIdx? (ix2 r' l) idx = some (ix2 r v) := fun hP => by
      have h1 := ((resultIdx?_eq_some_iff r' l idx r v).mp hP).1
      rw [hrow, toInt_ofNat_small _ (by have := r'.isLt; omega)] at h1
      exact hne (Fin.ext (by exact_mod_cast h1))
    rw [if_neg hP]
  · intro hr
    exact absurd (Finset.mem_univ r) hr

/-- The matrix scattered into is zero everywhere. -/
theorem zeros_apply (i : S64x256.Idx) : val_main_v2 (F := Ideal) i = 0 := by
  rw [val_main_v2_apply, val_main_cst_apply]; exact Ideal.ofBits_zero_f32

/-- Every update is a one. -/
theorem ones_apply (j : S64x262144.Idx) : val_main_v19 (F := Ideal) j = 1 := by
  rw [val_main_v19_apply, val_main_cst_3_apply]; exact ofBits_one_f32

/-- On a matrix of natural numbers below 2³¹ the reference's scatter of ones is the histogram: each entry `n`
    converts to the word of `n`, which is not negative, so its column word is `n`; by `scatter_count` position
    `(r, v)` receives one per column `l` of row `r` with entry `v`. -/
theorem scatter_eq_hist (x : (⟨S64x262144, .f32⟩ : BufTy).Contents (Elt Ideal)) (h : Cert.Hist.NatValued x) :
    Ideal.hostScatterAdd D (val_main_v2 (F := Ideal)) (idxVec (fptosi (F := Ideal) (φ := .f32) 32 x)) (val_main_v19 (F := Ideal))
      = Cert.Hist.hist x := by
  funext i
  obtain ⟨r, v, rfl⟩ : ∃ (r : Fin 64) (v : Fin 256), i = ix2 r v := ⟨i 0, i 1, eq_ix2 i⟩
  choose n hn hx using h
  generalize hy : fptosi (F := Ideal) (φ := .f32) 32 x = y
  have hyx : ∀ j, y j = Ideal.fptosi 32 (x j) := fun j => by rw [← hy]; rfl
  have hyn : ∀ r l, y (ix2 r l) = BitVec.ofNat 32 (n (ix2 r l)) := fun r l => by
    rw [hyx, hx]; exact Cert.LibNatCast.fptosi_natCast _ (hn _)
  rw [Cert.Hist.hist_apply,
    scatter_count (val_main_v2 (F := Ideal)) (idxVec y) (val_main_v19 (F := Ideal)) (fun r l => n (ix2 r l))
      (fun r l => hn (ix2 r l)) (fun r l => idxVec_row y r l)
      (fun r l => by rw [idxVec_col, colWord_apply y r l _ (hn _) (hyn r l)]) ones_apply r v (zeros_apply _)]
  refine Finset.sum_congr rfl fun l _ => ?_
  rw [hx (ix2 r l)]
  by_cases hv : n (ix2 r l) = v.val
  · rw [if_pos hv, if_pos (by rw [hv])]
  · rw [if_neg hv, if_neg (fun he => hv (by exact_mod_cast EReal.coe_eq_coe_iff.mp he))]

/-! ### The two histograms and the run -/

theorem v20_eq_hist (x0 : (⟨S64x256x32x32, .f32⟩ : BufTy).Contents (Elt Ideal))
    (h : Cert.Hist.NatValued (val_main_v0 (F := Ideal) x0)) :
    val_main_v20 (F := Ideal) x0 = Cert.Hist.hist (val_main_v0 (F := Ideal) x0) :=
  (scatterAdd_eq D (val_main_v2 (F := Ideal)) (idxVec (val_main_v1 (F := Ideal) x0)) (val_main_v19 (F := Ideal))).trans
    (scatter_eq_hist (val_main_v0 (F := Ideal) x0) h)

theorem v44_eq_hist (x1 : (⟨S64x256x32x32, .f32⟩ : BufTy).Contents (Elt Ideal))
    (h : Cert.Hist.NatValued (val_main_v24 (F := Ideal) x1)) :
    val_main_v44 (F := Ideal) x1 = Cert.Hist.hist (val_main_v24 (F := Ideal) x1) :=
  (scatterAdd_eq D (val_main_v2 (F := Ideal)) (idxVec (val_main_v25 (F := Ideal) x1)) (val_main_v19 (F := Ideal))).trans
    (scatter_eq_hist (val_main_v24 (F := Ideal) x1) h)
/-- On inputs whose entries are natural numbers below 2³¹, every weakly fair execution of the reference program
    ends with its result at `tail` of the two histograms, and the two arguments unchanged. -/
theorem run_value (m : (ℓ : Loc nD τ sig) → Buf (Elt Ideal) ℓ) (ρ : Dev nD → PrngReg)
    (h0 : ∀ c : Dev nD, Cert.Hist.NatValued (val_main_v0 (F := Ideal) (m ((c.tc : Thread nD τ).loc main_arg0))))
    (h1 : ∀ c : Dev nD, Cert.Hist.NatValued (val_main_v24 (F := Ideal) (m ((c.tc : Thread nD τ).loc main_arg1)))) :
    θ_run (defs (F := Ideal)) (onTc (τ := τ) (main (F := Ideal))) ⟨m, fun _ => 0, ρ⟩ (fun r => ∀ c : Dev nD,
      r.2.mem ((c.tc : Thread nD τ).loc main_v69)
          = tail (Cert.Hist.hist (val_main_v0 (F := Ideal) (m ((c.tc : Thread nD τ).loc main_arg0))))
              (Cert.Hist.hist (val_main_v24 (F := Ideal) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ hr c => by
    obtain ⟨e69, e0, e1⟩ := hr c
    refine ⟨?_, e0, e1⟩
    rw [e69, val_main_v69_eq, v69_eq_tail, v20_eq_hist _ (h0 c), v44_eq_hist _ (h1 c)])
    (Cert.ReferenceIdeal.ValueP.run m ρ)

end Cert.ReferenceIdeal.RefHist

end
-- ==== Proof.lean ====
/-
  The certificate of the histogram-distillation loss: the Pallas kernel program against its jnp reference, on the
  extended reals.

  Both programs reshape each of the two inputs to 64 rows of 262144 entries, build per row a histogram over the 256
  values 0 … 255, and apply the same host operations to the two histograms (add a small constant, take logarithms,
  divide by the temperature, a log-softmax of one side and a softmax of the other, the sum of p · (log p − q), a scale).
  The kernel program finds row r's count of the value v by comparing: in a grid of 4 × 16 points, each running
  thirty-two trips over 512 columns, it adds for every entry x a one into bin x (an indicator of x ≥ 128 choosing the
  half of the bins, a one-hot row of x − 128 · [x ≥ 128] choosing the lane), the sums formed by matrix products. The
  reference converts every entry to an integer, counts a negative position from the end of the row of bins, and adds
  a one at that position, dropping positions outside the bins. On an entry that is a natural number the two say the
  same: "x equals v" and "x's integer part is v" coincide, and nothing is negative. The precondition says exactly
  that of every entry (it is finite, survives the integer conversion unchanged, and is not negative), so the two
  histograms are one function of the inputs, and the results are the same host operations applied to it.

  The three frames are the generated frame runs (the reference's is its run with the result dropped), the
  idealization rewrote nothing, and the value claim puts the two runs side by side: the kernel program's result
  read off its two regions (`Cert.KernelIdeal.HistRun.run_hist`), the reference's read off its scatter
  (`Cert.ReferenceIdeal.RefHist.run_value`), the two host tails one function (`tail_eq`).
-/
import proofs.«150304_j60833916781214_2_alg».proof.Defs
import proofs.«150304_j60833916781214_2_alg».proof.Proof.Gen.Kernel
import proofs.«150304_j60833916781214_2_alg».proof.Proof.Gen.Kernel.Frame
import proofs.«150304_j60833916781214_2_alg».proof.Proof.Gen.KernelIdeal
import proofs.«150304_j60833916781214_2_alg».proof.Proof.Gen.KernelIdeal.Frame
import proofs.«150304_j60833916781214_2_alg».proof.Proof.Gen.ReferenceIdeal
import proofs.«150304_j60833916781214_2_alg».proof.Proof.Gen.Pre_finite_inputs
import proofs.«150304_j60833916781214_2_alg».proof.Proof.KernelValue
import proofs.«150304_j60833916781214_2_alg».proof.Proof.PreNat
import proofs.«150304_j60833916781214_2_alg».proof.Proof.RefHist
import Idealize.ShloMosaic.Adequacy
import Idealize.ShloMosaic.Init

set_option maxRecDepth 16384

noncomputable section

namespace Cert.Proof

open Idealize.ShloMosaic Idealize.SL.Sem

/-- The two programs' host tails are one function of the two histograms: the same operations on the same words. -/
theorem tail_eq [Cert.KernelIdeal.Facts] [Cert.ReferenceIdeal.Facts] (hs ht : FVec Ideal Cert.KernelIdeal.S64x256 .f32) :
    Cert.ReferenceIdeal.RefHist.tail hs ht = Cert.KernelIdeal.RunValue.tail hs ht := rfl

/-- At the ideal values, from memories agreeing on the two inputs and under the precondition, both programs end with
    the host tail of the two inputs' histograms. -/
theorem algebraic [hK : Cert.KernelIdeal.Facts] [hR : Cert.ReferenceIdeal.Facts] [hP : Cert.Pre_finite_inputs.Facts] :
    Cert.algebraic_KernelIdeal_ReferenceIdeal := by
  intro m ρ m' ρ' hpre hagree
  have hnat := fun c => Cert.Hist.PreNat.nat_of_pre _ _ (hpre c)
  refine ⟨fun c => Cert.ReferenceIdeal.RefHist.tail
      (Cert.Hist.hist (Cert.ReferenceIdeal.ReadP.val_main_v0 (F := Ideal)
        (m ((c.tc : Thread Cert.KernelIdeal.nD Cert.KernelIdeal.τ).loc Cert.KernelIdeal.main_arg0))))
      (Cert.Hist.hist (Cert.ReferenceIdeal.ReadP.val_main_v24 (F := Ideal)
        (m ((c.tc : Thread Cert.KernelIdeal.nD Cert.KernelIdeal.τ).loc Cert.KernelIdeal.main_arg1)))), ?_, ?_⟩
  · refine (θ_run (Cert.KernelIdeal.defs (F := Ideal)) _ _).mono (fun r h c => ⟨(h c).1.trans ?_, (h c).2⟩)
      (Cert.KernelIdeal.HistRun.run_hist m ρ (fun c => (hnat c).1) (fun c => (hnat c).2))
    exact (tail_eq _ _).symm
  · have h0 : ∀ c : Dev Cert.ReferenceIdeal.nD, Cert.Hist.NatValued (Cert.ReferenceIdeal.ReadP.val_main_v0 (F := Ideal)
        (m' ((c.tc : Thread Cert.ReferenceIdeal.nD Cert.ReferenceIdeal.τ).loc Cert.ReferenceIdeal.main_arg0))) := fun c i => by
      rw [(hagree c).1]
      unfold Cert.ReferenceIdeal.ReadP.val_main_v0 shapeCast
      exact (hnat c).1 _
    have h1 : ∀ c : Dev Cert.ReferenceIdeal.nD, Cert.Hist.NatValued (Cert.ReferenceIdeal.ReadP.val_main_v24 (F := Ideal)
        (m' ((c.tc : Thread Cert.ReferenceIdeal.nD Cert.ReferenceIdeal.τ).loc Cert.ReferenceIdeal.main_arg1))) := fun c i => by
      rw [(hagree c).2]
      unfold Cert.ReferenceIdeal.ReadP.val_main_v24 shapeCast
      exact (hnat c).2 _
    refine (θ_run (Cert.ReferenceIdeal.defs (F := Ideal)) _ _).mono
      (fun r h c => ⟨(h c).1.trans (by rw [(hagree c).1, (hagree c).2]), (h c).2⟩)
      (Cert.ReferenceIdeal.RefHist.run_value m' ρ' h0 h1)

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.ValueP.run (F := Ideal) m ρ),
    trivial,
    algebraic⟩

end Cert.Proof

end
